-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v93)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v93) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S_ : Shape := ⟨0, ![]⟩

class Facts : Prop where
  bcast_S_S50000x512 : S_.BroadcastsInDim S50000x512 (![] : Fin 0 → Fin S50000x512.rank)
  reducesTo_S50000x512_S_d0_1 : S50000x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S50000x512 .f32) (main_arg1 : IVec S2x800000 32) (main_arg2 : FVec F S512x256 .f32) (main_arg3 : FVec F S256 .f32) (main_arg4 : FVec F S256x128 .f32) (main_arg5 : FVec F S128 .f32) : IVec S_ 1 :=
  let main_v0 : FVec F S50000x512 .f32 := Host.absf main_arg0
  let main_cst : FVec F S_ .f32 := constant S_ .f32 0x7F800000#32
  let main_v1 : FVec F S50000x512 .f32 := broadcastInDim S50000x512 ![] bcast_S_S50000x512 main_cst
  let main_v2 : IVec S50000x512 1 := cmpf .olt main_v0 main_v1
  let main_c : IVec S_ 1 := constantI S_ 1 1#1
  let main_v3 : IVec S_ 1 := (fun x v => Host.reduce IntOp.andi x v reducesTo_S50000x512_S_d0_1 h_S_) main_v2 main_c
  let main_v4 : FVec F S512x256 .f32 := Host.absf main_arg2
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x128 .f32 := Host.absf main_arg4
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg5 main_v13 main_v16
-- ==== Kernel.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S2000x512 : Shape := ⟨2, ![2000, 512]⟩
abbrev S2000x256 : Shape := ⟨2, ![2000, 256]⟩
abbrev S800000x256 : Shape := ⟨2, ![800000, 256]⟩
abbrev S50000x1 : Shape := ⟨2, ![50000, 1]⟩
abbrev S1x256 : Shape := ⟨2, ![1, 256]⟩
abbrev S2000x1 : Shape := ⟨2, ![2000, 1]⟩
abbrev S50000x128 : Shape := ⟨2, ![50000, 128]⟩
abbrev S2000x128 : Shape := ⟨2, ![2000, 128]⟩
abbrev S800000x128 : Shape := ⟨2, ![800000, 128]⟩
abbrev S1x128 : Shape := ⟨2, ![1, 128]⟩

abbrev nBuf : Space → Nat
  | .hbm => 124
  | .vmem => 28
  | .smem => 0
  | _ => 0

abbrev bufTy : (tb : Table) → Fin (tcTables nBuf tb) → BufTy
  | .hbm, ⟨0, _⟩ => ⟨S50000x512, .f32⟩
  | .hbm, ⟨1, _⟩ => ⟨S2x800000, .i32⟩
  | .hbm, ⟨2, _⟩ => ⟨S512x256, .f32⟩
  | .hbm, ⟨3, _⟩ => ⟨S256, .f32⟩
  | .hbm, ⟨4, _⟩ => ⟨S256x128, .f32⟩
  | .hbm, ⟨5, _⟩ => ⟨S128, .f32⟩
  | .hbm, ⟨6, _⟩ => ⟨S1x800000, .i32⟩
  | .hbm, ⟨7, _⟩ => ⟨S800000, .i32⟩
  | .hbm, ⟨8, _⟩ => ⟨S1x800000, .i32⟩
  | .hbm, ⟨9, _⟩ => ⟨S800000, .i32⟩
  | .hbm, ⟨10, _⟩ => ⟨S_, .f32⟩
  | .hbm, ⟨11, _⟩ => ⟨S50000, .f32⟩
  | .hbm, ⟨12, _⟩ => ⟨S_, .i32⟩
  | .hbm, ⟨13, _⟩ => ⟨S800000, .i32⟩
  | .hbm, ⟨14, _⟩ => ⟨S800000, .i1⟩
  | .hbm, ⟨15, _⟩ => ⟨S_, .i32⟩
  | .hbm, ⟨16, _⟩ => ⟨S800000, .i32⟩
  | .hbm, ⟨17, _⟩ => ⟨S800000, .i32⟩
  | .hbm, ⟨18, _⟩ => ⟨S800000, .i32⟩
  | .hbm, ⟨19, _⟩ => ⟨S800000x1, .i32⟩
  | .hbm, ⟨20, _⟩ => ⟨S_, .f32⟩
  | .hbm, ⟨21, _⟩ => ⟨S800000, .f32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S50000, .f32⟩
  | .hbm, ⟨27, _⟩ => ⟨S50000x256, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000, .f32⟩
  | .hbm, ⟨46, _⟩ => ⟨S800000, .f32⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x256, .f32⟩
  | .hbm, ⟨56, _⟩ => ⟨S800000x1, .f32⟩
  | .hbm, ⟨57, _⟩ => ⟨S800000x256, .f32⟩
  | .hbm, ⟨58, _⟩ => ⟨S800000x256, .f32⟩
  | .hbm, ⟨59, _⟩ => ⟨S_, .f32⟩
  | .hbm, ⟨60, _⟩ => ⟨S50000x256, .f32⟩
  | .hbm, ⟨61, _⟩ => ⟨S800000x1, .i32⟩
  | .hbm, ⟨62, _⟩ => ⟨S50000x256, .f32⟩
  | .hbm, ⟨63, _⟩ => ⟨S50000, .f32⟩
  | .hbm, ⟨64, _⟩ => ⟨S50000x1, .f32⟩
  | .hbm, ⟨65, _⟩ => ⟨S1x256, .f32⟩
  | .hbm, ⟨66, _⟩ => ⟨S50000x256, .f32⟩
  | .hbm, ⟨67, _⟩ => ⟨S_, .f32⟩
  | .hbm, ⟨68, _⟩ => ⟨S50000, .f32⟩
  | .hbm, ⟨69, _⟩ => ⟨S_, .i32⟩
  | .hbm, ⟨70, _⟩ => ⟨S800000, .i32⟩
  | .hbm, ⟨71, _⟩ => ⟨S800000, .i1⟩
  | .hbm, ⟨72, _⟩ => ⟨S_, .i32⟩
  | .hbm, ⟨73, _⟩ => ⟨S800000, .i32⟩
  | .hbm, ⟨74, _⟩ => ⟨S800000, .i32⟩
  | .hbm, ⟨75, _⟩ => ⟨S800000, .i32⟩
  | .hbm, ⟨76, _⟩ => ⟨S800000x1, .i32⟩
  | .hbm, ⟨77, _⟩ => ⟨S_, .f32⟩
  | .hbm, ⟨78, _⟩ => ⟨S800000, .f32⟩
  | .hbm, ⟨79, _⟩ => ⟨S50000, .f32⟩
  | .hbm, ⟨80, _⟩ => ⟨S_, .f32⟩
  | .hbm, ⟨81, _⟩ => ⟨S50000, .f32⟩
  | .hbm, ⟨82, _⟩ => ⟨S50000, .f32⟩
  | .hbm, ⟨83, _⟩ => ⟨S50000, .f32⟩
  | .hbm, ⟨84, _⟩ => ⟨S50000x128, .f32⟩
  | .hbm, ⟨85, _⟩ => ⟨S_, .i32⟩
  | .hbm, ⟨86, _⟩ => ⟨S800000, .i32⟩
  | .hbm, ⟨87, _⟩ => ⟨S800000, .i1⟩
  | .hbm, ⟨88, _⟩ => ⟨S_, .i32⟩
  | .hbm, ⟨89, _⟩ => ⟨S800000, .i32⟩
  | .hbm, ⟨90, _⟩ => ⟨S800000, .i32⟩
  | .hbm, ⟨91, _⟩ => ⟨S800000, .i32⟩
  | .hbm, ⟨92, _⟩ => ⟨S800000x1, .i32⟩
  | .hbm, ⟨93, _⟩ => ⟨S800000, .f32⟩
  | .hbm, ⟨94, _⟩ => ⟨S_, .i32⟩
  | .hbm, ⟨95, _⟩ => ⟨S800000, .i32⟩
  | .hbm, ⟨96, _⟩ => ⟨S800000, .i1⟩
  | .hbm, ⟨97, _⟩ => ⟨S_, .i32⟩
  | .hbm, ⟨98, _⟩ => ⟨S800000, .i32⟩
  | .hbm, ⟨99, _⟩ => ⟨S800000, .i32⟩
  | .hbm, ⟨100, _⟩ => ⟨S800000, .i32⟩
  | .hbm, ⟨101, _⟩ => ⟨S800000x1, .i32⟩
  | .hbm, ⟨102, _⟩ => ⟨S800000, .f32⟩
  | .hbm, ⟨103, _⟩ => ⟨S800000, .f32⟩
  | .hbm, ⟨104, _⟩ => ⟨S_, .i32⟩
  | .hbm, ⟨105, _⟩ => ⟨S800000, .i32⟩
  | .hbm, ⟨106, _⟩ => ⟨S800000, .i1⟩
  | .hbm, ⟨107, _⟩ => ⟨S_, .i32⟩
  | .hbm, ⟨108, _⟩ => ⟨S800000, .i32⟩
  | .hbm, ⟨109, _⟩ => ⟨S800000, .i32⟩
  | .hbm, ⟨110, _⟩ => ⟨S800000, .i32⟩
  | .hbm, ⟨111, _⟩ => ⟨S800000x1, .i32⟩
  | .hbm, ⟨112, _⟩ => ⟨S800000x128, .f32⟩
  | .hbm, ⟨113, _⟩ => ⟨S800000x1, .f32⟩
  | .hbm, ⟨114, _⟩ => ⟨S800000x128, .f32⟩
  | .hbm, ⟨115, _⟩ => ⟨S800000x128, .f32⟩
  | .hbm, ⟨116, _⟩ => ⟨S_, .f32⟩
  | .hbm, ⟨117, _⟩ => ⟨S50000x128, .f32⟩
  | .hbm, ⟨118, _⟩ => ⟨S800000x1, .i32⟩
  | .hbm, ⟨119, _⟩ => ⟨S50000x128, .f32⟩
  | .hbm, ⟨120, _⟩ => ⟨S50000, .f32⟩
  | .hbm, ⟨121, _⟩ => ⟨S50000x1, .f32⟩
  | .hbm, ⟨122, _⟩ => ⟨S1x128, .f32⟩
  | .hbm, ⟨123, _⟩ => ⟨S50000x128, .f32⟩
  | .local _ .vmem, ⟨0, _⟩ => ⟨S2000x512, .f32⟩
  | .local _ .vmem, ⟨1, _⟩ => ⟨S2000x512, .f32⟩
  | .local _ .vmem, ⟨2, _⟩ => ⟨S512x256, .f32⟩
  | .local _ .vmem, ⟨3, _⟩ => ⟨S2000x256, .f32⟩
  | .local _ .vmem, ⟨4, _⟩ => ⟨S2000x256, .f32⟩
  | .local _ .vmem, ⟨5, _⟩ => ⟨S2000x256, .f32⟩
  | .local _ .vmem, ⟨6, _⟩ => ⟨S2000x256, .f32⟩
  | .local _ .vmem, ⟨7, _⟩ => ⟨S2000x256, .f32⟩
  | .local _ .vmem, ⟨8, _⟩ => ⟨S2000x256, .f32⟩
  | .local _ .vmem, ⟨9, _⟩ => ⟨S2000x1, .f32⟩
  | .local _ .vmem, ⟨10, _⟩ => ⟨S2000x1, .f32⟩
  | .local _ .vmem, ⟨11, _⟩ => ⟨S1x256, .f32⟩
  | .local _ .vmem, ⟨12, _⟩ => ⟨S2000x256, .f32⟩
  | .local _ .vmem, ⟨13, _⟩ => ⟨S2000x256, .f32⟩
  | .local _ .vmem, ⟨14, _⟩ => ⟨S2000x256, .f32⟩
  | .local _ .vmem, ⟨15, _⟩ => ⟨S2000x256, .f32⟩
  | .local _ .vmem, ⟨16, _⟩ => ⟨S256x128, .f32⟩
  | .local _ .vmem, ⟨17, _⟩ => ⟨S2000x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | _, _ => ⟨S50000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_10 : Ref sig .tc := ⟨.hbm, 67, rfl⟩
abbrev main_v49 : Ref sig .tc := ⟨.hbm, 68, rfl⟩
abbrev main_c_11 : Ref sig .tc := ⟨.hbm, 69, rfl⟩
abbrev main_v50 : Ref sig .tc := ⟨.hbm, 70, rfl⟩
abbrev main_v51 : Ref sig .tc := ⟨.hbm, 71, rfl⟩
abbrev main_c_12 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_c_15 : Ref sig .tc := ⟨.hbm, 85, rfl⟩
abbrev main_v62 : Ref sig .tc := ⟨.hbm, 86, rfl⟩
abbrev main_v63 : Ref sig .tc := ⟨.hbm, 87, rfl⟩
abbrev main_c_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_17 : Ref sig .tc := ⟨.hbm, 94, rfl⟩
abbrev main_v69 : Ref sig .tc := ⟨.hbm, 95, rfl⟩
abbrev main_v70 : Ref sig .tc := ⟨.hbm, 96, rfl⟩
abbrev main_c_18 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_19 : Ref sig .tc := ⟨.hbm, 104, rfl⟩
abbrev main_v77 : Ref sig .tc := ⟨.hbm, 105, rfl⟩
abbrev main_v78 : Ref sig .tc := ⟨.hbm, 106, rfl⟩
abbrev main_c_20 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_21 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc3_stg3_0 : Ref sig .tc := ⟨.vmem, 25, rfl⟩
abbrev cc3_stg4_0 : Ref sig .tc := ⟨.vmem, 26, rfl⟩
abbrev cc3_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc3_sem0_0 : DmaSem sig := 19
abbrev cc3_sem0_1 : DmaSem sig := 20
abbrev cc3_sem1_0 : DmaSem sig := 21
abbrev cc3_sem1_1 : DmaSem sig := 22
abbrev cc3_sem2_0 : DmaSem sig := 23
abbrev cc3_sem2_1 : DmaSem sig := 24
abbrev cc3_sem3_0 : DmaSem sig := 25
abbrev cc3_sem4_0 : DmaSem sig := 26
abbrev cc3_sem4_1 : DmaSem sig := 27

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x128 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S512x256_S512x256_0_0 : ∀ a, (![0, 0] : Fin 2 → Nat) a + S512x256.size a ≤ S512x256.size a
  h_S512x256 : 0 < S512x256.numel
  inb_S2000x256_S2000x256_0_0 : ∀ a, (![0, 0] : Fin 2 → Nat) a + S2000x256.size a ≤ S2000x256.size a
  h_S2000x256 : 0 < S2000x256.numel
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  shapeCasts_S50000_S50000x1 : S50000.ShapeCasts S50000x1
  shapeCasts_S256_S1x256 : S256.ShapeCasts S1x256
  shapeCasts_S2000x256_S2000x256 : S2000x256.ShapeCasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x128_S256x128_0_0 : ∀ a, (![0, 0] : Fin 2 → Nat) a + S256x128.size a ≤ S256x128.size a
  h_S256x128 : 0 < S256x128.numel
  inb_S2000x128_S2000x128_0_0 : ∀ a, (![0, 0] : Fin 2 → Nat) a + S2000x128.size a ≤ S2000x128.size a
  h_S2000x128 : 0 < S2000x128.numel
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  broadcasts_S2000x1_S2000x128 : S2000x1.Broadcasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  scatter_S50000_S800000x1_S800000_n_0_0_1_wf : ScatterDims.WF S50000 S800000x1 S800000 [] [0] [0] 1
  dot_S2000x512_S512x256_S2000x256_1_0_0_1_n_n_wf : DotDims.WF S2000x512 S512x256 S2000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x128_S2000x128_1_0_0_1_n_n_wf : DotDims.WF S2000x256 S256x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S50000x512.size a
  hwx0_0 : ∀ i : grid0.Coords, EltTy.bits .f32 = 32 ∨ (Rect.block (s := S50000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S50000x256.size a
  hwx0_2 : ∀ i : grid0.Coords, EltTy.bits .f32 = 32 ∨ (Rect.block (s := S50000x256) S2000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x256.size a ≤ S1x256.size a
  hwx1_3 : ∀ i : grid1.Coords, EltTy.bits .f32 = 32 ∨ (Rect.block (s := S1x256) S1x256.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x256.size a ≤ S50000x256.size a
  hwx1_4 : ∀ i : grid1.Coords, EltTy.bits .f32 = 32 ∨ (Rect.block (s := S50000x256) S2000x256.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x128.size a ≤ S256x128.size a
  hwx2_1 : ∀ i : grid2.Coords, EltTy.bits .f32 = 32 ∨ (Rect.block (s := S256x128) S256x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S50000x128.size a
  hwx2_2 : ∀ i : grid2.Coords, EltTy.bits .f32 = 32 ∨ (Rect.block (s := S50000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x128.size a ≤ S50000x128.size a
  hwx3_4 : ∀ i : grid3.Coords, EltTy.bits .f32 = 32 ∨ (Rect.block (s := S50000x128) S2000x128.size (cc3_transform_4 i) (hinb3_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x512_S512x256_S2000x256_1_0_0_1_n_n : DotDims S2000x512 S512x256 S2000x256 where
  lhsContracting := [1]
  rhsContracting := [0]
  lhsNonContracting := [0]
  rhsNonContracting := [1]
  lhsBatch := []
  rhsBatch := []
  wf := dot_S2000x512_S512x256_S2000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S2000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v46) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S1x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v48) S2000x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v48) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v61) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v91) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v92) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v93) S2000x128.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000x512 : Shape := ⟨2, ![50000, 512]⟩
abbrev S2x800000 : Shape := ⟨2, ![2, 800000]⟩
abbrev S512x256 : Shape := ⟨2, ![512, 256]⟩
abbrev S256 : Shape := ⟨1, ![256]⟩
abbrev S256x128 : Shape := ⟨2, ![256, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x256 : Shape := ⟨2, ![50000, 256]⟩
abbrev S800000x256 : Shape := ⟨2, ![800000, 256]⟩
abbrev S50000x1 : Shape := ⟨2, ![50000, 1]⟩
abbrev S1x256 : Shape := ⟨2, ![1, 256]⟩
abbrev S50000x128 : Shape := ⟨2, ![50000, 128]⟩
abbrev S800000x128 : Shape := ⟨2, ![800000, 128]⟩
abbrev S1x128 : Shape := ⟨2, ![1, 128]⟩

abbrev nBuf : Space → Nat
  | .hbm => 152
  | .vmem => 0
  | .smem => 0
  | _ => 0

abbrev hbmTy0_0 (i : Nat) : BufTy := match i % 128 with
  | 0 => ⟨S50000x512, .f32⟩
  | 1 => ⟨S2x800000, .i32⟩
  | 2 => ⟨S512x256, .f32⟩
  | 3 => ⟨S256, .f32⟩
  | 4 => ⟨S256x128, .f32⟩
  | 5 => ⟨S128, .f32⟩
  | 6 => ⟨S1x800000, .i32⟩
  | 7 => ⟨S800000, .i32⟩
  | 8 => ⟨S1x800000, .i32⟩
  | 9 => ⟨S800000, .i32⟩
  | 10 => ⟨S_, .f32⟩
  | 11 => ⟨S50000, .f32⟩
  | 12 => ⟨S_, .i32⟩
  | 13 => ⟨S800000, .i32⟩
  | 14 => ⟨S800000, .i1⟩
  | 15 => ⟨S_, .i32⟩
  | 16 => ⟨S800000, .i32⟩
  | 17 => ⟨S800000, .i32⟩
  | 18 => ⟨S800000, .i32⟩
  | 19 => ⟨S800000x1, .i32⟩
  | 20 => ⟨S_, .f32⟩
  | 21 => ⟨S800000, .f32⟩
  | 22 => ⟨S50000, .f32⟩
  | 23 => ⟨S_, .f32⟩
  | 24 => ⟨S50000, .f32⟩
  | 25 => ⟨S50000, .f32⟩
  | 26 => ⟨S50000, .f32⟩
  | 27 => ⟨S50000x256, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000, .f32⟩
  | 37 => ⟨S_, .i32⟩
  | 38 => ⟨S800000, .i32⟩
  | 39 => ⟨S800000, .i1⟩
  | 40 => ⟨S_, .i32⟩
  | 41 => ⟨S800000, .i32⟩
  | 42 => ⟨S800000, .i32⟩
  | 43 => ⟨S800000, .i32⟩
  | 44 => ⟨S800000x1, .i32⟩
  | 45 => ⟨S800000, .f32⟩
  | 46 => ⟨S800000, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x256, .f32⟩
  | 56 => ⟨S800000x1, .f32⟩
  | 57 => ⟨S800000x256, .f32⟩
  | 58 => ⟨S800000x256, .f32⟩
  | 59 => ⟨S_, .f32⟩
  | 60 => ⟨S50000x256, .f32⟩
  | 61 => ⟨S800000x1, .i32⟩
  | 62 => ⟨S50000x256, .f32⟩
  | 63 => ⟨S50000, .f32⟩
  | 64 => ⟨S50000x1, .f32⟩
  | 65 => ⟨S50000x256, .f32⟩
  | 66 => ⟨S50000x256, .f32⟩
  | 67 => ⟨S50000x256, .f32⟩
  | 68 => ⟨S1x256, .f32⟩
  | 69 => ⟨S50000x256, .f32⟩
  | 70 => ⟨S50000x256, .f32⟩
  | 71 => ⟨S_, .f32⟩
  | 72 => ⟨S_, .f32⟩
  | 73 => ⟨S50000x256, .f32⟩
  | 74 => ⟨S50000x256, .i1⟩
  | 75 => ⟨S_, .f32⟩
  | 76 => ⟨S50000x256, .f32⟩
  | 77 => ⟨S50000x256, .f32⟩
  | 78 => ⟨S50000x256, .f32⟩
  | 79 => ⟨S1x800000, .i32⟩
  | 80 => ⟨S800000, .i32⟩
  | 81 => ⟨S1x800000, .i32⟩
  | 82 => ⟨S800000, .i32⟩
  | 83 => ⟨S_, .f32⟩
  | 84 => ⟨S50000, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S_, .f32⟩
  | 94 => ⟨S800000, .f32⟩
  | 95 => ⟨S50000, .f32⟩
  | 96 => ⟨S_, .f32⟩
  | 97 => ⟨S50000, .f32⟩
  | 98 => ⟨S50000, .f32⟩
  | 99 => ⟨S50000, .f32⟩
  | 100 => ⟨S50000x128, .f32⟩
  | 101 => ⟨S_, .i32⟩
  | 102 => ⟨S800000, .i32⟩
  | 103 => ⟨S800000, .i1⟩
  | 104 => ⟨S_, .i32⟩
  | 105 => ⟨S800000, .i32⟩
  | 106 => ⟨S800000, .i32⟩
  | 107 => ⟨S800000, .i32⟩
  | 108 => ⟨S800000x1, .i32⟩
  | 109 => ⟨S800000, .f32⟩
  | 110 => ⟨S_, .i32⟩
  | 111 => ⟨S800000, .i32⟩
  | 112 => ⟨S800000, .i1⟩
  | 113 => ⟨S_, .i32⟩
  | 114 => ⟨S800000, .i32⟩
  | 115 => ⟨S800000, .i32⟩
  | 116 => ⟨S800000, .i32⟩
  | 117 => ⟨S800000x1, .i32⟩
  | 118 => ⟨S800000, .f32⟩
  | 119 => ⟨S800000, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x512, .f32⟩

abbrev hbmTy0_1 (i : Nat) : BufTy := match i % 128 with
  | 0 => ⟨S800000x128, .f32⟩
  | 1 => ⟨S800000x1, .f32⟩
  | 2 => ⟨S800000x128, .f32⟩
  | 3 => ⟨S800000x128, .f32⟩
  | 4 => ⟨S_, .f32⟩
  | 5 => ⟨S50000x128, .f32⟩
  | 6 => ⟨S800000x1, .i32⟩
  | 7 => ⟨S50000x128, .f32⟩
  | 8 => ⟨S50000, .f32⟩
  | 9 => ⟨S50000x1, .f32⟩
  | 10 => ⟨S50000x128, .f32⟩
  | 11 => ⟨S50000x128, .f32⟩
  | 12 => ⟨S50000x128, .f32⟩
  | 13 => ⟨S1x128, .f32⟩
  | 14 => ⟨S50000x128, .f32⟩
  | 15 => ⟨S50000x128, .f32⟩
  | 16 => ⟨S_, .f32⟩
  | 17 => ⟨S_, .f32⟩
  | 18 => ⟨S50000x128, .f32⟩
  | 19 => ⟨S50000x128, .i1⟩
  | 20 => ⟨S_, .f32⟩
  | 21 => ⟨S50000x128, .f32⟩
  | 22 => ⟨S50000x128, .f32⟩
  | 23 => ⟨S50000x128, .f32⟩
  | _ => ⟨S50000x512, .f32⟩

abbrev hbmTy (i : Nat) : BufTy := match i / 128 with
  | 0 => hbmTy0_0 i
  | 1 => hbmTy0_1 i
  | _ => ⟨S50000x512, .f32⟩

abbrev bufTy : (tb : Table) → Fin (tcTables nBuf tb) → BufTy
  | .hbm, ⟨i, _⟩ => hbmTy i
  | _, _ => ⟨S50000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_c : Ref sig .tc := ⟨.hbm, 12, rfl⟩
abbrev main_v5 : Ref sig .tc := ⟨.hbm, 13, rfl⟩
abbrev main_v6 : Ref sig .tc := ⟨.hbm, 14, rfl⟩
abbrev main_c_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_c_5 : Ref sig .tc := ⟨.hbm, 37, rfl⟩
abbrev main_v24 : Ref sig .tc := ⟨.hbm, 38, rfl⟩
abbrev main_v25 : Ref sig .tc := ⟨.hbm, 39, rfl⟩
abbrev main_c_6 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_7 : Ref sig .tc := ⟨.hbm, 47, rfl⟩
abbrev main_v32 : Ref sig .tc := ⟨.hbm, 48, rfl⟩
abbrev main_v33 : Ref sig .tc := ⟨.hbm, 49, rfl⟩
abbrev main_c_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_call0_cst : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_cst_11 : Ref sig .tc := ⟨.hbm, 83, rfl⟩
abbrev main_v58 : Ref sig .tc := ⟨.hbm, 84, rfl⟩
abbrev main_c_12 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_14 : Ref sig .tc := ⟨.hbm, 93, rfl⟩
abbrev main_v65 : Ref sig .tc := ⟨.hbm, 94, rfl⟩
abbrev main_v66 : Ref sig .tc := ⟨.hbm, 95, rfl⟩
abbrev main_cst_15 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_16 : Ref sig .tc := ⟨.hbm, 101, rfl⟩
abbrev main_v71 : Ref sig .tc := ⟨.hbm, 102, rfl⟩
abbrev main_v72 : Ref sig .tc := ⟨.hbm, 103, rfl⟩
abbrev main_c_17 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c_18 : Ref sig .tc := ⟨.hbm, 110, rfl⟩
abbrev main_v78 : Ref sig .tc := ⟨.hbm, 111, rfl⟩
abbrev main_v79 : Ref sig .tc := ⟨.hbm, 112, rfl⟩
abbrev main_c_19 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_c_20 : Ref sig .tc := ⟨.hbm, 120, rfl⟩
abbrev main_v86 : Ref sig .tc := ⟨.hbm, 121, rfl⟩
abbrev main_v87 : Ref sig .tc := ⟨.hbm, 122, rfl⟩
abbrev main_c_21 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_cst_22 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_cst_23 : Ref sig .tc := ⟨.hbm, 144, rfl⟩
abbrev main_call1_cst : Ref sig .tc := ⟨.hbm, 145, rfl⟩
abbrev main_call1_v0 : Ref sig .tc := ⟨.hbm, 146, rfl⟩
abbrev main_call1_v1 : Ref sig .tc := ⟨.hbm, 147, rfl⟩
abbrev main_call1_v2 : Ref sig .tc := ⟨.hbm, 148, rfl⟩
abbrev main_call1_v3 : Ref sig .tc := ⟨.hbm, 149, rfl⟩
abbrev main_call1_v4 : Ref sig .tc := ⟨.hbm, 150, rfl⟩
abbrev main_v107 : Ref sig .tc := ⟨.hbm, 151, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S50000 : S_.BroadcastsInDim S50000 (![] : Fin 0 → Fin S50000.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x1_S800000x256_0_1 : S800000x1.BroadcastsInDim S800000x256 (![0, 1] : Fin 2 → Fin S800000x256.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  scatter_S50000_S800000x1_S800000_n_0_0_1_wf : ScatterDims.WF S50000 S800000x1 S800000 [] [0] [0] 1
  dot_S50000x512_S512x256_S50000x256_1_0_0_1_n_n_wf : DotDims.WF S50000x512 S512x256 S50000x256 [1] [0] [0] [1] [] []
  gather_S50000_S800000x1_S800000_n_0_n_n_0_1_1_wf : GatherDims.WF S50000 S800000x1 S800000 [] [0] [] [0] [] 1 ![1]
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x128_S50000x128_1_0_0_1_n_n_wf : DotDims.WF S50000x256 S256x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x512_S512x256_S50000x256_1_0_0_1_n_n : DotDims S50000x512 S512x256 S50000x256 where
  lhsContracting := [1]
  rhsContracting := [0]
  lhsNonContracting := [0]
  rhsNonContracting := [1]
  lhsBatch := []
  rhsBatch := []
  wf := dot_S50000x512_S512x256_S50000x256_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf

class Facts : Prop extends Facts₀ where

variable [Facts]
-- ==== Proof.RunValue.lean ====
/-
  The idealized kernel's run with its result named.

  @main is four kernel regions among stretches of host operations. Every weakly fair execution ends, nothing faulting, with
  every unscoped buffer at the contents the last segment boundary gives it: the fold through the segments from the launch
  memory. The six argument arrays come back as launched; the result array holds what the fold leaves at its buffer, which
  the value lemmas then read stage by stage. The argument is the launch of the segments with the final thread state read
  against the final memory; only the conclusion names one more buffer.
-/
import proofs.«120794_j75333726371971_1_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting; the result buffer ends at the last boundary's
    contents and the argument arrays as launched. -/
theorem run : θ_run defs (onTc (τ := τ) (main (F := F))) ⟨m, fun _ => 0, ρ⟩ (fun r => ∀ c : Dev nD,
      r.2.mem ((c.tc : Thread nD τ).loc main_v93) = W8 m ρ c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v93 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

end Cert.KernelIdeal.RunValue

end
-- ==== Proof.RefSpec.lean ====
/-
  The reference's result as one function of its six argument arrays, stage by stage.

  Two graph-convolution layers over N = 50000 nodes and E = 800000 edges. An edge e runs from src e to dst e (rows 0 and 1
  of the edge array, a negative entry counted from the end). With deg n = 1 + the number of edges into n and
  dinv = deg^(-1/2), a layer maps features Z and weights W, b to
      leaky ((agg + dinv² · H) + b),   H = Z · W,   agg n = Σ over edges e into n of dinv (src e) · dinv (dst e) · H (src e),
  the sum over edges being the host's accumulating scatter. Each stage below is the host operation the reference
  applies, on the operands it applies it to; `out` composes the two layers.
-/
import proofs.«120794_j75333726371971_1_alg».proof.ReferenceIdeal
import proofs.«120794_j75333726371971_1_alg».proof.Proof.Gen.ReferenceIdeal
import Idealize.ShloMosaic.PureOps.Ideal

noncomputable section

namespace Cert.ReferenceIdeal.Spec

open Idealize.ShloMosaic Cert.ReferenceIdeal Cert.ReferenceIdeal.Gen

/-- Integer and float arrays of a shape, as the host operations take them. -/
abbrev I32 (s : Shape) := IVec s 32
abbrev F32 (s : Shape) := FVec Ideal s .f32

/-- Row 0 of the edge array: each edge's source node. -/
def src (ei : I32 S2x800000) : I32 S800000 :=
  fun i => shapeCast S800000 (extractStridedSlice S1x800000 ![0, 0] ei slices_S2x800000_S1x800000_0_0) shapeCasts_S1x800000_S800000 i

/-- Row 1 of the edge array: each edge's destination node. -/
def dst (ei : I32 S2x800000) : I32 S800000 :=
  fun i => shapeCast S800000 (extractStridedSlice S1x800000 ![1, 0] ei slices_S2x800000_S1x800000_1_0) shapeCasts_S1x800000_S800000 i

/-- A node index counted from the end when negative (v + 50000 where v < 0), laid out as a column of start indices. -/
def wrapCol (v : I32 S800000) : I32 S800000x1 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- A node index as given, laid out as a column of start indices. -/
def plainCol (v : I32 S800000) : I32 S800000x1 :=
  broadcastInDim S800000x1 ![0] bcast_S800000_S800000x1_0 v

/-- deg^(-1/2): one plus the number of edges into each node, under the reciprocal square root. -/
def dinv (ei : I32 S2x800000) : F32 S50000 :=
  Host.rsqrt (addf
    (Host.scatterAdd scatter_S50000_S800000x1_S800000_n_0_0_1
      (broadcastInDim S50000 ![] bcast_S_S50000 (constant (F := Ideal) S_ .f32 0x00000000#32))
      (wrapCol (dst ei))
      (broadcastInDim S800000 ![] bcast_S_S800000 (constant (F := Ideal) S_ .f32 0x3F800000#32)))
    (broadcastInDim S50000 ![] bcast_S_S50000 (constant (F := Ideal) S_ .f32 0x3F800000#32)))

/-- Each edge's weight dinv (src e) · dinv (dst e). -/
def coef (ei : I32 S2x800000) : F32 S800000 :=
  mulf (Host.gather gather_S50000_S800000x1_S800000_n_0_n_n_0_1_1 (dinv ei) (wrapCol (src ei)))
    (Host.gather gather_S50000_S800000x1_S800000_n_0_n_n_0_1_1 (dinv ei) (wrapCol (dst ei)))

/-- The weighted rows H (src e) summed into their destinations, 256 features. -/
def agg256 (ei : I32 S2x800000) (H : F32 S50000x256) : F32 S50000x256 :=
  Host.scatterAdd scatter_S50000x256_S800000x1_S800000x256_1_0_0_1
    (broadcastInDim S50000x256 ![] bcast_S_S50000x256 (constant (F := Ideal) S_ .f32 0x00000000#32))
    (plainCol (dst ei))
    (mulf (Host.gather gather_S50000x256_S800000x1_S800000x256_1_0_n_n_0_1_1256 H (wrapCol (src ei)))
      (broadcastInDim S800000x256 ![0, 1] bcast_S800000x1_S800000x256_0_1
        (broadcastInDim S800000x1 ![0] bcast_S800000_S800000x1_0 (coef ei))))

/-- The weighted rows H (src e) summed into their destinations, 128 features. -/
def agg128 (ei : I32 S2x800000) (H : F32 S50000x128) : F32 S50000x128 :=
  Host.scatterAdd scatter_S50000x128_S800000x1_S800000x128_1_0_0_1
    (broadcastInDim S50000x128 ![] bcast_S_S50000x128 (constant (F := Ideal) S_ .f32 0x00000000#32))
    (plainCol (dst ei))
    (mulf (Host.gather gather_S50000x128_S800000x1_S800000x128_1_0_n_n_0_1_1128 H (wrapCol (src ei)))
      (broadcastInDim S800000x128 ![0, 1] bcast_S800000x1_S800000x128_0_1
        (broadcastInDim S800000x1 ![0] bcast_S800000_S800000x1_0 (coef ei))))

/-- dinv² as a column, one entry per node. -/
def dcol (ei : I32 S2x800000) : F32 S50000x1 :=
  broadcastInDim S50000x1 ![0] bcast_S50000_S50000x1_0 (mulf (dinv ei) (dinv ei))

/-- The leaky rectifier on a [50000, 256] array: y where y ≥ 0, slope · y elsewhere. -/
def leaky256 (y : F32 S50000x256) : F32 S50000x256 :=
  select (cmpf .oge y (broadcastInDim S50000x256 ![] bcast_S_S50000x256 (constant (F := Ideal) S_ .f32 0x00000000#32))) y
    (mulf (broadcastInDim S50000x256 ![] bcast_S_S50000x256 (id (constant (F := Ideal) S_ .f32 0x3E4CCCCD#32))) y)

/-- The leaky rectifier on a [50000, 128] array. -/
def leaky128 (y : F32 S50000x128) : F32 S50000x128 :=
  select (cmpf .oge y (broadcastInDim S50000x128 ![] bcast_S_S50000x128 (constant (F := Ideal) S_ .f32 0x00000000#32))) y
    (mulf (broadcastInDim S50000x128 ![] bcast_S_S50000x128 (id (constant (F := Ideal) S_ .f32 0x3E4CCCCD#32))) y)

/-- A layer's last step, 256 features: leaky ((agg + dcol · H) + brow), the column spread along rows, the row along columns. -/
def finish256 (agg H : F32 S50000x256) (d : F32 S50000x1) (brow : F32 S1x256) : F32 S50000x256 :=
  leaky256 (addf (addf agg (mulf (broadcastInDim S50000x256 ![0, 1] bcast_S50000x1_S50000x256_0_1 d) H))
    (broadcastInDim S50000x256 ![0, 1] bcast_S1x256_S50000x256_0_1 brow))

/-- A layer's last step, 128 features. -/
def finish128 (agg H : F32 S50000x128) (d : F32 S50000x1) (brow : F32 S1x128) : F32 S50000x128 :=
  leaky128 (addf (addf agg (mulf (broadcastInDim S50000x128 ![0, 1] bcast_S50000x1_S50000x128_0_1 d) H))
    (broadcastInDim S50000x128 ![0, 1] bcast_S1x128_S50000x128_0_1 brow))

/-- The first layer: features X [50000, 512], weights W1 [512, 256], bias b1 [256]. -/
def layer1 (X : F32 S50000x512) (ei : I32 S2x800000) (W1 : F32 S512x256) (b1 : F32 S256) : F32 S50000x256 :=
  finish256 (agg256 ei (Host.dotGeneral dot_S50000x512_S512x256_S50000x256_1_0_0_1_n_n none X W1))
    (Host.dotGeneral dot_S50000x512_S512x256_S50000x256_1_0_0_1_n_n none X W1) (dcol ei)
    (broadcastInDim S1x256 ![1] bcast_S256_S1x256_1 b1)

/-- The second layer: features Z [50000, 256], weights W2 [256, 128], bias b2 [128]. -/
def layer2 (Z : F32 S50000x256) (ei : I32 S2x800000) (W2 : F32 S256x128) (b2 : F32 S128) : F32 S50000x128 :=
  finish128 (agg128 ei (Host.dotGeneral dot_S50000x256_S256x128_S50000x128_1_0_0_1_n_n none Z W2))
    (Host.dotGeneral dot_S50000x256_S256x128_S50000x128_1_0_0_1_n_n none Z W2) (dcol ei)
    (broadcastInDim S1x128 ![1] bcast_S128_S1x128_1 b2)

/-- The reference's result: the second layer of the first. -/
def out (X : F32 S50000x512) (ei : I32 S2x800000) (W1 : F32 S512x256) (b1 : F32 S256) (W2 : F32 S256x128) (b2 : F32 S128) :
    F32 S50000x128 :=
  layer2 (layer1 X ei W1 b1) ei W2 b2

end Cert.ReferenceIdeal.Spec

end
-- ==== Proof.LeakyPoint.lean ====
/-
  The leaky rectifier at one extended real.

  Both programs end each layer with the same pointwise map: a number that is at least zero is kept, any other is
  multiplied by the slope, the single-precision number nearest one fifth. The comparison and the choice are the
  float comparison "ordered and greater or equal" and the one-bit select, read at one element.
-/
import Idealize.ShloMosaic.PureOps.Ideal
import Idealize.ShloMosaic.Lib.ValueIdx

noncomputable section

namespace Cert.Bridge

open Idealize.ShloMosaic

/-- `y` if `y ≥ 0`, else `slope · y`, over the extended reals, spelt with the float comparison and the select. -/
def leakyAt (y : Ideal .f32) : Ideal .f32 :=
  Scalar.select (FloatOps.cmpf (F := Ideal) .oge y (Ideal.ofBits .f32 0x00000000#32)) y
    (Ideal.ofBits .f32 0x3E4CCCCD#32 * y)

end Cert.Bridge

end
-- ==== Proof.LibHostSpread.lean ====
/-
  The host's spreading operation read at an index, for the small layouts a per-row statistic and a per-column bias go
  through: a scalar spread over a whole array reads the scalar everywhere; an [a, 1] column spread over [a, b] reads, at
  (p, c), the column's entry of row p; a [1, b] row spread over [a, b] reads the row's entry of column c; a vector [a]
  spread along dimension 0 of [a, 1] reads, at (i, ·), the vector at i — and is the same array as the vector recast to
  that column.
-/
import Idealize.ShloMosaic.Lib.Pipeline.Value
import Idealize.ShloMosaic.Lib.ValueIdx
import Idealize.ShloMosaic.Lib.ValueLayout

noncomputable section

namespace Cert.Lib

open Idealize.ShloMosaic Idealize.ShloMosaic.ValueIdx

variable {α : Type}

/-- A scalar spread over an array of any shape reads the scalar at every index. -/
theorem splat_apply {t : Shape} (h : (⟨0, ![]⟩ : Shape).BroadcastsInDim t (![] : Fin 0 → Fin t.rank))
    (x : (⟨0, ![]⟩ : Shape).Idx → α) (j : t.Idx) : broadcastInDim t ![] h x j = x ix0 :=
  broadcastInDim_apply ![] h x j ix0 (fun a => a.elim0)

/-- An `[a, 1]` column spread over `[a, b]` (both axes kept) reads, at `(p, c)`, the column's entry of row `p`. -/
theorem spread_a1_ab_apply {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ ![0, 1] h v (ix2 p c) = v (ix2 p (0 : Fin 1)) := by
  refine broadcastInDim_apply ![0, 1] h v (ix2 p c) (ix2 p (0 : Fin 1)) fun ax => ?_
  match ax with
  | ⟨0, _⟩ =>
    show p.val = if a = 1 then 0 else p.val
    split
    · have := p.isLt; omega
    · rfl
  | ⟨1, _⟩ => rfl

/-- A `[1, b]` row spread over `[a, b]` (both axes kept) reads, at `(p, c)`, the row's entry of column `c`. -/
theorem spread_1b_ab_apply {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ ![0, 1] h v (ix2 p c) = v (ix2 (0 : Fin 1) c) := by
  refine broadcastInDim_apply ![0, 1] h v (ix2 p c) (ix2 (0 : Fin 1) c) fun ax => ?_
  match ax with
  | ⟨0, _⟩ => rfl
  | ⟨1, _⟩ =>
    show c.val = if b = 1 then 0 else c.val
    split
    · have := c.isLt; omega
    · rfl

/-- A vector `[a]` spread along dimension 0 of `[a, 1]` reads, at `(i, u)`, the vector at `i`. -/
theorem spread_a_a1_apply {a : ℕ} (x : (⟨1, ![a]⟩ : Shape).Idx → α)
    (h : (⟨1, ![a]⟩ : Shape).BroadcastsInDim ⟨2, ![a, 1]⟩ (![0] : Fin 1 → Fin 2)) (i : Fin a) (u : Fin 1) :
    broadcastInDim ⟨2, ![a, 1]⟩ ![0] h x (ix2 i u) = x (ix1 i) := by
  refine broadcastInDim_apply ![0] h x (ix2 i u) (ix1 i) fun ax => ?_
  match ax with
  | ⟨0, _⟩ =>
    show i.val = if a = 1 then 0 else i.val
    split
    · have := i.isLt; omega
    · rfl

/-- A vector recast as a column is the vector spread along dimension 0 of the column's shape. -/
theorem shapeCast_col_eq_spread {a : ℕ} (x : (⟨1, ![a]⟩ : Shape).Idx → α)
    (h : (⟨1, ![a]⟩ : Shape).ShapeCasts ⟨2, ![a, 1]⟩)
    (h' : (⟨1, ![a]⟩ : Shape).BroadcastsInDim ⟨2, ![a, 1]⟩ (![0] : Fin 1 → Fin 2)) :
    shapeCast ⟨2, ![a, 1]⟩ x h = broadcastInDim ⟨2, ![a, 1]⟩ ![0] h' x := by
  funext j
  obtain ⟨i, u, rfl⟩ : ∃ (i : Fin a) (u : Fin 1), j = ix2 i u := ⟨j 0, j 1, eq_ix2 j⟩
  rw [spread_a_a1_apply x h' i u]
  refine shapeCast_apply x h _ _ ?_
  have hu : u.val = 0 := by omega
  rw [Shape.rowMajor_val_two, Shape.rowMajor_val_one]
  show i.val = i.val * 1 + u.val
  rw [hu, Nat.mul_one, Nat.add_zero]

end Cert.Lib

end
-- ==== Proof.SpecAt.lean ====
/-
  A layer's last step read at one entry.

  At node i and feature j the step is the leaky rectifier of (agg (i, j) + d (i) · H (i, j)) + b (j): the column d is spread
  along each row, the row b along each column, the rectifier acts entry by entry, and its threshold and slope are scalars
  spread over the whole array.
-/
import proofs.«120794_j75333726371971_1_alg».proof.Proof.RefSpec
import proofs.«120794_j75333726371971_1_alg».proof.Proof.LeakyPoint
import proofs.«120794_j75333726371971_1_alg».proof.Proof.LibHostSpread

noncomputable section

namespace Cert.ReferenceIdeal.Spec

open Idealize.ShloMosaic Idealize.ShloMosaic.ValueIdx Cert.ReferenceIdeal Cert.ReferenceIdeal.Gen

/-- The rectifier on a [50000, 256] array acts entry by entry. -/
theorem leaky256_apply (y : F32 S50000x256) (idx : S50000x256.Idx) : leaky256 y idx = Cert.Bridge.leakyAt (y idx) := by
  unfold leaky256 Cert.Bridge.leakyAt
  rw [select_apply, cmpf_apply, mulf_apply, Cert.Lib.splat_apply, Cert.Lib.splat_apply]
  rfl

/-- The rectifier on a [50000, 128] array acts entry by entry. -/
theorem leaky128_apply (y : F32 S50000x128) (idx : S50000x128.Idx) : leaky128 y idx = Cert.Bridge.leakyAt (y idx) := by
  unfold leaky128 Cert.Bridge.leakyAt
  rw [select_apply, cmpf_apply, mulf_apply, Cert.Lib.splat_apply, Cert.Lib.splat_apply]
  rfl

/-- The 256-feature step at (i, j). -/
theorem finish256_apply (agg H : F32 S50000x256) (d : F32 S50000x1) (brow : F32 S1x256) (i : Fin 50000) (j : Fin 256) :
    finish256 agg H d brow (ix2 i j)
      = Cert.Bridge.leakyAt ((agg (ix2 i j) + d (ix2 i (0 : Fin 1)) * H (ix2 i j)) + brow (ix2 (0 : Fin 1) j)) := by
  unfold finish256
  rw [leaky256_apply, addf_apply, addf_apply, mulf_apply, Cert.Lib.spread_a1_ab_apply, Cert.Lib.spread_1b_ab_apply]

/-- The 128-feature step at (i, j). -/
theorem finish128_apply (agg H : F32 S50000x128) (d : F32 S50000x1) (brow : F32 S1x128) (i : Fin 50000) (j : Fin 128) :
    finish128 agg H d brow (ix2 i j)
      = Cert.Bridge.leakyAt ((agg (ix2 i j) + d (ix2 i (0 : Fin 1)) * H (ix2 i j)) + brow (ix2 (0 : Fin 1) j)) := by
  unfold finish128
  rw [leaky128_apply, addf_apply, addf_apply, mulf_apply, Cert.Lib.spread_a1_ab_apply, Cert.Lib.spread_1b_ab_apply]

end Cert.ReferenceIdeal.Spec

end
-- ==== Proof.LibRowOfVector.lean ====
/-
  A vector laid out as a one-row matrix, two ways.

  Reshaping a vector of length n to [1, n] and broadcasting it along dimension 1 of [1, n] both put entry j of the vector at
  position (0, j): the two arrays are equal.
-/
import Idealize.ShloMosaic.Lib.Pipeline.Value
import Idealize.ShloMosaic.Lib.ValueIdx

noncomputable section

namespace Cert.Lib

open Idealize.ShloMosaic Idealize.ShloMosaic.ValueIdx

/-- The reshape of a length-n vector to one row is its broadcast along dimension 1 of [1, n]. -/
theorem shapeCast_row_eq_broadcastInDim {n : Nat} {α : Type} (b : (⟨1, ![n]⟩ : Shape).Idx → α)
    (h : (⟨1, ![n]⟩ : Shape).ShapeCasts ⟨2, ![1, n]⟩)
    (h' : (⟨1, ![n]⟩ : Shape).BroadcastsInDim ⟨2, ![1, n]⟩ (![1] : Fin 1 → Fin 2)) :
    shapeCast ⟨2, ![1, n]⟩ b h = broadcastInDim ⟨2, ![1, n]⟩ ![1] h' b := by
  funext j
  obtain ⟨p, q, rfl⟩ : ∃ (p : Fin 1) (q : Fin n), j = ix2 p q := ⟨j 0, j 1, eq_ix2 j⟩
  have hp : p.val = 0 := by omega
  -- both sides read the vector at q
  rw [shapeCast_apply b h (ix2 p q) (ix1 q) (by
        rw [Shape.rowMajor_val_one, Shape.rowMajor_val_two]
        show q.val = p.val * n + q.val
        rw [hp]; omega),
      broadcastInDim_apply ![1] h' b (ix2 p q) (ix1 q) (fun a => by
        match a with
        | ⟨0, _⟩ =>
          show q.val = if n = 1 then 0 else q.val
          split
          · omega
          · rfl)]

end Cert.Lib

end
-- ==== Proof.ChainHost0.lean ====
/-
  The host operations before the first matrix product, read at the buffers later stages use.

  From the edge array they cut the source row and the destination row, count the edges into each node, and form
  deg^(-1/2); the float arguments are not touched. Each buffer is the reference's stage of the same name applied to the
  edge array.
-/
import proofs.«120794_j75333726371971_1_alg».proof.Proof.Gen.KernelIdeal.Frame
import proofs.«120794_j75333726371971_1_alg».proof.Proof.RefSpec
import Idealize.ShloMosaic.Lib.StableHlo.Run
import Idealize.ShloMosaic.PureOps.Ideal

noncomputable section

namespace Cert.KernelIdeal.Chain

open Idealize.ShloMosaic Idealize.ShloMosaic.TcCoe Idealize.SL.Sem
open Cert.KernelIdeal Cert.KernelIdeal.Gen

variable (W : Valuation τ sig (Elt Ideal)) (ei : Cert.ReferenceIdeal.Spec.I32 S2x800000)

/-- The source row. -/
theorem ops0_src :
    (StableHlo.after (hostOps0 (F := Ideal)) W (Proc.devRef .tc main_v1) : S800000.Idx → BitVec 32)
      = Cert.ReferenceIdeal.Spec.src (W (Proc.devRef .tc main_arg1)) := by
  dsimp only [hostOps0]; after_results; rfl

/-- The destination row. -/
theorem ops0_dst :
    (StableHlo.after (hostOps0 (F := Ideal)) W (Proc.devRef .tc main_v3) : S800000.Idx → BitVec 32)
      = Cert.ReferenceIdeal.Spec.dst (W (Proc.devRef .tc main_arg1)) := by
  dsimp only [hostOps0]; after_results; rfl

/-- deg^(-1/2). -/
theorem ops0_dinv :
    (StableHlo.after (hostOps0 (F := Ideal)) W (Proc.devRef .tc main_v15) : S50000.Idx → EReal)
      = Cert.ReferenceIdeal.Spec.dinv (W (Proc.devRef .tc main_arg1)) := by
  dsimp only [hostOps0]; after_results; rfl

/-- The stretch does not write this buffer. -/
theorem ops0_keep_main_arg0 :
    (StableHlo.after (hostOps0 (F := Ideal)) W (Proc.devRef .tc main_arg0) : S50000x512.Idx → EReal) = W (Proc.devRef .tc main_arg0) := by
  dsimp only [hostOps0]; after_results_simp

/-- The stretch does not write this buffer. -/
theorem ops0_keep_main_arg2 :
    (StableHlo.after (hostOps0 (F := Ideal)) W (Proc.devRef .tc main_arg2) : S512x256.Idx → EReal) = W (Proc.devRef .tc main_arg2) := by
  dsimp only [hostOps0]; after_results_simp

/-- The stretch does not write this buffer. -/
theorem ops0_keep_main_arg3 :
    (StableHlo.after (hostOps0 (F := Ideal)) W (Proc.devRef .tc main_arg3) : S256.Idx → EReal) = W (Proc.devRef .tc main_arg3) := by
  dsimp only [hostOps0]; after_results_simp

/-- The stretch does not write this buffer. -/
theorem ops0_keep_main_arg4 :
    (StableHlo.after (hostOps0 (F := Ideal)) W (Proc.devRef .tc main_arg4) : S256x128.Idx → EReal) = W (Proc.devRef .tc main_arg4) := by
  dsimp only [hostOps0]; after_results_simp

/-- The stretch does not write this buffer. -/
theorem ops0_keep_main_arg5 :
    (StableHlo.after (hostOps0 (F := Ideal)) W (Proc.devRef .tc main_arg5) : S128.Idx → EReal) = W (Proc.devRef .tc main_arg5) := by
  dsimp only [hostOps0]; after_results_simp

end Cert.KernelIdeal.Chain

end
-- ==== Proof.ChainHost1.lean ====
/-
  The host operations between the first matrix product and the first layer's last step.

  They weight each edge by dinv (src) · dinv (dst), gather the product's rows at the sources, and sum the weighted rows
  into their destinations; they square dinv into a column and lay the bias out as a row. Read over ANY contents W the
  stretch is entered with, given that W holds the source row, the destination row and dinv where the earlier stretch
  left them.
-/
import proofs.«120794_j75333726371971_1_alg».proof.Proof.Gen.KernelIdeal.Frame
import proofs.«120794_j75333726371971_1_alg».proof.Proof.RefSpec
import Idealize.ShloMosaic.Lib.StableHlo.Run
import Idealize.ShloMosaic.PureOps.Ideal

noncomputable section

namespace Cert.KernelIdeal.Chain

open Idealize.ShloMosaic Idealize.ShloMosaic.TcCoe Idealize.SL.Sem
open Cert.KernelIdeal Cert.KernelIdeal.Gen

variable (W : Valuation τ sig (Elt Ideal)) (ei : Cert.ReferenceIdeal.Spec.I32 S2x800000)

set_option maxHeartbeats 1600000 in
/-- The aggregated rows: the reference's stage at the product the stretch finds. -/
theorem ops1_agg
    (h1 : (W (Proc.devRef .tc main_v1) : S800000.Idx → BitVec 32) = Cert.ReferenceIdeal.Spec.src ei)
    (h3 : (W (Proc.devRef .tc main_v3) : S800000.Idx → BitVec 32) = Cert.ReferenceIdeal.Spec.dst ei)
    (h15 : (W (Proc.devRef .tc main_v15) : S50000.Idx → EReal) = Cert.ReferenceIdeal.Spec.dinv ei) :
    (StableHlo.after (hostOps1 (F := Ideal)) W (Proc.devRef .tc main_v44) : S50000x256.Idx → EReal)
      = Cert.ReferenceIdeal.Spec.agg256 ei (W (Proc.devRef .tc main_v16)) := by
  dsimp only [hostOps1]; after_results_simp
  rw [h1, h3, h15]
  rfl

/-- dinv² recast as a column. -/
theorem ops1_dcol :
    (StableHlo.after (hostOps1 (F := Ideal)) W (Proc.devRef .tc main_v46) : S50000x1.Idx → EReal)
      = shapeCast S50000x1 (mulf (F := Ideal) (φ := .f32) (W (Proc.devRef .tc main_v15) : FVec Ideal S50000 .f32) (W (Proc.devRef .tc main_v15) : FVec Ideal S50000 .f32)) shapeCasts_S50000_S50000x1 := by
  dsimp only [hostOps1]; after_results_simp; rfl

/-- The bias recast as a row. -/
theorem ops1_brow :
    (StableHlo.after (hostOps1 (F := Ideal)) W (Proc.devRef .tc main_v47) : S1x256.Idx → EReal)
      = shapeCast S1x256 (W (Proc.devRef .tc main_arg3)) shapeCasts_S256_S1x256 := by
  dsimp only [hostOps1]; after_results_simp; rfl

/-- The stretch does not write this buffer. -/
theorem ops1_keep_main_v16 :
    (StableHlo.after (hostOps1 (F := Ideal)) W (Proc.devRef .tc main_v16) : S50000x256.Idx → EReal) = W (Proc.devRef .tc main_v16) := by
  dsimp only [hostOps1]; after_results_simp

/-- The stretch does not write this buffer. -/
theorem ops1_keep_main_v1 :
    (StableHlo.after (hostOps1 (F := Ideal)) W (Proc.devRef .tc main_v1) : S800000.Idx → BitVec 32) = W (Proc.devRef .tc main_v1) := by
  dsimp only [hostOps1]; after_results_simp

/-- The stretch does not write this buffer. -/
theorem ops1_keep_main_v3 :
    (StableHlo.after (hostOps1 (F := Ideal)) W (Proc.devRef .tc main_v3) : S800000.Idx → BitVec 32) = W (Proc.devRef .tc main_v3) := by
  dsimp only [hostOps1]; after_results_simp

/-- The stretch does not write this buffer. -/
theorem ops1_keep_main_arg4 :
    (StableHlo.after (hostOps1 (F := Ideal)) W (Proc.devRef .tc main_arg4) : S256x128.Idx → EReal) = W (Proc.devRef .tc main_arg4) := by
  dsimp only [hostOps1]; after_results_simp

/-- The stretch does not write this buffer. -/
theorem ops1_keep_main_arg5 :
    (StableHlo.after (hostOps1 (F := Ideal)) W (Proc.devRef .tc main_arg5) : S128.Idx → EReal) = W (Proc.devRef .tc main_arg5) := by
  dsimp only [hostOps1]; after_results_simp

end Cert.KernelIdeal.Chain

end
-- ==== Proof.ChainHost2.lean ====
/-
  The host operations between the first layer's last step and the second matrix product: deg^(-1/2) once more,
  from the destination row the stretch finds.
-/
import proofs.«120794_j75333726371971_1_alg».proof.Proof.Gen.KernelIdeal.Frame
import proofs.«120794_j75333726371971_1_alg».proof.Proof.RefSpec
import Idealize.ShloMosaic.Lib.StableHlo.Run
import Idealize.ShloMosaic.PureOps.Ideal

noncomputable section

namespace Cert.KernelIdeal.Chain

open Idealize.ShloMosaic Idealize.ShloMosaic.TcCoe Idealize.SL.Sem
open Cert.KernelIdeal Cert.KernelIdeal.Gen

variable (W : Valuation τ sig (Elt Ideal)) (ei : Cert.ReferenceIdeal.Spec.I32 S2x800000)

set_option maxHeartbeats 1600000 in
/-- deg^(-1/2), recomputed. -/
theorem ops2_dinv
    (h3 : (W (Proc.devRef .tc main_v3) : S800000.Idx → BitVec 32) = Cert.ReferenceIdeal.Spec.dst ei) :
    (StableHlo.after (hostOps2 (F := Ideal)) W (Proc.devRef .tc main_v60) : S50000.Idx → EReal)
      = Cert.ReferenceIdeal.Spec.dinv ei := by
  dsimp only [hostOps2]; after_results_simp
  rw [h3]
  rfl

/-- The stretch does not write this buffer. -/
theorem ops2_keep_main_v48 :
    (StableHlo.after (hostOps2 (F := Ideal)) W (Proc.devRef .tc main_v48) : S50000x256.Idx → EReal) = W (Proc.devRef .tc main_v48) := by
  dsimp only [hostOps2]; after_results_simp

/-- The stretch does not write this buffer. -/
theorem ops2_keep_main_v1 :
    (StableHlo.after (hostOps2 (F := Ideal)) W (Proc.devRef .tc main_v1) : S800000.Idx → BitVec 32) = W (Proc.devRef .tc main_v1) := by
  dsimp only [hostOps2]; after_results_simp

/-- The stretch does not write this buffer. -/
theorem ops2_keep_main_v3 :
    (StableHlo.after (hostOps2 (F := Ideal)) W (Proc.devRef .tc main_v3) : S800000.Idx → BitVec 32) = W (Proc.devRef .tc main_v3) := by
  dsimp only [hostOps2]; after_results_simp

/-- The stretch does not write this buffer. -/
theorem ops2_keep_main_arg4 :
    (StableHlo.after (hostOps2 (F := Ideal)) W (Proc.devRef .tc main_arg4) : S256x128.Idx → EReal) = W (Proc.devRef .tc main_arg4) := by
  dsimp only [hostOps2]; after_results_simp

/-- The stretch does not write this buffer. -/
theorem ops2_keep_main_arg5 :
    (StableHlo.after (hostOps2 (F := Ideal)) W (Proc.devRef .tc main_arg5) : S128.Idx → EReal) = W (Proc.devRef .tc main_arg5) := by
  dsimp only [hostOps2]; after_results_simp

end Cert.KernelIdeal.Chain

end
-- ==== Proof.ChainHost3.lean ====
/-
  The host operations between the second matrix product and the second layer's last step: the same weighting,
  gathering and summing as in the first layer, over 128 features, with the recomputed dinv.
-/
import proofs.«120794_j75333726371971_1_alg».proof.Proof.Gen.KernelIdeal.Frame
import proofs.«120794_j75333726371971_1_alg».proof.Proof.RefSpec
import Idealize.ShloMosaic.Lib.StableHlo.Run
import Idealize.ShloMosaic.PureOps.Ideal

noncomputable section

namespace Cert.KernelIdeal.Chain

open Idealize.ShloMosaic Idealize.ShloMosaic.TcCoe Idealize.SL.Sem
open Cert.KernelIdeal Cert.KernelIdeal.Gen

variable (W : Valuation τ sig (Elt Ideal)) (ei : Cert.ReferenceIdeal.Spec.I32 S2x800000)

set_option maxHeartbeats 1600000 in
/-- The aggregated rows: the reference's stage at the product the stretch finds. -/
theorem ops3_agg
    (h1 : (W (Proc.devRef .tc main_v1) : S800000.Idx → BitVec 32) = Cert.ReferenceIdeal.Spec.src ei)
    (h3 : (W (Proc.devRef .tc main_v3) : S800000.Idx → BitVec 32) = Cert.ReferenceIdeal.Spec.dst ei)
    (h60 : (W (Proc.devRef .tc main_v60) : S50000.Idx → EReal) = Cert.ReferenceIdeal.Spec.dinv ei) :
    (StableHlo.after (hostOps3 (F := Ideal)) W (Proc.devRef .tc main_v89) : S50000x128.Idx → EReal)
      = Cert.ReferenceIdeal.Spec.agg128 ei (W (Proc.devRef .tc main_v61)) := by
  dsimp only [hostOps3]; after_results_simp
  rw [h1, h3, h60]
  rfl

/-- dinv² recast as a column. -/
theorem ops3_dcol :
    (StableHlo.after (hostOps3 (F := Ideal)) W (Proc.devRef .tc main_v91) : S50000x1.Idx → EReal)
      = shapeCast S50000x1 (mulf (F := Ideal) (φ := .f32) (W (Proc.devRef .tc main_v60) : FVec Ideal S50000 .f32) (W (Proc.devRef .tc main_v60) : FVec Ideal S50000 .f32)) shapeCasts_S50000_S50000x1 := by
  dsimp only [hostOps3]; after_results_simp; rfl

/-- The bias recast as a row. -/
theorem ops3_brow :
    (StableHlo.after (hostOps3 (F := Ideal)) W (Proc.devRef .tc main_v92) : S1x128.Idx → EReal)
      = shapeCast S1x128 (W (Proc.devRef .tc main_arg5)) shapeCasts_S128_S1x128 := by
  dsimp only [hostOps3]; after_results_simp; rfl

/-- The stretch does not write this buffer. -/
theorem ops3_keep_main_v61 :
    (StableHlo.after (hostOps3 (F := Ideal)) W (Proc.devRef .tc main_v61) : S50000x128.Idx → EReal) = W (Proc.devRef .tc main_v61) := by
  dsimp only [hostOps3]; after_results_simp

end Cert.KernelIdeal.Chain

end
-- ==== Proof.LibPlainMatmul.lean ====
/-
  A kernel's plain matrix product read at an entry, over the extended reals.

  An [m, k] by [k, n] product accumulated into the zero block has, at entry (a, b), the sum over the contracted
  coordinate c of A (a, c) · B (c, b): the exact contraction has no accumulator left in it (the extended reals have one
  zero) and is the same sum the host's product of the same operands is.
-/
import Idealize.ShloMosaic.Lib.StackMember
import Idealize.ShloMosaic.PureOps.Ideal.Laws

noncomputable section

namespace Cert.Lib

open Idealize.ShloMosaic Idealize.ShloMosaic.ValueIdx

/-- Entry (a, b) of an [m, k] × [k, n] matrix product into a zero accumulator is `∑ c, A (a, c) · B (c, b)`. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) :=
  (Ideal.matmul_constant_zero_apply (DotDims.plain m k n) prec A B (ix2 a b)).trans
    ((Ideal.dotGeneral_apply (DotDims.plain m k n) prec default A B (ix2 a b)).symm.trans
      (StackMember.dotGeneral_plain_apply prec A B a b))

end Cert.Lib

end
-- ==== Proof.LibRowBlockProduct.lean ====
/-
  A block of rows of a matrix product, over the extended reals.

  Rows off, …, off + m - 1 of X · W depend on those rows of X and on all of W only: entry (off + a, b) of the whole
  product is the sum over the contracted coordinate c of X (off + a, c) · W (c, b), and that is entry (a, b) of the product
  of the m-row block of X with W. So a kernel that multiplies one block of rows at a time (accumulating into zero) writes,
  block by block, the host's one whole product. How a block sits in its array is left to three index maps, about which
  only their coordinates are assumed: the left block's and the result block's rows are shifted by `off`, nothing else
  moves.
-/
import proofs.«120794_j75333726371971_1_alg».proof.Proof.LibPlainMatmul

noncomputable section

namespace Cert.Lib

open Idealize.ShloMosaic Idealize.ShloMosaic.ValueIdx

/-- The product of an m-row block of `X` (rows `off …`) with `W`, accumulated into zero, read at a block index `j`, is the
    whole product `X · W` read where the result block puts `j`. -/
theorem plain_product_row_block {m M k n : Nat} {φ₁ φ₂ : FTy} (prec : Option ContractPrecision)
    (x : FVec Ideal ⟨2, ![m, k]⟩ φ₁) (w : FVec Ideal ⟨2, ![k, n]⟩ φ₂)
    (X : FVec Ideal ⟨2, ![M, k]⟩ φ₁) (W : FVec Ideal ⟨2, ![k, n]⟩ φ₂)
    (ex : (⟨2, ![m, k]⟩ : Shape).Idx → (⟨2, ![M, k]⟩ : Shape).Idx)
    (ew : (⟨2, ![k, n]⟩ : Shape).Idx → (⟨2, ![k, n]⟩ : Shape).Idx)
    (eo : (⟨2, ![m, n]⟩ : Shape).Idx → (⟨2, ![M, n]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![m, n]⟩ : Shape).Idx) :
    matmul (DotDims.plain m k n) prec x w (constant ⟨2, ![m, n]⟩ .f32 0x00000000#32) j
      = Host.dotGeneral (DotDims.plain M k n) prec X W (eo j) := by
  obtain ⟨a, b, rfl⟩ : ∃ (a : Fin m) (b : Fin n), j = ix2 a b := ⟨j 0, j 1, eq_ix2 j⟩
  -- where the result block puts (a, b): row off + a, column b
  obtain ⟨a', b', hab⟩ : ∃ (a' : Fin M) (b' : Fin n), eo (ix2 a b) = ix2 a' b' :=
    ⟨eo (ix2 a b) 0, eo (ix2 a b) 1, eq_ix2 _⟩
  have ha' : a'.val = off + a.val := by
    have := heo0 (ix2 a b); rw [hab] at this; exact this
  have hb' : b'.val = b.val := by
    have := heo1 (ix2 a b); rw [hab] at this; exact this
  rw [matmul_plain_zero_apply, hab, StackMember.dotGeneral_plain_apply]
  refine Finset.sum_congr rfl fun c _ => ?_
  rw [hx, hw]
  have e1 : ex (ix2 a c) = ix2 a' c := by
    funext q; apply Fin.ext
    match q with
    | ⟨0, _⟩ => exact (hex0 (ix2 a c)).trans ha'.symm
    | ⟨1, _⟩ => exact hex1 (ix2 a c)
  have e2 : ew (ix2 c b) = ix2 c b' := by
    funext q; apply Fin.ext
    match q with
    | ⟨0, _⟩ => exact hew0 (ix2 c b)
    | ⟨1, _⟩ => exact (hew1 (ix2 c b)).trans hb'.symm
  rw [e1, e2]

end Cert.Lib

end
-- ==== Proof.MatmulValue0.lean ====
/-
  The first matrix-product region writes the one whole product X · W, over the extended reals.

  The region walks the 25 blocks of 2000 rows of the [50000, 512] left array. At block t it multiplies rows
  2000·t … 2000·t + 1999 of the left array by the whole [512, 256] right array, accumulating into zero, and writes the
  result to rows 2000·t … 2000·t + 1999 of the [50000, 256] result array. Narrowing the operands to a shorter float
  format is the identity on the extended reals, so what block t computes is the plain product of a row block.
  Entry (2000·t + a, b) of the whole product is the sum over c of X (2000·t + a, c) · W (c, b): it depends on that one
  row of X and on all of W, which is exactly what block t holds. Hence block t writes block t of the whole product, and
  since every row r lies in block r / 2000, the blocks written fill the result array: it ends holding the whole product.
-/
import proofs.«120794_j75333726371971_1_alg».proof.Proof.Gen.KernelIdeal.Frame
import proofs.«120794_j75333726371971_1_alg».proof.Proof.LibRowBlockProduct
import Idealize.ShloMosaic.Lib.Pipeline.Value

set_option maxRecDepth 16384

noncomputable section

namespace Cert.KernelIdeal.MatmulValue

open Cert.KernelIdeal Cert.KernelIdeal.Gen Idealize.ShloMosaic Idealize.ShloMosaic.TcCoe Idealize.SL.Sem
open Idealize.ShloMosaic.Pipeline (Dat)
open Idealize.ShloMosaic.ValueIdx

-- the contents of every array when the region is entered
variable (V : (c : Dev nD) → (b : Ref sig .tc) → Buf (Elt Ideal) ((c : Thread nD τ).loc b))

/-- The offset (0, 0), at which the body reads and writes each of its blocks whole, is zero on both axes. -/
theorem first_origin : (![0, 0] : Fin 2 → Nat) = fun _ => 0 := funext fun a => by fin_cases a <;> rfl

/-- The body's contraction is the plain one: [2000, 512] by [512, 256], the left operand's columns against the right
    operand's rows, no batch axis. -/
theorem first_dims : dot_S2000x512_S512x256_S2000x256_1_0_0_1_n_n = DotDims.plain 2000 512 256 := rfl

/-- What the body computes from its two blocks: their plain product accumulated into zero (narrowing an operand
    changes nothing on the extended reals). -/
theorem first_body_eq (x : Vec Ideal S2000x512 .f32) (w : Vec Ideal S512x256 .f32) :
    k0_pay1 x w = matmul (φ₁ := .f32) (φ₂ := .f32) (DotDims.plain 2000 512 256) none x w
      (constant (F := Ideal) ⟨2, ![2000, 256]⟩ .f32 0x00000000#32) := rfl

/-- Where the three blocks sit at point t: the left block and the result block are the t-th blocks of rows and span all
    columns; the right block is the whole right array at every point. -/
theorem first_block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The whole product of a [50000, 512] array with a [512, 256] array. -/
abbrev firstProduct (X : FVec Ideal ⟨2, ![50000, 512]⟩ .f32) (W : FVec Ideal ⟨2, ![512, 256]⟩ .f32) :
    FVec Ideal ⟨2, ![50000, 256]⟩ .f32 :=
  Host.dotGeneral (F := Ideal) (DotDims.plain 50000 512 256) none X W

/-- The body on a block of 2000 rows of X starting at row off and on all of W computes, at (a, b), entry (off + a, b) of
    the whole product X · W: that entry sums X (off + a, c) · W (c, b) over c, and the block holds row off + a of X. Of
    the three placements of a block in its array only the coordinates are used. -/
theorem first_body_row_block (X : FVec Ideal ⟨2, ![50000, 512]⟩ .f32) (W : FVec Ideal ⟨2, ![512, 256]⟩ .f32)
    (x : Vec Ideal S2000x512 .f32) (w : Vec Ideal S512x256 .f32)
    (ex : (⟨2, ![2000, 512]⟩ : Shape).Idx → (⟨2, ![50000, 512]⟩ : Shape).Idx)
    (ew : (⟨2, ![512, 256]⟩ : Shape).Idx → (⟨2, ![512, 256]⟩ : Shape).Idx)
    (eo : (⟨2, ![2000, 256]⟩ : Shape).Idx → (⟨2, ![50000, 256]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![2000, 256]⟩ : Shape).Idx) :
    k0_pay1 x w j = firstProduct X W (eo j) := by
  rw [first_body_eq]
  exact Cert.Lib.plain_product_row_block none x w X W ex ew eo off hx hw hex0 hex1 hew0 hew1 heo0 heo1 j

/-- What point t writes to the result array is block t of the whole product of the two input arrays as the region
    finds them: an index (a, b) of a block at block index (q, 0) sits at (q · rows + a, b) of its array, and q = t for the
    left and the result blocks, q = 0 for the right one. -/
theorem first_written_block (c : Dev nD) (t : Fin cfg0.N) :
    (dat0 V c).flushed 2 t
      = ((cfg0.win 2).blk t).view.read (Elt Ideal) (firstProduct (V c main_arg0) (V c main_arg2)) := by
  show (cfg0.win 2).cut (grid0.coords t) ((dat0 V c).after 2 t) = _
  rw [after0_2]
  unfold out0_2
  rw [View.canon_unit_zero first_origin]
  simp only [View.ld_unit_zero (S := S2000x512) first_origin, View.ld_unit_zero (S := S512x256) first_origin]
  obtain ⟨e0, e1, e2, e3, e4, e5⟩ := first_block_indices t
  funext j
  refine first_body_row_block (V c main_arg0) (V c main_arg2) (iblk0 V c 0 t) (iblk0 V c 1 t)
    (((cfg0.win 0).blk t).view.emb) (((cfg0.win 1).blk t).view.emb) (((cfg0.win 2).blk t).view.emb) (2000 * t.val)
    (fun y => rfl) (fun y => rfl) ?_ ?_ ?_ ?_ ?_ ?_ j
  · intro y; show win0_0.index t (0 : Fin 2) * 2000 + 1 * (y 0).val = 2000 * t.val + (y 0).val; rw [e0]; omega
  · intro y; show win0_0.index t (1 : Fin 2) * 512 + 1 * (y 1).val = (y 1).val; rw [e1]; omega
  · intro y; show win0_1.index t (0 : Fin 2) * 512 + 1 * (y 0).val = (y 0).val; rw [e2]; omega
  · intro y; show win0_1.index t (1 : Fin 2) * 256 + 1 * (y 1).val = (y 1).val; rw [e3]; omega
  · intro y; show win0_2.index t (0 : Fin 2) * 2000 + 1 * (y 0).val = 2000 * t.val + (y 0).val; rw [e4]; omega
  · intro y; show win0_2.index t (1 : Fin 2) * 256 + 1 * (y 1).val = (y 1).val; rw [e5]; omega

/-- An index of the result array is in point t's block iff each coordinate is in the block's range on its axis. -/
theorem first_mem_block (t : Fin cfg0.N) (i : S50000x256.Idx) :
    i ∈ ((cfg0.win 2).blk t).view.set ↔ ∀ a : Fin 2, win0_2.index t a * S2000x256.size a ≤ (i a).val
      ∧ (i a).val < win0_2.index t a * S2000x256.size a + S2000x256.size a := by
  show i ∈ ((View.whole main_v16).slice (win0_2.rect t)).set ↔ _
  rw [View.set_slice_whole, Rect.mem_set_unit]
  exact Iff.rfl

/-- Every index (r, b) of the result array is in the block of the point r / 2000, and every point writes its block. -/
theorem first_rows_covered (i : S50000x256.Idx) :
    ∃ t : Fin cfg0.N, (cfg0.win 2).flush t = true ∧ i ∈ ((cfg0.win 2).blk t).view.set := by
  have hi0 : (i 0).val < 50000 := (i 0).isLt
  have hi1 : (i 1).val < 256 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨e0, e1, e2, e3, e4, e5⟩ := first_block_indices t
  refine ⟨t, flush0_2 t, ?_⟩
  rw [first_mem_block]
  intro a
  match a with
  | ⟨0, _⟩ =>
    show win0_2.index t (0 : Fin 2) * 2000 ≤ (i 0).val ∧ (i 0).val < win0_2.index t (0 : Fin 2) * 2000 + 2000
    rw [e4]; omega
  | ⟨1, _⟩ =>
    show win0_2.index t (1 : Fin 2) * 256 ≤ (i 1).val ∧ (i 1).val < win0_2.index t (1 : Fin 2) * 256 + 256
    rw [e5]; omega

/-- After the region its result array is the whole product of its two input arrays as the region found them: each
    point writes its block of that product, and the blocks fill the array. -/
theorem region0_eq (c : Dev nD) :
    (dat0 (F := Ideal) V c).arrAt 2 cfg0.N
      = Host.dotGeneral (F := Ideal) (φ₁ := .f32) (φ₂ := .f32) (DotDims.plain 50000 512 256) none (V c main_arg0) (V c main_arg2) :=
  (dat0 V c).arrAt_eq_of_cover 2 (firstProduct (V c main_arg0) (V c main_arg2)) (fun t _ => first_written_block V c t)
    first_rows_covered

end Cert.KernelIdeal.MatmulValue

end
-- ==== Proof.MatmulValue2.lean ====
/-
  The second matrix-product region writes the one whole product X · W, over the extended reals.

  The region walks the 25 blocks of 2000 rows of the [50000, 256] left array. At block t it multiplies rows
  2000·t … 2000·t + 1999 of the left array by the whole [256, 128] right array, accumulating into zero, and writes the
  result to rows 2000·t … 2000·t + 1999 of the [50000, 128] result array. Narrowing the operands to a shorter float
  format is the identity on the extended reals, and so is recasting a block to its own shape, so what block t computes is the plain product of a row block.
  Entry (2000·t + a, b) of the whole product is the sum over c of X (2000·t + a, c) · W (c, b): it depends on that one
  row of X and on all of W, which is exactly what block t holds. Hence block t writes block t of the whole product, and
  since every row r lies in block r / 2000, the blocks written fill the result array: it ends holding the whole product.
-/
import proofs.«120794_j75333726371971_1_alg».proof.Proof.Gen.KernelIdeal.Frame
import proofs.«120794_j75333726371971_1_alg».proof.Proof.LibRowBlockProduct
import Idealize.ShloMosaic.Lib.Pipeline.Value

set_option maxRecDepth 16384

noncomputable section

namespace Cert.KernelIdeal.MatmulValue

open Cert.KernelIdeal Cert.KernelIdeal.Gen Idealize.ShloMosaic Idealize.ShloMosaic.TcCoe Idealize.SL.Sem
open Idealize.ShloMosaic.Pipeline (Dat)
open Idealize.ShloMosaic.ValueIdx

-- the contents of every array when the region is entered
variable (V : (c : Dev nD) → (b : Ref sig .tc) → Buf (Elt Ideal) ((c : Thread nD τ).loc b))

/-- The offset (0, 0), at which the body reads and writes each of its blocks whole, is zero on both axes. -/
theorem second_origin : (![0, 0] : Fin 2 → Nat) = fun _ => 0 := funext fun a => by fin_cases a <;> rfl

/-- The body's contraction is the plain one: [2000, 256] by [256, 128], the left operand's columns against the right
    operand's rows, no batch axis. -/
theorem second_dims : dot_S2000x256_S256x128_S2000x128_1_0_0_1_n_n = DotDims.plain 2000 256 128 := rfl

/-- What the body computes from its two blocks: their plain product accumulated into zero (narrowing an operand
    changes nothing on the extended reals, nor does recasting the left block to its own shape). -/
theorem second_body_eq (x : Vec Ideal S2000x256 .f32) (w : Vec Ideal S256x128 .f32) :
    k2_pay1 x w = matmul (φ₁ := .f32) (φ₂ := .f32) (DotDims.plain 2000 256 128) none x w
      (constant (F := Ideal) ⟨2, ![2000, 128]⟩ .f32 0x00000000#32) := by
  unfold k2_pay1
  rw [shapeCast_self]
  rfl

/-- Where the three blocks sit at point t: the left block and the result block are the t-th blocks of rows and span all
    columns; the right block is the whole right array at every point. -/
theorem second_block_indices : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The whole product of a [50000, 256] array with a [256, 128] array. -/
abbrev secondProduct (X : FVec Ideal ⟨2, ![50000, 256]⟩ .f32) (W : FVec Ideal ⟨2, ![256, 128]⟩ .f32) :
    FVec Ideal ⟨2, ![50000, 128]⟩ .f32 :=
  Host.dotGeneral (F := Ideal) (DotDims.plain 50000 256 128) none X W

/-- The body on a block of 2000 rows of X starting at row off and on all of W computes, at (a, b), entry (off + a, b) of
    the whole product X · W: that entry sums X (off + a, c) · W (c, b) over c, and the block holds row off + a of X. Of
    the three placements of a block in its array only the coordinates are used. -/
theorem second_body_row_block (X : FVec Ideal ⟨2, ![50000, 256]⟩ .f32) (W : FVec Ideal ⟨2, ![256, 128]⟩ .f32)
    (x : Vec Ideal S2000x256 .f32) (w : Vec Ideal S256x128 .f32)
    (ex : (⟨2, ![2000, 256]⟩ : Shape).Idx → (⟨2, ![50000, 256]⟩ : Shape).Idx)
    (ew : (⟨2, ![256, 128]⟩ : Shape).Idx → (⟨2, ![256, 128]⟩ : Shape).Idx)
    (eo : (⟨2, ![2000, 128]⟩ : Shape).Idx → (⟨2, ![50000, 128]⟩ : Shape).Idx) (off : Nat)
    (hx : ∀ y, x y = X (ex y)) (hw : ∀ y, w y = W (ew y))
    (hex0 : ∀ y, (ex y 0).val = off + (y 0).val) (hex1 : ∀ y, (ex y 1).val = (y 1).val)
    (hew0 : ∀ y, (ew y 0).val = (y 0).val) (hew1 : ∀ y, (ew y 1).val = (y 1).val)
    (heo0 : ∀ y, (eo y 0).val = off + (y 0).val) (heo1 : ∀ y, (eo y 1).val = (y 1).val)
    (j : (⟨2, ![2000, 128]⟩ : Shape).Idx) :
    k2_pay1 x w j = secondProduct X W (eo j) := by
  rw [second_body_eq]
  exact Cert.Lib.plain_product_row_block none x w X W ex ew eo off hx hw hex0 hex1 hew0 hew1 heo0 heo1 j

/-- What point t writes to the result array is block t of the whole product of the two input arrays as the region
    finds them: an index (a, b) of a block at block index (q, 0) sits at (q · rows + a, b) of its array, and q = t for the
    left and the result blocks, q = 0 for the right one. -/
theorem second_written_block (c : Dev nD) (t : Fin cfg2.N) :
    (dat2 V c).flushed 2 t
      = ((cfg2.win 2).blk t).view.read (Elt Ideal) (secondProduct (V c main_v48) (V c main_arg4)) := by
  show (cfg2.win 2).cut (grid2.coords t) ((dat2 V c).after 2 t) = _
  rw [after2_2]
  unfold out2_2
  rw [View.canon_unit_zero second_origin]
  simp only [View.ld_unit_zero (S := S2000x256) second_origin, View.ld_unit_zero (S := S256x128) second_origin]
  obtain ⟨e0, e1, e2, e3, e4, e5⟩ := second_block_indices t
  funext j
  refine second_body_row_block (V c main_v48) (V c main_arg4) (iblk2 V c 0 t) (iblk2 V c 1 t)
    (((cfg2.win 0).blk t).view.emb) (((cfg2.win 1).blk t).view.emb) (((cfg2.win 2).blk t).view.emb) (2000 * t.val)
    (fun y => rfl) (fun y => rfl) ?_ ?_ ?_ ?_ ?_ ?_ j
  · intro y; show win2_0.index t (0 : Fin 2) * 2000 + 1 * (y 0).val = 2000 * t.val + (y 0).val; rw [e0]; omega
  · intro y; show win2_0.index t (1 : Fin 2) * 256 + 1 * (y 1).val = (y 1).val; rw [e1]; omega
  · intro y; show win2_1.index t (0 : Fin 2) * 256 + 1 * (y 0).val = (y 0).val; rw [e2]; omega
  · intro y; show win2_1.index t (1 : Fin 2) * 128 + 1 * (y 1).val = (y 1).val; rw [e3]; omega
  · intro y; show win2_2.index t (0 : Fin 2) * 2000 + 1 * (y 0).val = 2000 * t.val + (y 0).val; rw [e4]; omega
  · intro y; show win2_2.index t (1 : Fin 2) * 128 + 1 * (y 1).val = (y 1).val; rw [e5]; omega

/-- An index of the result array is in point t's block iff each coordinate is in the block's range on its axis. -/
theorem second_mem_block (t : Fin cfg2.N) (i : S50000x128.Idx) :
    i ∈ ((cfg2.win 2).blk t).view.set ↔ ∀ a : Fin 2, win2_2.index t a * S2000x128.size a ≤ (i a).val
      ∧ (i a).val < win2_2.index t a * S2000x128.size a + S2000x128.size a := by
  show i ∈ ((View.whole main_v61).slice (win2_2.rect t)).set ↔ _
  rw [View.set_slice_whole, Rect.mem_set_unit]
  exact Iff.rfl

/-- Every index (r, b) of the result array is in the block of the point r / 2000, and every point writes its block. -/
theorem second_rows_covered (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨e0, e1, e2, e3, e4, e5⟩ := second_block_indices t
  refine ⟨t, flush2_2 t, ?_⟩
  rw [second_mem_block]
  intro a
  match a with
  | ⟨0, _⟩ =>
    show win2_2.index t (0 : Fin 2) * 2000 ≤ (i 0).val ∧ (i 0).val < win2_2.index t (0 : Fin 2) * 2000 + 2000
    rw [e4]; omega
  | ⟨1, _⟩ =>
    show win2_2.index t (1 : Fin 2) * 128 ≤ (i 1).val ∧ (i 1).val < win2_2.index t (1 : Fin 2) * 128 + 128
    rw [e5]; omega

/-- After the region its result array is the whole product of its two input arrays as the region found them: each
    point writes its block of that product, and the blocks fill the array. -/
theorem region2_eq (c : Dev nD) :
    (dat2 (F := Ideal) V c).arrAt 2 cfg2.N
      = Host.dotGeneral (F := Ideal) (φ₁ := .f32) (φ₂ := .f32) (DotDims.plain 50000 256 128) none (V c main_v48) (V c main_arg4) :=
  (dat2 V c).arrAt_eq_of_cover 2 (secondProduct (V c main_v48) (V c main_arg4)) (fun t _ => second_written_block V c t)
    second_rows_covered

end Cert.KernelIdeal.MatmulValue

end
-- ==== Proof.LibColumnLayout.lean ====
/-
  The two layout steps a per-row statistic (a row sum, mean or maximum kept as a column) goes through before it meets
  the rows again, read at an index, for any element type: a vector of per-row numbers [a] recast as a column [a, 1]
  (`Cert.Lib.shapeCast_a_a1_apply`: the column at (i, ·) is the vector at i), and the column spread over the b lanes
  of each row, [a, 1] → [a, b] (`Cert.Lib.broadcastTo_a1_ab_apply`: the spread block at (p, c) is the column at (p, 0)).
-/
import Idealize.ShloMosaic.Lib.ValueLayout

namespace Cert.Lib

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib
-- ==== Proof.LibBlockIndex.lean ====
/-
  Index maps of a block into its array, read at coordinates.

  A block of an array is read through an index map from the block's indices to the array's. Of such a map a proof about
  tiled computations needs only its coordinates: a coordinate is kept, or shifted by the block's offset, or pinned to the
  member of a stacked array the block belongs to. Knowing the coordinates, the map's value at the index built from
  coordinates (a, b) — or (0, a, b) for a block with a leading axis of length one — is the index built from the shifted
  coordinates.
-/
import Idealize.ShloMosaic.Lib.ValueIdx

noncomputable section

namespace Cert.Lib

open Idealize.ShloMosaic Idealize.ShloMosaic.ValueIdx

/-- An index map of a rank-2 array into itself that keeps both coordinates is the identity at (a, b). -/
theorem keep2 {n0 n1 : Nat} (e : (⟨2, ![n0, n1]⟩ : Shape).Idx → (⟨2, ![n0, n1]⟩ : Shape).Idx)
    (h0 : ∀ y, (e y 0).val = (y 0).val) (h1 : ∀ y, (e y 1).val = (y 1).val) (a : Fin n0) (b : Fin n1) :
    e (ix2 a b) = ix2 a b := by
  funext d; apply Fin.ext
  match d with
  | ⟨0, _⟩ => exact h0 (ix2 a b)
  | ⟨1, _⟩ => exact h1 (ix2 a b)

/-- An index map of a row block into a taller array that shifts rows by off and keeps columns lands at (p, b) when
    p = off + a. -/
theorem shift2 {n0 N0 n1 : Nat} (e : (⟨2, ![n0, n1]⟩ : Shape).Idx → (⟨2, ![N0, n1]⟩ : Shape).Idx) (off : Nat)
    (h0 : ∀ y, (e y 0).val = off + (y 0).val) (h1 : ∀ y, (e y 1).val = (y 1).val)
    (a : Fin n0) (b : Fin n1) (p : Fin N0) (hp : p.val = off + a.val) :
    e (ix2 a b) = ix2 p b := by
  funext d; apply Fin.ext
  match d with
  | ⟨0, _⟩ => exact (h0 (ix2 a b)).trans hp.symm
  | ⟨1, _⟩ => exact h1 (ix2 a b)

/-- An index map of a [1, n1, n2] block into a stacked [R, N1, n2] array that sits at member r, shifts the middle
    coordinate by off and keeps the last lands at (r, p, b) when p = off + a. -/
theorem shift3 {n1 R N1 n2 : Nat} (e : (⟨3, ![1, n1, n2]⟩ : Shape).Idx → (⟨3, ![R, N1, n2]⟩ : Shape).Idx) (r : Fin R) (off : Nat)
    (h0 : ∀ y, (e y 0).val = r.val) (h1 : ∀ y, (e y 1).val = off + (y 1).val) (h2 : ∀ y, (e y 2).val = (y 2).val)
    (a : Fin n1) (b : Fin n2) (p : Fin N1) (hp : p.val = off + a.val) :
    e (ix3 0 a b) = ix3 r p b := by
  funext d; apply Fin.ext
  match d with
  | ⟨0, _⟩ => exact h0 (ix3 0 a b)
  | ⟨1, _⟩ => exact (h1 (ix3 0 a b)).trans hp.symm
  | ⟨2, _⟩ => exact h2 (ix3 0 a b)

end Cert.Lib

end
-- ==== Proof.FinishValue.lean ====
/-
  The value of the two finishing regions of the kernel program, index by index.

  Each of the two layers ends with a region that, over 25 row blocks of 2000 rows, combines four arrays the region finds
  in memory: the aggregate of the neighbours' messages A, the node's own transformed features H (both [50000, k]), a
  column of per-node scales D ([50000, 1]) and a row of biases B ([1, k]); k = 256 in the first layer, 128 in the second.
  At row i, column j the region leaves

      leaky ((A i j + D i 0 * H i j) + B 0 j),

  leaky the rectifier that keeps a number that is at least zero and multiplies any other by the slope. The product is
  scale times feature and the sums are grouped (aggregate + scale * feature) + bias, as the body computes them: over the
  extended reals these cannot be rearranged at infinities.

  For each layer: the body's result at one index of a block (the pointwise operations read at the index, the column
  spread over the lanes and the row spread over the rows read where they come from); what one grid point writes back,
  as block t of one function of the four whole arrays (block t of each moving window is rows 2000 t … 2000 t + 1999,
  the bias row is the same block at every point); the 25 blocks cover the output array (row r lies in block r / 2000);
  so the output array after the region is that function.
-/
import proofs.«120794_j75333726371971_1_alg».proof.Proof.Gen.KernelIdeal.Frame
import proofs.«120794_j75333726371971_1_alg».proof.Proof.LeakyPoint
import proofs.«120794_j75333726371971_1_alg».proof.Proof.LibColumnLayout
import proofs.«120794_j75333726371971_1_alg».proof.Proof.LibBlockIndex
import Idealize.ShloMosaic.Lib.Pipeline.Value
import Idealize.ShloMosaic.Lib.ValueLayout

set_option maxRecDepth 16384

noncomputable section

namespace Cert.KernelIdeal.FinishValue

open Cert.KernelIdeal Cert.KernelIdeal.Gen Idealize.ShloMosaic Idealize.ShloMosaic.TcCoe Idealize.SL.Sem
open Idealize.ShloMosaic.ValueIdx
open Idealize.ShloMosaic.Pipeline (Dat)

/-! ## One element of the finishing step

At one index the finishing step adds to the aggregate the node's scale times its own feature row, adds the bias of the
column, and applies the leaky rectifier. The product is scale times feature and the sums are grouped as
(aggregate + scale * feature) + bias: on the extended reals neither can be rearranged at infinities. -/

/-- The finishing step at row `i`, column `j`, of an aggregate `A`, features `H`, a column of scales `D` and a row of biases `B`. -/
def finishAt {n k : Nat} (A H : (⟨2, ![n, k]⟩ : Shape).Idx → Ideal .f32) (D : (⟨2, ![n, 1]⟩ : Shape).Idx → Ideal .f32)
    (B : (⟨2, ![1, k]⟩ : Shape).Idx → Ideal .f32) (i : Fin n) (j : Fin k) : Ideal .f32 :=
  Cert.Bridge.leakyAt ((A (ix2 i j) + D (ix2 i (0 : Fin 1)) * H (ix2 i j)) + B (ix2 (0 : Fin 1) j))

/-- The finishing step, spelt out. -/
theorem finishAt_def {n k : Nat} (A H : (⟨2, ![n, k]⟩ : Shape).Idx → Ideal .f32) (D : (⟨2, ![n, 1]⟩ : Shape).Idx → Ideal .f32)
    (B : (⟨2, ![1, k]⟩ : Shape).Idx → Ideal .f32) (i : Fin n) (j : Fin k) :
    finishAt A H D B i j
      = Cert.Bridge.leakyAt ((A (ix2 i j) + D (ix2 i (0 : Fin 1)) * H (ix2 i j)) + B (ix2 (0 : Fin 1) j)) := rfl

/-- The finishing step depends on its four arrays only through the four entries it reads. -/
theorem finishAt_congr {n k n' k' : Nat} (A H : (⟨2, ![n, k]⟩ : Shape).Idx → Ideal .f32) (D : (⟨2, ![n, 1]⟩ : Shape).Idx → Ideal .f32)
    (B : (⟨2, ![1, k]⟩ : Shape).Idx → Ideal .f32) (A' H' : (⟨2, ![n', k']⟩ : Shape).Idx → Ideal .f32)
    (D' : (⟨2, ![n', 1]⟩ : Shape).Idx → Ideal .f32) (B' : (⟨2, ![1, k']⟩ : Shape).Idx → Ideal .f32)
    (i : Fin n) (j : Fin k) (i' : Fin n') (j' : Fin k')
    (hA : A (ix2 i j) = A' (ix2 i' j')) (hH : H (ix2 i j) = H' (ix2 i' j'))
    (hD : D (ix2 i (0 : Fin 1)) = D' (ix2 i' (0 : Fin 1))) (hB : B (ix2 (0 : Fin 1) j) = B' (ix2 (0 : Fin 1) j')) :
    finishAt A H D B i j = finishAt A' H' D' B' i' j' := by
  unfold finishAt; rw [hA, hH, hD, hB]

theorem origin2 : (![0, 0] : Fin 2 → Nat) = fun _ => 0 := funext fun a => by fin_cases a <;> rfl

/-! ## The wide layer: 256 columns -/

section Wide

/-- The body's result at row `p`, column `q` of a block: the finishing step of the four loaded blocks there. -/
theorem pay1_at (x0 : Vec Ideal S2000x256 .f32) (x2 : Vec Ideal S2000x1 .f32) (x4 : Vec Ideal S2000x256 .f32)
    (x9 : Vec Ideal S1x256 .f32) (p : Fin 2000) (q : Fin 256) :
    k1_pay1 (F := Ideal) x0 x2 x4 x9 (ix2 p q) = finishAt x0 x4 x2 x9 p q := by
  unfold k1_pay1 finishAt
  simp only [shapeCast_self]
  rw [select_apply, cmpf_apply, mulf_apply, broadcast_apply, broadcast_apply, addf_apply, addf_apply, mulf_apply,
    Cert.Lib.broadcastTo_a1_ab_apply, broadcastTo_1b_ab_apply]
  rfl

variable (V : (c : Dev nD) → (b : Ref sig .tc) → Buf (Elt Ideal) ((c : Thread nD τ).loc b))

/-- The whole output array of the wide layer as one function of the four arrays the region finds. -/
def wide (c : Dev nD) : S50000x256.Idx → Ideal .f32 := fun x =>
  finishAt (V c main_v44) (V c main_v16) (V c main_v46) (V c main_v47) (x 0) (x 1)

/-- The block index maps over the 25 grid points: the three moving windows and the output sit at row block `t`, column
    block 0; the bias row is the same block at every point. -/
theorem blockIdx1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

end Wide

section WideBlocks

variable (V : (c : Dev nD) → (b : Ref sig .tc) → Buf (Elt Ideal) ((c : Thread nD τ).loc b))

/-- What grid point `t` writes back is block `t` of `wide`: rows 2000·t … 2000·t + 1999, all columns. -/
theorem flushed1_eq (c : Dev nD) (t : Fin cfg1.N) :
    (dat1 (F := Ideal) V c).flushed 4 t = ((cfg1.win 4).blk t).view.read (Elt Ideal) (wide V c) := by
  show (cfg1.win 4).cut (grid1.coords t) ((dat1 (F := Ideal) V c).after 4 t) = _
  rw [after1_4]
  unfold out1_4
  rw [View.canon_unit_zero origin2]
  simp only [View.ld_unit_zero (S := S2000x256) origin2, View.ld_unit_zero (S := S2000x1) origin2, View.ld_unit_zero (S := S1x256) origin2]
  obtain ⟨e00, e01, e10, e11, e20, e21, e30, e31, e40, e41⟩ := blockIdx1 t
  have ht : t.val < 25 := Nat.lt_of_lt_of_eq t.isLt N_1
  funext j
  obtain ⟨p, q, rfl⟩ : ∃ (p : Fin 2000) (q : Fin 256), j = ix2 p q := ⟨j 0, j 1, eq_ix2 j⟩
  show k1_pay1 (F := Ideal) (iblk1 V c 0 t) (iblk1 V c 2 t) (iblk1 V c 1 t) (iblk1 V c 3 t) (ix2 p q)
    = wide V c (((cfg1.win 4).blk t).view.emb (ix2 p q))
  refine (pay1_at (iblk1 V c 0 t) (iblk1 V c 2 t) (iblk1 V c 1 t) (iblk1 V c 3 t) p q).trans ?_
  have hp : p.val < 2000 := p.isLt
  let i : Fin 50000 := ⟨2000 * t.val + p.val, by omega⟩
  have o4 : ((cfg1.win 4).blk t).view.emb (ix2 p q) = (ix2 i q : S50000x256.Idx) :=
    Cert.Lib.shift2 (fun y => ((cfg1.win 4).blk t).view.emb y) (2000 * t.val)
      (fun y => by show win1_4.index t (0 : Fin 2) * 2000 + 1 * (y 0).val = _; rw [e40]; omega)
      (fun y => by show win1_4.index t (1 : Fin 2) * 256 + 1 * (y 1).val = _; rw [e41]; omega) p q i rfl
  have o0 : ((cfg1.win 0).blk t).view.emb (ix2 p q) = (ix2 i q : S50000x256.Idx) :=
    Cert.Lib.shift2 (fun y => ((cfg1.win 0).blk t).view.emb y) (2000 * t.val)
      (fun y => by show win1_0.index t (0 : Fin 2) * 2000 + 1 * (y 0).val = _; rw [e00]; omega)
      (fun y => by show win1_0.index t (1 : Fin 2) * 256 + 1 * (y 1).val = _; rw [e01]; omega) p q i rfl
  have o1 : ((cfg1.win 1).blk t).view.emb (ix2 p q) = (ix2 i q : S50000x256.Idx) :=
    Cert.Lib.shift2 (fun y => ((cfg1.win 1).blk t).view.emb y) (2000 * t.val)
      (fun y => by show win1_1.index t (0 : Fin 2) * 2000 + 1 * (y 0).val = _; rw [e10]; omega)
      (fun y => by show win1_1.index t (1 : Fin 2) * 256 + 1 * (y 1).val = _; rw [e11]; omega) p q i rfl
  have o2 : ((cfg1.win 2).blk t).view.emb (ix2 p (0 : Fin 1)) = (ix2 i (0 : Fin 1) : S50000x1.Idx) :=
    Cert.Lib.shift2 (fun y => ((cfg1.win 2).blk t).view.emb y) (2000 * t.val)
      (fun y => by show win1_2.index t (0 : Fin 2) * 2000 + 1 * (y 0).val = _; rw [e20]; omega)
      (fun y => by show win1_2.index t (1 : Fin 2) * 1 + 1 * (y 1).val = _; rw [e21]; omega) p 0 i rfl
  have o3 : ((cfg1.win 3).blk t).view.emb (ix2 (0 : Fin 1) q) = (ix2 (0 : Fin 1) q : S1x256.Idx) :=
    Cert.Lib.keep2 (fun y => ((cfg1.win 3).blk t).view.emb y)
      (fun y => by show win1_3.index t (0 : Fin 2) * 1 + 1 * (y 0).val = _; rw [e30]; omega)
      (fun y => by show win1_3.index t (1 : Fin 2) * 256 + 1 * (y 1).val = _; rw [e31]; omega) 0 q
  rw [o4]
  exact finishAt_congr (iblk1 V c 0 t) (iblk1 V c 1 t) (iblk1 V c 2 t) (iblk1 V c 3 t)
    (V c main_v44) (V c main_v16) (V c main_v46) (V c main_v47) p q i q
    (congrArg (V c main_v44 : S50000x256.Idx → Ideal .f32) o0) (congrArg (V c main_v16 : S50000x256.Idx → Ideal .f32) o1)
    (congrArg (V c main_v46 : S50000x1.Idx → Ideal .f32) o2) (congrArg (V c main_v47 : S1x256.Idx → Ideal .f32) o3)

end WideBlocks

section WideArray

variable (V : (c : Dev nD) → (b : Ref sig .tc) → Buf (Elt Ideal) ((c : Thread nD τ).loc b))

/-- An index of the output array is in point `t`'s block iff each coordinate is in the block's range on its axis. -/
theorem mem_blk1 (t : Fin cfg1.N) (x : S50000x256.Idx) :
    x ∈ ((cfg1.win 4).blk t).view.set ↔ ∀ a : Fin 2, win1_4.index t a * S2000x256.size a ≤ (x a).val
      ∧ (x a).val < win1_4.index t a * S2000x256.size a + S2000x256.size a := by
  show x ∈ ((View.whole main_v48).slice (win1_4.rect t)).set ↔ _
  rw [View.set_slice_whole, Rect.mem_set_unit]
  exact Iff.rfl

/-- The 25 row blocks cover the array: row `r` is in the block of point `r / 2000`. -/
theorem cover1 (x : S50000x256.Idx) :
    ∃ t : Fin cfg1.N, (cfg1.win 4).flush t = true ∧ x ∈ ((cfg1.win 4).blk t).view.set := by
  have h0 : (x 0).val < 50000 := idx2_lt0 x
  have h1 : (x 1).val < 256 := idx2_lt1 x
  let t : Fin cfg1.N := ⟨(x 0).val / 2000, Nat.lt_of_lt_of_eq (by omega : (x 0).val / 2000 < 25) N_1.symm⟩
  obtain ⟨-, -, -, -, -, -, -, -, e40, e41⟩ := blockIdx1 t
  refine ⟨t, flush1_4 t, ?_⟩
  rw [mem_blk1]
  intro a
  match a with
  | ⟨0, _⟩ =>
    show win1_4.index t (0 : Fin 2) * 2000 ≤ (x 0).val ∧ (x 0).val < win1_4.index t (0 : Fin 2) * 2000 + 2000
    rw [e40]; show (x 0).val / 2000 * 2000 ≤ (x 0).val ∧ (x 0).val < (x 0).val / 2000 * 2000 + 2000; omega
  | ⟨1, _⟩ =>
    show win1_4.index t (1 : Fin 2) * 256 ≤ (x 1).val ∧ (x 1).val < win1_4.index t (1 : Fin 2) * 256 + 256
    rw [e41]; omega

/-- The output array of the wide layer after the region's run is `wide` of the arrays the region found. -/
theorem region1_eq (c : Dev nD) : (dat1 (F := Ideal) V c).arrAt 4 cfg1.N = wide V c :=
  (dat1 (F := Ideal) V c).arrAt_eq_of_cover 4 (wide V c) (fun t _ => flushed1_eq V c t) cover1

/-- The same, index by index: the finishing step of the four arrays at row `i`, column `j`. -/
theorem region1_at (c : Dev nD) (i : Fin 50000) (j : Fin 256) :
    (dat1 (F := Ideal) V c).arrAt 4 cfg1.N (ix2 i j)
      = finishAt (V c main_v44) (V c main_v16) (V c main_v46) (V c main_v47) i j :=
  congrFun (region1_eq V c) (ix2 i j)

/-- The same with the finishing step spelt out. The sum and the product are written with their type, the extended
    reals, given: an entry of one of these arrays has that type only after the array's reference is unfolded. -/
theorem region1_leaky_at (c : Dev nD) (i : Fin 50000) (j : Fin 256) :
    (dat1 (F := Ideal) V c).arrAt 4 cfg1.N (ix2 i j)
      = Cert.Bridge.leakyAt (HAdd.hAdd (α := Ideal .f32) (β := Ideal .f32) (γ := Ideal .f32)
          (HAdd.hAdd (α := Ideal .f32) (β := Ideal .f32) (γ := Ideal .f32) (V c main_v44 (ix2 i j))
            (HMul.hMul (α := Ideal .f32) (β := Ideal .f32) (γ := Ideal .f32) (V c main_v46 (ix2 i (0 : Fin 1)))
              (V c main_v16 (ix2 i j))))
          (V c main_v47 (ix2 (0 : Fin 1) j))) :=
  region1_at V c i j

end WideArray

/-! ## The narrow layer: 128 columns -/

section Narrow

/-- The body's result at row `p`, column `q` of a block: the finishing step of the four loaded blocks there. -/
theorem pay3_at (x0 : Vec Ideal S2000x128 .f32) (x2 : Vec Ideal S2000x1 .f32) (x4 : Vec Ideal S2000x128 .f32)
    (x9 : Vec Ideal S1x128 .f32) (p : Fin 2000) (q : Fin 128) :
    k3_pay1 (F := Ideal) x0 x2 x4 x9 (ix2 p q) = finishAt x0 x4 x2 x9 p q := by
  unfold k3_pay1 finishAt
  simp only [shapeCast_self]
  rw [select_apply, cmpf_apply, mulf_apply, broadcast_apply, broadcast_apply, addf_apply, addf_apply, mulf_apply,
    Cert.Lib.broadcastTo_a1_ab_apply, broadcastTo_1b_ab_apply]
  rfl

variable (V : (c : Dev nD) → (b : Ref sig .tc) → Buf (Elt Ideal) ((c : Thread nD τ).loc b))

/-- The whole output array of the narrow layer as one function of the four arrays the region finds. -/
def narrow (c : Dev nD) : S50000x128.Idx → Ideal .f32 := fun x =>
  finishAt (V c main_v89) (V c main_v61) (V c main_v91) (V c main_v92) (x 0) (x 1)

/-- The block index maps over the 25 grid points: the three moving windows and the output sit at row block `t`, column
    block 0; the bias row is the same block at every point. -/
theorem blockIdx3 : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

end Narrow

section NarrowBlocks

variable (V : (c : Dev nD) → (b : Ref sig .tc) → Buf (Elt Ideal) ((c : Thread nD τ).loc b))

/-- What grid point `t` writes back is block `t` of `narrow`: rows 2000·t … 2000·t + 1999, all columns. -/
theorem flushed3_eq (c : Dev nD) (t : Fin cfg3.N) :
    (dat3 (F := Ideal) V c).flushed 4 t = ((cfg3.win 4).blk t).view.read (Elt Ideal) (narrow V c) := by
  show (cfg3.win 4).cut (grid3.coords t) ((dat3 (F := Ideal) V c).after 4 t) = _
  rw [after3_4]
  unfold out3_4
  rw [View.canon_unit_zero origin2]
  simp only [View.ld_unit_zero (S := S2000x128) origin2, View.ld_unit_zero (S := S2000x1) origin2, View.ld_unit_zero (S := S1x128) origin2]
  obtain ⟨e00, e01, e10, e11, e20, e21, e30, e31, e40, e41⟩ := blockIdx3 t
  have ht : t.val < 25 := Nat.lt_of_lt_of_eq t.isLt N_3
  funext j
  obtain ⟨p, q, rfl⟩ : ∃ (p : Fin 2000) (q : Fin 128), j = ix2 p q := ⟨j 0, j 1, eq_ix2 j⟩
  show k3_pay1 (F := Ideal) (iblk3 V c 0 t) (iblk3 V c 2 t) (iblk3 V c 1 t) (iblk3 V c 3 t) (ix2 p q)
    = narrow V c (((cfg3.win 4).blk t).view.emb (ix2 p q))
  refine (pay3_at (iblk3 V c 0 t) (iblk3 V c 2 t) (iblk3 V c 1 t) (iblk3 V c 3 t) p q).trans ?_
  have hp : p.val < 2000 := p.isLt
  let i : Fin 50000 := ⟨2000 * t.val + p.val, by omega⟩
  have o4 : ((cfg3.win 4).blk t).view.emb (ix2 p q) = (ix2 i q : S50000x128.Idx) :=
    Cert.Lib.shift2 (fun y => ((cfg3.win 4).blk t).view.emb y) (2000 * t.val)
      (fun y => by show win3_4.index t (0 : Fin 2) * 2000 + 1 * (y 0).val = _; rw [e40]; omega)
      (fun y => by show win3_4.index t (1 : Fin 2) * 128 + 1 * (y 1).val = _; rw [e41]; omega) p q i rfl
  have o0 : ((cfg3.win 0).blk t).view.emb (ix2 p q) = (ix2 i q : S50000x128.Idx) :=
    Cert.Lib.shift2 (fun y => ((cfg3.win 0).blk t).view.emb y) (2000 * t.val)
      (fun y => by show win3_0.index t (0 : Fin 2) * 2000 + 1 * (y 0).val = _; rw [e00]; omega)
      (fun y => by show win3_0.index t (1 : Fin 2) * 128 + 1 * (y 1).val = _; rw [e01]; omega) p q i rfl
  have o1 : ((cfg3.win 1).blk t).view.emb (ix2 p q) = (ix2 i q : S50000x128.Idx) :=
    Cert.Lib.shift2 (fun y => ((cfg3.win 1).blk t).view.emb y) (2000 * t.val)
      (fun y => by show win3_1.index t (0 : Fin 2) * 2000 + 1 * (y 0).val = _; rw [e10]; omega)
      (fun y => by show win3_1.index t (1 : Fin 2) * 128 + 1 * (y 1).val = _; rw [e11]; omega) p q i rfl
  have o2 : ((cfg3.win 2).blk t).view.emb (ix2 p (0 : Fin 1)) = (ix2 i (0 : Fin 1) : S50000x1.Idx) :=
    Cert.Lib.shift2 (fun y => ((cfg3.win 2).blk t).view.emb y) (2000 * t.val)
      (fun y => by show win3_2.index t (0 : Fin 2) * 2000 + 1 * (y 0).val = _; rw [e20]; omega)
      (fun y => by show win3_2.index t (1 : Fin 2) * 1 + 1 * (y 1).val = _; rw [e21]; omega) p 0 i rfl
  have o3 : ((cfg3.win 3).blk t).view.emb (ix2 (0 : Fin 1) q) = (ix2 (0 : Fin 1) q : S1x128.Idx) :=
    Cert.Lib.keep2 (fun y => ((cfg3.win 3).blk t).view.emb y)
      (fun y => by show win3_3.index t (0 : Fin 2) * 1 + 1 * (y 0).val = _; rw [e30]; omega)
      (fun y => by show win3_3.index t (1 : Fin 2) * 128 + 1 * (y 1).val = _; rw [e31]; omega) 0 q
  rw [o4]
  exact finishAt_congr (iblk3 V c 0 t) (iblk3 V c 1 t) (iblk3 V c 2 t) (iblk3 V c 3 t)
    (V c main_v89) (V c main_v61) (V c main_v91) (V c main_v92) p q i q
    (congrArg (V c main_v89 : S50000x128.Idx → Ideal .f32) o0) (congrArg (V c main_v61 : S50000x128.Idx → Ideal .f32) o1)
    (congrArg (V c main_v91 : S50000x1.Idx → Ideal .f32) o2) (congrArg (V c main_v92 : S1x128.Idx → Ideal .f32) o3)

end NarrowBlocks

section NarrowArray

variable (V : (c : Dev nD) → (b : Ref sig .tc) → Buf (Elt Ideal) ((c : Thread nD τ).loc b))

/-- An index of the output array is in point `t`'s block iff each coordinate is in the block's range on its axis. -/
theorem mem_blk3 (t : Fin cfg3.N) (x : S50000x128.Idx) :
    x ∈ ((cfg3.win 4).blk t).view.set ↔ ∀ a : Fin 2, win3_4.index t a * S2000x128.size a ≤ (x a).val
      ∧ (x a).val < win3_4.index t a * S2000x128.size a + S2000x128.size a := by
  show x ∈ ((View.whole main_v93).slice (win3_4.rect t)).set ↔ _
  rw [View.set_slice_whole, Rect.mem_set_unit]
  exact Iff.rfl

/-- The 25 row blocks cover the array: row `r` is in the block of point `r / 2000`. -/
theorem cover3 (x : S50000x128.Idx) :
    ∃ t : Fin cfg3.N, (cfg3.win 4).flush t = true ∧ x ∈ ((cfg3.win 4).blk t).view.set := by
  have h0 : (x 0).val < 50000 := idx2_lt0 x
  have h1 : (x 1).val < 128 := idx2_lt1 x
  let t : Fin cfg3.N := ⟨(x 0).val / 2000, Nat.lt_of_lt_of_eq (by omega : (x 0).val / 2000 < 25) N_3.symm⟩
  obtain ⟨-, -, -, -, -, -, -, -, e40, e41⟩ := blockIdx3 t
  refine ⟨t, flush3_4 t, ?_⟩
  rw [mem_blk3]
  intro a
  match a with
  | ⟨0, _⟩ =>
    show win3_4.index t (0 : Fin 2) * 2000 ≤ (x 0).val ∧ (x 0).val < win3_4.index t (0 : Fin 2) * 2000 + 2000
    rw [e40]; show (x 0).val / 2000 * 2000 ≤ (x 0).val ∧ (x 0).val < (x 0).val / 2000 * 2000 + 2000; omega
  | ⟨1, _⟩ =>
    show win3_4.index t (1 : Fin 2) * 128 ≤ (x 1).val ∧ (x 1).val < win3_4.index t (1 : Fin 2) * 128 + 128
    rw [e41]; omega

/-- The output array of the narrow layer after the region's run is `narrow` of the arrays the region found. -/
theorem region3_eq (c : Dev nD) : (dat3 (F := Ideal) V c).arrAt 4 cfg3.N = narrow V c :=
  (dat3 (F := Ideal) V c).arrAt_eq_of_cover 4 (narrow V c) (fun t _ => flushed3_eq V c t) cover3

/-- The same, index by index: the finishing step of the four arrays at row `i`, column `j`. -/
theorem region3_at (c : Dev nD) (i : Fin 50000) (j : Fin 128) :
    (dat3 (F := Ideal) V c).arrAt 4 cfg3.N (ix2 i j)
      = finishAt (V c main_v89) (V c main_v61) (V c main_v91) (V c main_v92) i j :=
  congrFun (region3_eq V c) (ix2 i j)

/-- The same with the finishing step spelt out. The sum and the product are written with their type, the extended
    reals, given: an entry of one of these arrays has that type only after the array's reference is unfolded. -/
theorem region3_leaky_at (c : Dev nD) (i : Fin 50000) (j : Fin 128) :
    (dat3 (F := Ideal) V c).arrAt 4 cfg3.N (ix2 i j)
      = Cert.Bridge.leakyAt (HAdd.hAdd (α := Ideal .f32) (β := Ideal .f32) (γ := Ideal .f32)
          (HAdd.hAdd (α := Ideal .f32) (β := Ideal .f32) (γ := Ideal .f32) (V c main_v89 (ix2 i j))
            (HMul.hMul (α := Ideal .f32) (β := Ideal .f32) (γ := Ideal .f32) (V c main_v91 (ix2 i (0 : Fin 1)))
              (V c main_v61 (ix2 i j))))
          (V c main_v92 (ix2 (0 : Fin 1) j))) :=
  region3_at V c i j

end NarrowArray

end Cert.KernelIdeal.FinishValue

end
-- ==== Proof.ChainFold.lean ====
/-
  The idealized kernel's result, read back through its run.

  The run's last boundary holds, at the result buffer, what the fourth region wrote; that region read what the third
  stretch of host operations and the third region left, and so on back to the launch. Walking the chain forward: the
  host operations before each region are the reference's own stages (edge rows, dinv, the weighted sums over edges); each
  matrix-product region leaves the host's whole product; each last-step region leaves, entry by entry, the rectified
  sum (agg + dinv² · H) + b — the column of dinv² and the row of b reaching it recast where the reference spreads them,
  which are the same arrays. So the result array is the reference's function of the six argument arrays.
-/
import proofs.«120794_j75333726371971_1_alg».proof.Proof.Gen.KernelIdeal.Frame
import proofs.«120794_j75333726371971_1_alg».proof.Proof.RefSpec
import proofs.«120794_j75333726371971_1_alg».proof.Proof.SpecAt
import proofs.«120794_j75333726371971_1_alg».proof.Proof.LeakyPoint
import proofs.«120794_j75333726371971_1_alg».proof.Proof.LibRowOfVector
import proofs.«120794_j75333726371971_1_alg».proof.Proof.LibHostSpread
import proofs.«120794_j75333726371971_1_alg».proof.Proof.ChainHost0
import proofs.«120794_j75333726371971_1_alg».proof.Proof.ChainHost1
import proofs.«120794_j75333726371971_1_alg».proof.Proof.ChainHost2
import proofs.«120794_j75333726371971_1_alg».proof.Proof.ChainHost3
import proofs.«120794_j75333726371971_1_alg».proof.Proof.MatmulValue0
import proofs.«120794_j75333726371971_1_alg».proof.Proof.MatmulValue2
import proofs.«120794_j75333726371971_1_alg».proof.Proof.FinishValue

noncomputable section

namespace Cert.KernelIdeal.Chain

open Idealize.ShloMosaic Idealize.ShloMosaic.TcCoe Idealize.ShloMosaic.ValueIdx Idealize.SL.Sem
open Cert.KernelIdeal Cert.KernelIdeal.Gen
open Cert.ReferenceIdeal.Spec (src dst dinv agg256 agg128 dcol finish256 finish128 layer1 layer2)

/-- The host's whole product of a [50000, 512] array with a [512, 256] one, and of a [50000, 256] array with a [256, 128] one. -/
abbrev prod1 (X : FVec Ideal S50000x512 .f32) (W : FVec Ideal S512x256 .f32) : FVec Ideal S50000x256 .f32 :=
  Host.dotGeneral (F := Ideal) (φ₁ := .f32) (φ₂ := .f32) (DotDims.plain 50000 512 256) none X W
abbrev prod2 (Z : FVec Ideal S50000x256 .f32) (W : FVec Ideal S256x128 .f32) : FVec Ideal S50000x128 .f32 :=
  Host.dotGeneral (F := Ideal) (φ₁ := .f32) (φ₂ := .f32) (DotDims.plain 50000 256 128) none Z W

variable (m : (ℓ : Loc nD τ sig) → Buf (Elt Ideal) ℓ) (ρ : Dev nD → PrngReg) (c : Dev nD)

/-- The six argument arrays as launched. -/
abbrev aX : FVec Ideal S50000x512 .f32 := m ((c : Thread nD τ).loc main_arg0)
abbrev aE : IVec S2x800000 32 := m ((c : Thread nD τ).loc main_arg1)
abbrev aW1 : FVec Ideal S512x256 .f32 := m ((c : Thread nD τ).loc main_arg2)
abbrev aB1 : FVec Ideal S256 .f32 := m ((c : Thread nD τ).loc main_arg3)
abbrev aW2 : FVec Ideal S256x128 .f32 := m ((c : Thread nD τ).loc main_arg4)
abbrev aB2 : FVec Ideal S128 .f32 := m ((c : Thread nD τ).loc main_arg5)

/-! ## Before the first product -/

theorem W1_src : (W1 m ρ c (Proc.devRef .tc main_v1) : S800000.Idx → BitVec 32) = src (aE m c) := ops0_src (W0 m ρ c)
theorem W1_dst : (W1 m ρ c (Proc.devRef .tc main_v3) : S800000.Idx → BitVec 32) = dst (aE m c) := ops0_dst (W0 m ρ c)
theorem W1_dinv : (W1 m ρ c (Proc.devRef .tc main_v15) : S50000.Idx → EReal) = dinv (aE m c) := ops0_dinv (W0 m ρ c)
theorem W1_arg0 : (W1 m ρ c (Proc.devRef .tc main_arg0) : S50000x512.Idx → EReal) = (aX m c) := ops0_keep_main_arg0 (W0 m ρ c)
theorem W1_arg2 : (W1 m ρ c (Proc.devRef .tc main_arg2) : S512x256.Idx → EReal) = (aW1 m c) := ops0_keep_main_arg2 (W0 m ρ c)
theorem W1_arg3 : (W1 m ρ c (Proc.devRef .tc main_arg3) : S256.Idx → EReal) = (aB1 m c) := ops0_keep_main_arg3 (W0 m ρ c)
theorem W1_arg4 : (W1 m ρ c (Proc.devRef .tc main_arg4) : S256x128.Idx → EReal) = (aW2 m c) := ops0_keep_main_arg4 (W0 m ρ c)
theorem W1_arg5 : (W1 m ρ c (Proc.devRef .tc main_arg5) : S128.Idx → EReal) = (aB2 m c) := ops0_keep_main_arg5 (W0 m ρ c)

/-! ## After the first product: H₁ = X · W₁ -/

theorem W2_src : (W2 m ρ c (Proc.devRef .tc main_v1) : S800000.Idx → BitVec 32) = src (aE m c) :=
  (W2_of_ne m ρ c main_v1 (by decide)).trans (W1_src m ρ c)
theorem W2_dst : (W2 m ρ c (Proc.devRef .tc main_v3) : S800000.Idx → BitVec 32) = dst (aE m c) :=
  (W2_of_ne m ρ c main_v3 (by decide)).trans (W1_dst m ρ c)
theorem W2_dinv : (W2 m ρ c (Proc.devRef .tc main_v15) : S50000.Idx → EReal) = dinv (aE m c) :=
  (W2_of_ne m ρ c main_v15 (by decide)).trans (W1_dinv m ρ c)
theorem W2_arg3 : (W2 m ρ c (Proc.devRef .tc main_arg3) : S256.Idx → EReal) = (aB1 m c) :=
  (W2_of_ne m ρ c main_arg3 (by decide)).trans (W1_arg3 m ρ c)
theorem W2_arg4 : (W2 m ρ c (Proc.devRef .tc main_arg4) : S256x128.Idx → EReal) = (aW2 m c) :=
  (W2_of_ne m ρ c main_arg4 (by decide)).trans (W1_arg4 m ρ c)
theorem W2_arg5 : (W2 m ρ c (Proc.devRef .tc main_arg5) : S128.Idx → EReal) = (aB2 m c) :=
  (W2_of_ne m ρ c main_arg5 (by decide)).trans (W1_arg5 m ρ c)

/-- The first region leaves the whole product in its output array. -/
theorem W2_H1 : (W2 m ρ c (Proc.devRef .tc main_v16) : S50000x256.Idx → EReal)
    = prod1 (aX m c) (aW1 m c) :=
  (W2_arr m ρ c 2).trans ((MatmulValue.region0_eq (V1 m ρ) c).trans
    (congrArg₂ (prod1) (W1_arg0 m ρ c) (W1_arg2 m ρ c)))

/-! ## Before the first layer's last step -/

theorem W3_agg : (W3 m ρ c (Proc.devRef .tc main_v44) : S50000x256.Idx → EReal)
    = agg256 (aE m c) (prod1 (aX m c) (aW1 m c)) :=
  (ops1_agg (W2 m ρ c) (aE m c) (W2_src m ρ c) (W2_dst m ρ c) (W2_dinv m ρ c)).trans (congrArg (agg256 (aE m c)) (W2_H1 m ρ c))
theorem W3_H1 : (W3 m ρ c (Proc.devRef .tc main_v16) : S50000x256.Idx → EReal)
    = prod1 (aX m c) (aW1 m c) :=
  (ops1_keep_main_v16 (W2 m ρ c)).trans (W2_H1 m ρ c)
/-- The squared column the kernel recasts is the column the reference spreads. -/
theorem W3_dcol : (W3 m ρ c (Proc.devRef .tc main_v46) : S50000x1.Idx → EReal) = dcol (aE m c) :=
  (ops1_dcol (W2 m ρ c)).trans (by
    rw [W2_dinv m ρ c]
    exact Cert.Lib.shapeCast_col_eq_spread _ _ _)
/-- The bias the kernel recasts as a row is the row the reference spreads. -/
theorem W3_brow : (W3 m ρ c (Proc.devRef .tc main_v47) : S1x256.Idx → EReal)
    = broadcastInDim Cert.ReferenceIdeal.S1x256 ![1] Cert.ReferenceIdeal.Gen.bcast_S256_S1x256_1 (aB1 m c) :=
  (ops1_brow (W2 m ρ c)).trans (by
    rw [W2_arg3 m ρ c]
    exact Cert.Lib.shapeCast_row_eq_broadcastInDim _ _ _)
theorem W3_src : (W3 m ρ c (Proc.devRef .tc main_v1) : S800000.Idx → BitVec 32) = src (aE m c) :=
  (ops1_keep_main_v1 (W2 m ρ c)).trans (W2_src m ρ c)
theorem W3_dst : (W3 m ρ c (Proc.devRef .tc main_v3) : S800000.Idx → BitVec 32) = dst (aE m c) :=
  (ops1_keep_main_v3 (W2 m ρ c)).trans (W2_dst m ρ c)
theorem W3_arg4 : (W3 m ρ c (Proc.devRef .tc main_arg4) : S256x128.Idx → EReal) = (aW2 m c) :=
  (ops1_keep_main_arg4 (W2 m ρ c)).trans (W2_arg4 m ρ c)
theorem W3_arg5 : (W3 m ρ c (Proc.devRef .tc main_arg5) : S128.Idx → EReal) = (aB2 m c) :=
  (ops1_keep_main_arg5 (W2 m ρ c)).trans (W2_arg5 m ρ c)

/-! ## After the first layer's last step: Z₁ -/

/-- The first layer with the product spelt by the plain dimension record. -/
abbrev Z1 : S50000x256.Idx → EReal :=
  finish256 (agg256 (aE m c) (prod1 (aX m c) (aW1 m c)))
    (prod1 (aX m c) (aW1 m c)) (dcol (aE m c))
    (broadcastInDim Cert.ReferenceIdeal.S1x256 ![1] Cert.ReferenceIdeal.Gen.bcast_S256_S1x256_1 (aB1 m c))

/-- The second region leaves the first layer's result in its output array: entry by entry the kernel's body and the
    reference's last step are the same rectified sum. -/
theorem W4_Z1 : (W4 m ρ c (Proc.devRef .tc main_v48) : S50000x256.Idx → EReal) = Z1 m c := by
  refine (W4_arr m ρ c 4).trans ?_
  funext idx
  obtain ⟨i, j, rfl⟩ : ∃ (i : Fin 50000) (j : Fin 256), idx = ix2 i j := ⟨idx 0, idx 1, eq_ix2 idx⟩
  refine (FinishValue.region1_at (V3 m ρ) c i j).trans ?_
  unfold Z1
  rw [FinishValue.finishAt_def, Cert.ReferenceIdeal.Spec.finish256_apply]
  exact congrArg Cert.Bridge.leakyAt (congrArg₂ (· + ·)
    (congrArg₂ (· + ·) (congrFun (W3_agg m ρ c) _)
      (congrArg₂ (· * ·) (congrFun (W3_dcol m ρ c) _) (congrFun (W3_H1 m ρ c) _)))
    (congrFun (W3_brow m ρ c) _))

theorem W4_src : (W4 m ρ c (Proc.devRef .tc main_v1) : S800000.Idx → BitVec 32) = src (aE m c) :=
  (W4_of_ne m ρ c main_v1 (by decide)).trans (W3_src m ρ c)
theorem W4_dst : (W4 m ρ c (Proc.devRef .tc main_v3) : S800000.Idx → BitVec 32) = dst (aE m c) :=
  (W4_of_ne m ρ c main_v3 (by decide)).trans (W3_dst m ρ c)
theorem W4_arg4 : (W4 m ρ c (Proc.devRef .tc main_arg4) : S256x128.Idx → EReal) = (aW2 m c) :=
  (W4_of_ne m ρ c main_arg4 (by decide)).trans (W3_arg4 m ρ c)
theorem W4_arg5 : (W4 m ρ c (Proc.devRef .tc main_arg5) : S128.Idx → EReal) = (aB2 m c) :=
  (W4_of_ne m ρ c main_arg5 (by decide)).trans (W3_arg5 m ρ c)

/-! ## Before the second product -/

theorem W5_dinv : (W5 m ρ c (Proc.devRef .tc main_v60) : S50000.Idx → EReal) = dinv (aE m c) :=
  ops2_dinv (W4 m ρ c) (aE m c) (W4_dst m ρ c)
theorem W5_Z1 : (W5 m ρ c (Proc.devRef .tc main_v48) : S50000x256.Idx → EReal) = Z1 m c :=
  (ops2_keep_main_v48 (W4 m ρ c)).trans (W4_Z1 m ρ c)
theorem W5_src : (W5 m ρ c (Proc.devRef .tc main_v1) : S800000.Idx → BitVec 32) = src (aE m c) :=
  (ops2_keep_main_v1 (W4 m ρ c)).trans (W4_src m ρ c)
theorem W5_dst : (W5 m ρ c (Proc.devRef .tc main_v3) : S800000.Idx → BitVec 32) = dst (aE m c) :=
  (ops2_keep_main_v3 (W4 m ρ c)).trans (W4_dst m ρ c)
theorem W5_arg4 : (W5 m ρ c (Proc.devRef .tc main_arg4) : S256x128.Idx → EReal) = (aW2 m c) :=
  (ops2_keep_main_arg4 (W4 m ρ c)).trans (W4_arg4 m ρ c)
theorem W5_arg5 : (W5 m ρ c (Proc.devRef .tc main_arg5) : S128.Idx → EReal) = (aB2 m c) :=
  (ops2_keep_main_arg5 (W4 m ρ c)).trans (W4_arg5 m ρ c)

/-! ## After the second product: H₂ = Z₁ · W₂ -/

theorem W6_H2 : (W6 m ρ c (Proc.devRef .tc main_v61) : S50000x128.Idx → EReal)
    = prod2 (Z1 m c) (aW2 m c) :=
  (W6_arr m ρ c 2).trans ((MatmulValue.region2_eq (V5 m ρ) c).trans
    (congrArg₂ (prod2) (W5_Z1 m ρ c) (W5_arg4 m ρ c)))
theorem W6_src : (W6 m ρ c (Proc.devRef .tc main_v1) : S800000.Idx → BitVec 32) = src (aE m c) :=
  (W6_of_ne m ρ c main_v1 (by decide)).trans (W5_src m ρ c)
theorem W6_dst : (W6 m ρ c (Proc.devRef .tc main_v3) : S800000.Idx → BitVec 32) = dst (aE m c) :=
  (W6_of_ne m ρ c main_v3 (by decide)).trans (W5_dst m ρ c)
theorem W6_dinv : (W6 m ρ c (Proc.devRef .tc main_v60) : S50000.Idx → EReal) = dinv (aE m c) :=
  (W6_of_ne m ρ c main_v60 (by decide)).trans (W5_dinv m ρ c)
theorem W6_arg5 : (W6 m ρ c (Proc.devRef .tc main_arg5) : S128.Idx → EReal) = (aB2 m c) :=
  (W6_of_ne m ρ c main_arg5 (by decide)).trans (W5_arg5 m ρ c)

/-! ## Before the second layer's last step -/

theorem W7_agg : (W7 m ρ c (Proc.devRef .tc main_v89) : S50000x128.Idx → EReal)
    = agg128 (aE m c) (prod2 (Z1 m c) (aW2 m c)) :=
  (ops3_agg (W6 m ρ c) (aE m c) (W6_src m ρ c) (W6_dst m ρ c) (W6_dinv m ρ c)).trans (congrArg (agg128 (aE m c)) (W6_H2 m ρ c))
theorem W7_H2 : (W7 m ρ c (Proc.devRef .tc main_v61) : S50000x128.Idx → EReal)
    = prod2 (Z1 m c) (aW2 m c) :=
  (ops3_keep_main_v61 (W6 m ρ c)).trans (W6_H2 m ρ c)
theorem W7_dcol : (W7 m ρ c (Proc.devRef .tc main_v91) : S50000x1.Idx → EReal) = dcol (aE m c) :=
  (ops3_dcol (W6 m ρ c)).trans (by
    rw [W6_dinv m ρ c]
    exact Cert.Lib.shapeCast_col_eq_spread _ _ _)
theorem W7_brow : (W7 m ρ c (Proc.devRef .tc main_v92) : S1x128.Idx → EReal)
    = broadcastInDim Cert.ReferenceIdeal.S1x128 ![1] Cert.ReferenceIdeal.Gen.bcast_S128_S1x128_1 (aB2 m c) :=
  (ops3_brow (W6 m ρ c)).trans (by
    rw [W6_arg5 m ρ c]
    exact Cert.Lib.shapeCast_row_eq_broadcastInDim _ _ _)

/-! ## The result -/

/-- The second layer of the first, the products spelt by the plain dimension records. -/
abbrev Z2 : S50000x128.Idx → EReal :=
  finish128 (agg128 (aE m c) (prod2 (Z1 m c) (aW2 m c)))
    (prod2 (Z1 m c) (aW2 m c)) (dcol (aE m c))
    (broadcastInDim Cert.ReferenceIdeal.S1x128 ![1] Cert.ReferenceIdeal.Gen.bcast_S128_S1x128_1 (aB2 m c))

/-- The fourth region leaves the second layer's result in the result array. -/
theorem W8_Z2 : (W8 m ρ c (Proc.devRef .tc main_v93) : S50000x128.Idx → EReal) = Z2 m c := by
  refine (W8_arr m ρ c 4).trans ?_
  funext idx
  obtain ⟨i, j, rfl⟩ : ∃ (i : Fin 50000) (j : Fin 128), idx = ix2 i j := ⟨idx 0, idx 1, eq_ix2 idx⟩
  refine (FinishValue.region3_at (V7 m ρ) c i j).trans ?_
  unfold Z2
  rw [FinishValue.finishAt_def, Cert.ReferenceIdeal.Spec.finish128_apply]
  exact congrArg Cert.Bridge.leakyAt (congrArg₂ (· + ·)
    (congrArg₂ (· + ·) (congrFun (W7_agg m ρ c) _)
      (congrArg₂ (· * ·) (congrFun (W7_dcol m ρ c) _) (congrFun (W7_H2 m ρ c) _)))
    (congrFun (W7_brow m ρ c) _))

/-- The plain dimension records are the reference's own. -/
theorem plain1 : DotDims.plain 50000 512 256 = Cert.ReferenceIdeal.dot_S50000x512_S512x256_S50000x256_1_0_0_1_n_n := rfl
theorem plain2 : DotDims.plain 50000 256 128 = Cert.ReferenceIdeal.dot_S50000x256_S256x128_S50000x128_1_0_0_1_n_n := rfl

/-- The kernel's result array is the reference's function of the six argument arrays. -/
theorem result_eq : (W8 m ρ c (Proc.devRef .tc main_v93) : S50000x128.Idx → EReal)
    = Cert.ReferenceIdeal.Spec.out (aX m c) (aE m c) (aW1 m c) (aB1 m c) (aW2 m c) (aB2 m c) := by
  rw [W8_Z2 m ρ c]
  unfold Z2 Z1 prod1 prod2 Cert.ReferenceIdeal.Spec.out Cert.ReferenceIdeal.Spec.layer2 Cert.ReferenceIdeal.Spec.layer1
  rw [plain1, plain2]

end Cert.KernelIdeal.Chain

end
-- ==== Proof.RefRunOps.lean ====
/- The reference program's @main as one list of its host operations, the two calls of the leaky
   rectifier written out at their call sites over the calls' own buffers (each at its own reference, the typed references' transports being the identity there), and the run of that list:
   every weakly fair execution terminates with every buffer at the fold of the operations' results over
   the launch contents. -/
import proofs.«120794_j75333726371971_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 146 operations, in order. Each call of the leaky rectifier is seven: the zero and its
    broadcast, the comparison `x ≥ 0`, the slope converted to its own type and broadcast, the product
    `slope · x`, and the selection between `x` and that product (the inner call's one operation). -/
abbrev ops : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)),
    binary main_arg0 main_arg2 main_v16 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)),
    nullary main_c_3 (constantI S_ 32 0#32),
    unary main_c_3 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v15 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v15 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)),
    nullary main_c_7 (constantI S_ 32 0#32),
    unary main_c_7 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v16 main_v37 main_v38 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v31 main_v39 (broadcastInDim S800000x1 ![0] bcast_S800000_S800000x1_0 : (⟨S800000, .f32⟩ : BufTy).Contents (Elt F) → (⟨S800000x1, .f32⟩ : BufTy).Contents (Elt F)),
    unary main_v39 main_v40 (broadcastInDim S800000x256 ![0, 1] bcast_S800000x1_S800000x256_0_1 : (⟨S800000x1, .f32⟩ : BufTy).Contents (Elt F) → (⟨S800000x256, .f32⟩ : BufTy).Contents (Elt F)),
    binary main_v38 main_v40 main_v41 (mulf : (⟨S800000x256, .f32⟩ : BufTy).Contents (Elt F) → (⟨S800000x256, .f32⟩ : BufTy).Contents (Elt F) → (⟨S800000x256, .f32⟩ : BufTy).Contents (Elt F)),
    nullary main_cst_9 (constant S_ .f32 0x00000000#32),
    unary main_cst_9 main_v42 (broadcastInDim S50000x256 ![] bcast_S_S50000x256 : (⟨S_, .f32⟩ : BufTy).Contents (Elt F) → (⟨S50000x256, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)),
    binary main_v15 main_v15 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x256 ![0, 1] bcast_S50000x1_S50000x256_0_1 : (⟨S50000x1, .f32⟩ : BufTy).Contents (Elt F) → (⟨S50000x256, .f32⟩ : BufTy).Contents (Elt F)),
    binary main_v47 main_v16 main_v48 (mulf : (⟨S50000x256, .f32⟩ : BufTy).Contents (Elt F) → (⟨S50000x256, .f32⟩ : BufTy).Contents (Elt F) → (⟨S50000x256, .f32⟩ : BufTy).Contents (Elt F)),
    binary main_v44 main_v48 main_v49 (addf : (⟨S50000x256, .f32⟩ : BufTy).Contents (Elt F) → (⟨S50000x256, .f32⟩ : BufTy).Contents (Elt F) → (⟨S50000x256, .f32⟩ : BufTy).Contents (Elt F)),
    unary main_arg3 main_v50 (broadcastInDim S1x256 ![1] bcast_S256_S1x256_1 : (⟨S256, .f32⟩ : BufTy).Contents (Elt F) → (⟨S1x256, .f32⟩ : BufTy).Contents (Elt F)),
    unary main_v50 main_v51 (broadcastInDim S50000x256 ![0, 1] bcast_S1x256_S50000x256_0_1 : (⟨S1x256, .f32⟩ : BufTy).Contents (Elt F) → (⟨S50000x256, .f32⟩ : BufTy).Contents (Elt F)),
    binary main_v49 main_v51 main_v52 (addf : (⟨S50000x256, .f32⟩ : BufTy).Contents (Elt F) → (⟨S50000x256, .f32⟩ : BufTy).Contents (Elt F) → (⟨S50000x256, .f32⟩ : BufTy).Contents (Elt F)),
    nullary main_cst_10 (constant S_ .f32 0x3E4CCCCD#32),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v52 main_call0_v0 main_call0_v1 (cmpf .oge : (⟨S50000x256, .f32⟩ : BufTy).Contents (Elt F) → (⟨S50000x256, .f32⟩ : BufTy).Contents (Elt F) → (⟨S50000x256, .i1⟩ : BufTy).Contents (Elt F)),
    unary main_cst_10 main_call0_v2 (id : (⟨S_, .f32⟩ : BufTy).Contents (Elt F) → (⟨S_, .f32⟩ : BufTy).Contents (Elt F)),
    unary main_call0_v2 main_call0_v3 (broadcastInDim S50000x256 ![] bcast_S_S50000x256 : (⟨S_, .f32⟩ : BufTy).Contents (Elt F) → (⟨S50000x256, .f32⟩ : BufTy).Contents (Elt F)),
    binary main_call0_v3 main_v52 main_call0_v4 (mulf : (⟨S50000x256, .f32⟩ : BufTy).Contents (Elt F) → (⟨S50000x256, .f32⟩ : BufTy).Contents (Elt F) → (⟨S50000x256, .f32⟩ : BufTy).Contents (Elt F)),
    ternary main_call0_v1 main_v52 main_call0_v4 main_v53 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)),
    unary main_arg1 main_v54 ((extractStridedSlice S1x800000 ![0, 0] · slices_S2x800000_S1x800000_0_0) : (⟨S2x800000, .i32⟩ : BufTy).Contents (Elt F) → (⟨S1x800000, .i32⟩ : BufTy).Contents (Elt F)),
    reshape main_v54 main_v55 rfl shapeCasts_S1x800000_S800000,
    unary main_arg1 main_v56 ((extractStridedSlice S1x800000 ![1, 0] · slices_S2x800000_S1x800000_1_0) : (⟨S2x800000, .i32⟩ : BufTy).Contents (Elt F) → (⟨S1x800000, .i32⟩ : BufTy).Contents (Elt F)),
    reshape main_v56 main_v57 rfl shapeCasts_S1x800000_S800000,
    nullary main_cst_11 (constant S_ .f32 0x00000000#32),
    unary main_cst_11 main_v58 (broadcastInDim S50000 ![] bcast_S_S50000 : (⟨S_, .f32⟩ : BufTy).Contents (Elt F) → (⟨S50000, .f32⟩ : BufTy).Contents (Elt F)),
    nullary main_c_12 (constantI S_ 32 0#32),
    unary main_c_12 main_v59 (broadcastInDim S800000 ![] bcast_S_S800000 : (⟨S_, .i32⟩ : BufTy).Contents (Elt F) → (⟨S800000, .i32⟩ : BufTy).Contents (Elt F)),
    binary main_v57 main_v59 main_v60 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v61 (broadcastInDim S800000 ![] bcast_S_S800000 : (⟨S_, .i32⟩ : BufTy).Contents (Elt F) → (⟨S800000, .i32⟩ : BufTy).Contents (Elt F)),
    binary main_v57 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_v57 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    nullary main_cst_14 (constant S_ .f32 0x3F800000#32),
    unary main_cst_14 main_v65 (broadcastInDim S800000 ![] bcast_S_S800000 : (⟨S_, .f32⟩ : BufTy).Contents (Elt F) → (⟨S800000, .f32⟩ : BufTy).Contents (Elt F)),
    ternary main_v58 main_v64 main_v65 main_v66 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v67 (broadcastInDim S50000 ![] bcast_S_S50000 : (⟨S_, .f32⟩ : BufTy).Contents (Elt F) → (⟨S50000, .f32⟩ : BufTy).Contents (Elt F)),
    binary main_v66 main_v67 main_v68 (addf : (⟨S50000, .f32⟩ : BufTy).Contents (Elt F) → (⟨S50000, .f32⟩ : BufTy).Contents (Elt F) → (⟨S50000, .f32⟩ : BufTy).Contents (Elt F)),
    unary main_v68 main_v69 (Host.rsqrt : (⟨S50000, .f32⟩ : BufTy).Contents (Elt F) → (⟨S50000, .f32⟩ : BufTy).Contents (Elt F)),
    binary main_v53 main_arg4 main_v70 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)),
    nullary main_c_16 (constantI S_ 32 0#32),
    unary main_c_16 main_v71 (broadcastInDim S800000 ![] bcast_S_S800000 : (⟨S_, .i32⟩ : BufTy).Contents (Elt F) → (⟨S800000, .i32⟩ : BufTy).Contents (Elt F)),
    binary main_v55 main_v71 main_v72 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v73 (broadcastInDim S800000 ![] bcast_S_S800000 : (⟨S_, .i32⟩ : BufTy).Contents (Elt F) → (⟨S800000, .i32⟩ : BufTy).Contents (Elt F)),
    binary main_v55 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v55 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v69 main_v76 main_v77 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_18 (constantI S_ 32 0#32),
    unary main_c_18 main_v78 (broadcastInDim S800000 ![] bcast_S_S800000 : (⟨S_, .i32⟩ : BufTy).Contents (Elt F) → (⟨S800000, .i32⟩ : BufTy).Contents (Elt F)),
    binary main_v57 main_v78 main_v79 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v80 (broadcastInDim S800000 ![] bcast_S_S800000 : (⟨S_, .i32⟩ : BufTy).Contents (Elt F) → (⟨S800000, .i32⟩ : BufTy).Contents (Elt F)),
    binary main_v57 main_v80 main_v81 (addi : (⟨S800000, .i32⟩ : BufTy).Contents (Elt F) → (⟨S800000, .i32⟩ : BufTy).Contents (Elt F) → (⟨S800000, .i32⟩ : BufTy).Contents (Elt F)),
    ternary main_v79 main_v81 main_v57 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v82 main_v83 (broadcastInDim S800000x1 ![0] bcast_S800000_S800000x1_0 : (⟨S800000, .i32⟩ : BufTy).Contents (Elt F) → (⟨S800000x1, .i32⟩ : BufTy).Contents (Elt F)),
    binary main_v69 main_v83 main_v84 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v77 main_v84 main_v85 (mulf : (⟨S800000, .f32⟩ : BufTy).Contents (Elt F) → (⟨S800000, .f32⟩ : BufTy).Contents (Elt F) → (⟨S800000, .f32⟩ : BufTy).Contents (Elt F)),
    nullary main_c_20 (constantI S_ 32 0#32),
    unary main_c_20 main_v86 (broadcastInDim S800000 ![] bcast_S_S800000 : (⟨S_, .i32⟩ : BufTy).Contents (Elt F) → (⟨S800000, .i32⟩ : BufTy).Contents (Elt F)),
    binary main_v55 main_v86 main_v87 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v88 (broadcastInDim S800000 ![] bcast_S_S800000 : (⟨S_, .i32⟩ : BufTy).Contents (Elt F) → (⟨S800000, .i32⟩ : BufTy).Contents (Elt F)),
    binary main_v55 main_v88 main_v89 (addi : (⟨S800000, .i32⟩ : BufTy).Contents (Elt F) → (⟨S800000, .i32⟩ : BufTy).Contents (Elt F) → (⟨S800000, .i32⟩ : BufTy).Contents (Elt F)),
    ternary main_v87 main_v89 main_v55 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v90 main_v91 (broadcastInDim S800000x1 ![0] bcast_S800000_S800000x1_0 : (⟨S800000, .i32⟩ : BufTy).Contents (Elt F) → (⟨S800000x1, .i32⟩ : BufTy).Contents (Elt F)),
    binary main_v70 main_v91 main_v92 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v85 main_v93 (broadcastInDim S800000x1 ![0] bcast_S800000_S800000x1_0 : (⟨S800000, .f32⟩ : BufTy).Contents (Elt F) → (⟨S800000x1, .f32⟩ : BufTy).Contents (Elt F)),
    unary main_v93 main_v94 (broadcastInDim S800000x128 ![0, 1] bcast_S800000x1_S800000x128_0_1 : (⟨S800000x1, .f32⟩ : BufTy).Contents (Elt F) → (⟨S800000x128, .f32⟩ : BufTy).Contents (Elt F)),
    binary main_v92 main_v94 main_v95 (mulf : (⟨S800000x128, .f32⟩ : BufTy).Contents (Elt F) → (⟨S800000x128, .f32⟩ : BufTy).Contents (Elt F) → (⟨S800000x128, .f32⟩ : BufTy).Contents (Elt F)),
    nullary main_cst_22 (constant S_ .f32 0x00000000#32),
    unary main_cst_22 main_v96 (broadcastInDim S50000x128 ![] bcast_S_S50000x128 : (⟨S_, .f32⟩ : BufTy).Contents (Elt F) → (⟨S50000x128, .f32⟩ : BufTy).Contents (Elt F)),
    unary main_v57 main_v97 (broadcastInDim S800000x1 ![0] bcast_S800000_S800000x1_0 : (⟨S800000, .i32⟩ : BufTy).Contents (Elt F) → (⟨S800000x1, .i32⟩ : BufTy).Contents (Elt F)),
    ternary main_v96 main_v97 main_v95 main_v98 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    binary main_v69 main_v69 main_v99 (mulf : (⟨S50000, .f32⟩ : BufTy).Contents (Elt F) → (⟨S50000, .f32⟩ : BufTy).Contents (Elt F) → (⟨S50000, .f32⟩ : BufTy).Contents (Elt F)),
    unary main_v99 main_v100 (broadcastInDim S50000x1 ![0] bcast_S50000_S50000x1_0 : (⟨S50000, .f32⟩ : BufTy).Contents (Elt F) → (⟨S50000x1, .f32⟩ : BufTy).Contents (Elt F)),
    unary main_v100 main_v101 (broadcastInDim S50000x128 ![0, 1] bcast_S50000x1_S50000x128_0_1 : (⟨S50000x1, .f32⟩ : BufTy).Contents (Elt F) → (⟨S50000x128, .f32⟩ : BufTy).Contents (Elt F)),
    binary main_v101 main_v70 main_v102 (mulf : (⟨S50000x128, .f32⟩ : BufTy).Contents (Elt F) → (⟨S50000x128, .f32⟩ : BufTy).Contents (Elt F) → (⟨S50000x128, .f32⟩ : BufTy).Contents (Elt F)),
    binary main_v98 main_v102 main_v103 (addf : (⟨S50000x128, .f32⟩ : BufTy).Contents (Elt F) → (⟨S50000x128, .f32⟩ : BufTy).Contents (Elt F) → (⟨S50000x128, .f32⟩ : BufTy).Contents (Elt F)),
    unary main_arg5 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v103 main_v105 main_v106 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3E4CCCCD#32),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v106 main_call1_v0 main_call1_v1 (cmpf .oge : (⟨S50000x128, .f32⟩ : BufTy).Contents (Elt F) → (⟨S50000x128, .f32⟩ : BufTy).Contents (Elt F) → (⟨S50000x128, .i1⟩ : BufTy).Contents (Elt F)),
    unary main_cst_23 main_call1_v2 (id : (⟨S_, .f32⟩ : BufTy).Contents (Elt F) → (⟨S_, .f32⟩ : BufTy).Contents (Elt F)),
    unary main_call1_v2 main_call1_v3 (broadcastInDim S50000x128 ![] bcast_S_S50000x128 : (⟨S_, .f32⟩ : BufTy).Contents (Elt F) → (⟨S50000x128, .f32⟩ : BufTy).Contents (Elt F)),
    binary main_call1_v3 main_v106 main_call1_v4 (mulf : (⟨S50000x128, .f32⟩ : BufTy).Contents (Elt F) → (⟨S50000x128, .f32⟩ : BufTy).Contents (Elt F) → (⟨S50000x128, .f32⟩ : BufTy).Contents (Elt F)),
    ternary main_call1_v1 main_v106 main_call1_v4 main_v107 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

set_option maxRecDepth 16384 in
set_option maxHeartbeats 8000000 in
/-- @main is that straight line: its three windows and the functions' bodies unfold at their calls, and
    sequencing re-associates by computation. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches TensorCore references only. -/
theorem ops_sub : (ops : List (HloOp τ sig (Elt F))).Forall fun op => op.bufs ⊆ tcRefs τ sig :=
  ⟨unary_bufs_sub .., reshape_bufs_sub .., unary_bufs_sub .., reshape_bufs_sub .., nullary_bufs_sub .., unary_bufs_sub ..,
    nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub .., nullary_bufs_sub ..,
    unary_bufs_sub .., binary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., binary_bufs_sub .., nullary_bufs_sub .., unary_bufs_sub ..,
    binary_bufs_sub .., ternary_bufs_sub .., unary_bufs_sub .., binary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., unary_bufs_sub .., unary_bufs_sub .., binary_bufs_sub .., nullary_bufs_sub ..,
    unary_bufs_sub .., unary_bufs_sub .., ternary_bufs_sub .., binary_bufs_sub .., unary_bufs_sub .., unary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub .., unary_bufs_sub .., reshape_bufs_sub .., unary_bufs_sub .., reshape_bufs_sub .., nullary_bufs_sub ..,
    unary_bufs_sub .., nullary_bufs_sub .., unary_bufs_sub .., binary_bufs_sub .., nullary_bufs_sub .., unary_bufs_sub ..,
    binary_bufs_sub .., ternary_bufs_sub .., unary_bufs_sub .., nullary_bufs_sub .., unary_bufs_sub .., ternary_bufs_sub ..,
    nullary_bufs_sub .., unary_bufs_sub .., binary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., binary_bufs_sub .., unary_bufs_sub ..,
    unary_bufs_sub .., binary_bufs_sub .., binary_bufs_sub .., unary_bufs_sub .., unary_bufs_sub .., binary_bufs_sub ..,
    nullary_bufs_sub .., nullary_bufs_sub .., unary_bufs_sub .., binary_bufs_sub .., unary_bufs_sub .., unary_bufs_sub ..,
    binary_bufs_sub .., ternary_bufs_sub ..⟩

/-- On every device, for any float values, from any memory with zero counters: every weakly fair execution
    of @main terminates, and every final state has each TensorCore buffer at the fold of the operations'
    results over the launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.RefRun.lean ====
/- The reference program's run read back: its operation list cut into twelve stages (per layer: the edge
   rows, the degree's reciprocal root, the feature product, the edge weights, the weighted sum over edges, the
   last step with the leaky rectifier), the buffer contents after each stage named, and each stage's live
   buffers computed from the previous stage's; the result buffer after the last stage is the reference's
   result as one function of the six argument arrays. -/
import proofs.«120794_j75333726371971_1_alg».proof.Proof.RefRunOps
import proofs.«120794_j75333726371971_1_alg».proof.Proof.RefSpec
import Idealize.ShloMosaic.Lib.Pipeline.Frame

set_option Elab.async false

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The edge array's two rows: each edge's source and destination node. -/
abbrev opsA : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000 ]

/-- The first layer's degree count and its reciprocal square root. -/
abbrev opsB : List (HloOp τ sig (Elt F)) :=
  [ nullary main_cst (constant S_ .f32 0x00000000#32),
    unary main_cst main_v4 (broadcastInDim S50000 ![] bcast_S_S50000 : (⟨S_, .f32⟩ : BufTy).Contents (Elt F) → (⟨S50000, .f32⟩ : BufTy).Contents (Elt F)),
    nullary main_c (constantI S_ 32 0#32),
    unary main_c main_v5 (broadcastInDim S800000 ![] bcast_S_S800000 : (⟨S_, .i32⟩ : BufTy).Contents (Elt F) → (⟨S800000, .i32⟩ : BufTy).Contents (Elt F)),
    binary main_v3 main_v5 main_v6 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v7 (broadcastInDim S800000 ![] bcast_S_S800000 : (⟨S_, .i32⟩ : BufTy).Contents (Elt F) → (⟨S800000, .i32⟩ : BufTy).Contents (Elt F)),
    binary main_v3 main_v7 main_v8 (addi : (⟨S800000, .i32⟩ : BufTy).Contents (Elt F) → (⟨S800000, .i32⟩ : BufTy).Contents (Elt F) → (⟨S800000, .i32⟩ : BufTy).Contents (Elt F)),
    ternary main_v6 main_v8 main_v3 main_v9 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v9 main_v10 (broadcastInDim S800000x1 ![0] bcast_S800000_S800000x1_0 : (⟨S800000, .i32⟩ : BufTy).Contents (Elt F) → (⟨S800000x1, .i32⟩ : BufTy).Contents (Elt F)),
    nullary main_cst_1 (constant S_ .f32 0x3F800000#32),
    unary main_cst_1 main_v11 (broadcastInDim S800000 ![] bcast_S_S800000 : (⟨S_, .f32⟩ : BufTy).Contents (Elt F) → (⟨S800000, .f32⟩ : BufTy).Contents (Elt F)),
    ternary main_v4 main_v10 main_v11 main_v12 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_2 (constant S_ .f32 0x3F800000#32),
    unary main_cst_2 main_v13 (broadcastInDim S50000 ![] bcast_S_S50000 : (⟨S_, .f32⟩ : BufTy).Contents (Elt F) → (⟨S50000, .f32⟩ : BufTy).Contents (Elt F)),
    binary main_v12 main_v13 main_v14 (addf : (⟨S50000, .f32⟩ : BufTy).Contents (Elt F) → (⟨S50000, .f32⟩ : BufTy).Contents (Elt F) → (⟨S50000, .f32⟩ : BufTy).Contents (Elt F)),
    unary main_v14 main_v15 (Host.rsqrt : (⟨S50000, .f32⟩ : BufTy).Contents (Elt F) → (⟨S50000, .f32⟩ : BufTy).Contents (Elt F)) ]

/-- The first layer's product of the features with the weights. -/
abbrev opsC : List (HloOp τ sig (Elt F)) :=
  [ binary main_arg0 main_arg2 main_v16 ((fun l r => Host.dotGeneral dot_S50000x512_S512x256_S50000x256_1_0_0_1_n_n none l r) : (⟨S50000x512, .f32⟩ : BufTy).Contents (Elt F) → (⟨S512x256, .f32⟩ : BufTy).Contents (Elt F) → (⟨S50000x256, .f32⟩ : BufTy).Contents (Elt F)) ]

/-- The first layer's edge weights: the two gathered reciprocal roots multiplied. -/
abbrev opsD : List (HloOp τ sig (Elt F)) :=
  [ nullary main_c_3 (constantI S_ 32 0#32),
    unary main_c_3 main_v17 (broadcastInDim S800000 ![] bcast_S_S800000 : (⟨S_, .i32⟩ : BufTy).Contents (Elt F) → (⟨S800000, .i32⟩ : BufTy).Contents (Elt F)),
    binary main_v1 main_v17 main_v18 (cmpi .slt : (⟨S800000, .i32⟩ : BufTy).Contents (Elt F) → (⟨S800000, .i32⟩ : BufTy).Contents (Elt F) → (⟨S800000, .i1⟩ : BufTy).Contents (Elt F)),
    nullary main_c_4 (constantI S_ 32 50000#32),
    unary main_c_4 main_v19 (broadcastInDim S800000 ![] bcast_S_S800000 : (⟨S_, .i32⟩ : BufTy).Contents (Elt F) → (⟨S800000, .i32⟩ : BufTy).Contents (Elt F)),
    binary main_v1 main_v19 main_v20 (addi : (⟨S800000, .i32⟩ : BufTy).Contents (Elt F) → (⟨S800000, .i32⟩ : BufTy).Contents (Elt F) → (⟨S800000, .i32⟩ : BufTy).Contents (Elt F)),
    ternary main_v18 main_v20 main_v1 main_v21 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v21 main_v22 (broadcastInDim S800000x1 ![0] bcast_S800000_S800000x1_0 : (⟨S800000, .i32⟩ : BufTy).Contents (Elt F) → (⟨S800000x1, .i32⟩ : BufTy).Contents (Elt F)),
    binary main_v15 main_v22 main_v23 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_5 (constantI S_ 32 0#32),
    unary main_c_5 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_6 (constantI S_ 32 50000#32),
    unary main_c_6 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v15 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)) ]

/-- The first layer's weighted rows gathered by source and summed into their destinations. -/
abbrev opsE : List (HloOp τ sig (Elt F)) :=
  [ nullary main_c_7 (constantI S_ 32 0#32),
    unary main_c_7 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_8 (constantI S_ 32 50000#32),
    unary main_c_8 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v16 main_v37 main_v38 ((fun x i => Host.gather gather_S50000x256_S800000x1_S800000x256_1_0_n_n_0_1_1256 x i) : (⟨S50000x256, .f32⟩ : BufTy).Contents (Elt F) → (⟨S800000x1, .i32⟩ : BufTy).Contents (Elt F) → (⟨S800000x256, .f32⟩ : BufTy).Contents (Elt F)),
    unary main_v31 main_v39 (broadcastInDim S800000x1 ![0] bcast_S800000_S800000x1_0 : (⟨S800000, .f32⟩ : BufTy).Contents (Elt F) → (⟨S800000x1, .f32⟩ : BufTy).Contents (Elt F)),
    unary main_v39 main_v40 (broadcastInDim S800000x256 ![0, 1] bcast_S800000x1_S800000x256_0_1 : (⟨S800000x1, .f32⟩ : BufTy).Contents (Elt F) → (⟨S800000x256, .f32⟩ : BufTy).Contents (Elt F)),
    binary main_v38 main_v40 main_v41 (mulf : (⟨S800000x256, .f32⟩ : BufTy).Contents (Elt F) → (⟨S800000x256, .f32⟩ : BufTy).Contents (Elt F) → (⟨S800000x256, .f32⟩ : BufTy).Contents (Elt F)),
    nullary main_cst_9 (constant S_ .f32 0x00000000#32),
    unary main_cst_9 main_v42 (broadcastInDim S50000x256 ![] bcast_S_S50000x256 : (⟨S_, .f32⟩ : BufTy).Contents (Elt F) → (⟨S50000x256, .f32⟩ : BufTy).Contents (Elt F)),
    unary main_v3 main_v43 (broadcastInDim S800000x1 ![0] bcast_S800000_S800000x1_0 : (⟨S800000, .i32⟩ : BufTy).Contents (Elt F) → (⟨S800000x1, .i32⟩ : BufTy).Contents (Elt F)),
    ternary main_v42 main_v43 main_v41 main_v44 ((fun x i u => Host.scatterAdd scatter_S50000x256_S800000x1_S800000x256_1_0_0_1 x i u) : (⟨S50000x256, .f32⟩ : BufTy).Contents (Elt F) → (⟨S800000x1, .i32⟩ : BufTy).Contents (Elt F) → (⟨S800000x256, .f32⟩ : BufTy).Contents (Elt F) → (⟨S50000x256, .f32⟩ : BufTy).Contents (Elt F)) ]

/-- The first layer's last step: the self term and the bias added, then the leaky rectifier. -/
abbrev opsF : List (HloOp τ sig (Elt F)) :=
  [ binary main_v15 main_v15 main_v45 (mulf : (⟨S50000, .f32⟩ : BufTy).Contents (Elt F) → (⟨S50000, .f32⟩ : BufTy).Contents (Elt F) → (⟨S50000, .f32⟩ : BufTy).Contents (Elt F)),
    unary main_v45 main_v46 (broadcastInDim S50000x1 ![0] bcast_S50000_S50000x1_0 : (⟨S50000, .f32⟩ : BufTy).Contents (Elt F) → (⟨S50000x1, .f32⟩ : BufTy).Contents (Elt F)),
    unary main_v46 main_v47 (broadcastInDim S50000x256 ![0, 1] bcast_S50000x1_S50000x256_0_1 : (⟨S50000x1, .f32⟩ : BufTy).Contents (Elt F) → (⟨S50000x256, .f32⟩ : BufTy).Contents (Elt F)),
    binary main_v47 main_v16 main_v48 (mulf : (⟨S50000x256, .f32⟩ : BufTy).Contents (Elt F) → (⟨S50000x256, .f32⟩ : BufTy).Contents (Elt F) → (⟨S50000x256, .f32⟩ : BufTy).Contents (Elt F)),
    binary main_v44 main_v48 main_v49 (addf : (⟨S50000x256, .f32⟩ : BufTy).Contents (Elt F) → (⟨S50000x256, .f32⟩ : BufTy).Contents (Elt F) → (⟨S50000x256, .f32⟩ : BufTy).Contents (Elt F)),
    unary main_arg3 main_v50 (broadcastInDim S1x256 ![1] bcast_S256_S1x256_1 : (⟨S256, .f32⟩ : BufTy).Contents (Elt F) → (⟨S1x256, .f32⟩ : BufTy).Contents (Elt F)),
    unary main_v50 main_v51 (broadcastInDim S50000x256 ![0, 1] bcast_S1x256_S50000x256_0_1 : (⟨S1x256, .f32⟩ : BufTy).Contents (Elt F) → (⟨S50000x256, .f32⟩ : BufTy).Contents (Elt F)),
    binary main_v49 main_v51 main_v52 (addf : (⟨S50000x256, .f32⟩ : BufTy).Contents (Elt F) → (⟨S50000x256, .f32⟩ : BufTy).Contents (Elt F) → (⟨S50000x256, .f32⟩ : BufTy).Contents (Elt F)),
    nullary main_cst_10 (constant S_ .f32 0x3E4CCCCD#32),
    nullary main_call0_cst (constant S_ .f32 0x00000000#32),
    unary main_call0_cst main_call0_v0 (broadcastInDim S50000x256 ![] bcast_S_S50000x256 : (⟨S_, .f32⟩ : BufTy).Contents (Elt F) → (⟨S50000x256, .f32⟩ : BufTy).Contents (Elt F)),
    binary main_v52 main_call0_v0 main_call0_v1 (cmpf .oge : (⟨S50000x256, .f32⟩ : BufTy).Contents (Elt F) → (⟨S50000x256, .f32⟩ : BufTy).Contents (Elt F) → (⟨S50000x256, .i1⟩ : BufTy).Contents (Elt F)),
    unary main_cst_10 main_call0_v2 (id : (⟨S_, .f32⟩ : BufTy).Contents (Elt F) → (⟨S_, .f32⟩ : BufTy).Contents (Elt F)),
    unary main_call0_v2 main_call0_v3 (broadcastInDim S50000x256 ![] bcast_S_S50000x256 : (⟨S_, .f32⟩ : BufTy).Contents (Elt F) → (⟨S50000x256, .f32⟩ : BufTy).Contents (Elt F)),
    binary main_call0_v3 main_v52 main_call0_v4 (mulf : (⟨S50000x256, .f32⟩ : BufTy).Contents (Elt F) → (⟨S50000x256, .f32⟩ : BufTy).Contents (Elt F) → (⟨S50000x256, .f32⟩ : BufTy).Contents (Elt F)),
    ternary main_call0_v1 main_v52 main_call0_v4 main_v53 (select : (⟨S50000x256, .i1⟩ : BufTy).Contents (Elt F) → (⟨S50000x256, .f32⟩ : BufTy).Contents (Elt F) → (⟨S50000x256, .f32⟩ : BufTy).Contents (Elt F) → (⟨S50000x256, .f32⟩ : BufTy).Contents (Elt F)) ]

/-- The edge array's two rows, read again for the second layer. -/
abbrev opsG : List (HloOp τ sig (Elt F)) :=
  [ unary main_arg1 main_v54 ((extractStridedSlice S1x800000 ![0, 0] · slices_S2x800000_S1x800000_0_0) : (⟨S2x800000, .i32⟩ : BufTy).Contents (Elt F) → (⟨S1x800000, .i32⟩ : BufTy).Contents (Elt F)),
    reshape main_v54 main_v55 rfl shapeCasts_S1x800000_S800000,
    unary main_arg1 main_v56 ((extractStridedSlice S1x800000 ![1, 0] · slices_S2x800000_S1x800000_1_0) : (⟨S2x800000, .i32⟩ : BufTy).Contents (Elt F) → (⟨S1x800000, .i32⟩ : BufTy).Contents (Elt F)),
    reshape main_v56 main_v57 rfl shapeCasts_S1x800000_S800000 ]

/-- The second layer's degree count and its reciprocal square root. -/
abbrev opsH : List (HloOp τ sig (Elt F)) :=
  [ nullary main_cst_11 (constant S_ .f32 0x00000000#32),
    unary main_cst_11 main_v58 (broadcastInDim S50000 ![] bcast_S_S50000 : (⟨S_, .f32⟩ : BufTy).Contents (Elt F) → (⟨S50000, .f32⟩ : BufTy).Contents (Elt F)),
    nullary main_c_12 (constantI S_ 32 0#32),
    unary main_c_12 main_v59 (broadcastInDim S800000 ![] bcast_S_S800000 : (⟨S_, .i32⟩ : BufTy).Contents (Elt F) → (⟨S800000, .i32⟩ : BufTy).Contents (Elt F)),
    binary main_v57 main_v59 main_v60 (cmpi .slt : (⟨S800000, .i32⟩ : BufTy).Contents (Elt F) → (⟨S800000, .i32⟩ : BufTy).Contents (Elt F) → (⟨S800000, .i1⟩ : BufTy).Contents (Elt F)),
    nullary main_c_13 (constantI S_ 32 50000#32),
    unary main_c_13 main_v61 (broadcastInDim S800000 ![] bcast_S_S800000 : (⟨S_, .i32⟩ : BufTy).Contents (Elt F) → (⟨S800000, .i32⟩ : BufTy).Contents (Elt F)),
    binary main_v57 main_v61 main_v62 (addi : (⟨S800000, .i32⟩ : BufTy).Contents (Elt F) → (⟨S800000, .i32⟩ : BufTy).Contents (Elt F) → (⟨S800000, .i32⟩ : BufTy).Contents (Elt F)),
    ternary main_v60 main_v62 main_v57 main_v63 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v63 main_v64 (broadcastInDim S800000x1 ![0] bcast_S800000_S800000x1_0 : (⟨S800000, .i32⟩ : BufTy).Contents (Elt F) → (⟨S800000x1, .i32⟩ : BufTy).Contents (Elt F)),
    nullary main_cst_14 (constant S_ .f32 0x3F800000#32),
    unary main_cst_14 main_v65 (broadcastInDim S800000 ![] bcast_S_S800000 : (⟨S_, .f32⟩ : BufTy).Contents (Elt F) → (⟨S800000, .f32⟩ : BufTy).Contents (Elt F)),
    ternary main_v58 main_v64 main_v65 main_v66 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_15 (constant S_ .f32 0x3F800000#32),
    unary main_cst_15 main_v67 (broadcastInDim S50000 ![] bcast_S_S50000 : (⟨S_, .f32⟩ : BufTy).Contents (Elt F) → (⟨S50000, .f32⟩ : BufTy).Contents (Elt F)),
    binary main_v66 main_v67 main_v68 (addf : (⟨S50000, .f32⟩ : BufTy).Contents (Elt F) → (⟨S50000, .f32⟩ : BufTy).Contents (Elt F) → (⟨S50000, .f32⟩ : BufTy).Contents (Elt F)),
    unary main_v68 main_v69 (Host.rsqrt : (⟨S50000, .f32⟩ : BufTy).Contents (Elt F) → (⟨S50000, .f32⟩ : BufTy).Contents (Elt F)) ]

/-- The second layer's product of the first layer's result with the weights. -/
abbrev opsI : List (HloOp τ sig (Elt F)) :=
  [ binary main_v53 main_arg4 main_v70 ((fun l r => Host.dotGeneral dot_S50000x256_S256x128_S50000x128_1_0_0_1_n_n none l r) : (⟨S50000x256, .f32⟩ : BufTy).Contents (Elt F) → (⟨S256x128, .f32⟩ : BufTy).Contents (Elt F) → (⟨S50000x128, .f32⟩ : BufTy).Contents (Elt F)) ]

/-- The second layer's edge weights. -/
abbrev opsJ : List (HloOp τ sig (Elt F)) :=
  [ nullary main_c_16 (constantI S_ 32 0#32),
    unary main_c_16 main_v71 (broadcastInDim S800000 ![] bcast_S_S800000 : (⟨S_, .i32⟩ : BufTy).Contents (Elt F) → (⟨S800000, .i32⟩ : BufTy).Contents (Elt F)),
    binary main_v55 main_v71 main_v72 (cmpi .slt : (⟨S800000, .i32⟩ : BufTy).Contents (Elt F) → (⟨S800000, .i32⟩ : BufTy).Contents (Elt F) → (⟨S800000, .i1⟩ : BufTy).Contents (Elt F)),
    nullary main_c_17 (constantI S_ 32 50000#32),
    unary main_c_17 main_v73 (broadcastInDim S800000 ![] bcast_S_S800000 : (⟨S_, .i32⟩ : BufTy).Contents (Elt F) → (⟨S800000, .i32⟩ : BufTy).Contents (Elt F)),
    binary main_v55 main_v73 main_v74 (addi : (⟨S800000, .i32⟩ : BufTy).Contents (Elt F) → (⟨S800000, .i32⟩ : BufTy).Contents (Elt F) → (⟨S800000, .i32⟩ : BufTy).Contents (Elt F)),
    ternary main_v72 main_v74 main_v55 main_v75 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v75 main_v76 (broadcastInDim S800000x1 ![0] bcast_S800000_S800000x1_0 : (⟨S800000, .i32⟩ : BufTy).Contents (Elt F) → (⟨S800000x1, .i32⟩ : BufTy).Contents (Elt F)),
    binary main_v69 main_v76 main_v77 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    nullary main_c_18 (constantI S_ 32 0#32),
    unary main_c_18 main_v78 (broadcastInDim S800000 ![] bcast_S_S800000 : (⟨S_, .i32⟩ : BufTy).Contents (Elt F) → (⟨S800000, .i32⟩ : BufTy).Contents (Elt F)),
    binary main_v57 main_v78 main_v79 (cmpi .slt : (⟨S800000, .i32⟩ : BufTy).Contents (Elt F) → (⟨S800000, .i32⟩ : BufTy).Contents (Elt F) → (⟨S800000, .i1⟩ : BufTy).Contents (Elt F)),
    nullary main_c_19 (constantI S_ 32 50000#32),
    unary main_c_19 main_v80 (broadcastInDim S800000 ![] bcast_S_S800000 : (⟨S_, .i32⟩ : BufTy).Contents (Elt F) → (⟨S800000, .i32⟩ : BufTy).Contents (Elt F)),
    binary main_v57 main_v80 main_v81 (addi : (⟨S800000, .i32⟩ : BufTy).Contents (Elt F) → (⟨S800000, .i32⟩ : BufTy).Contents (Elt F) → (⟨S800000, .i32⟩ : BufTy).Contents (Elt F)),
    ternary main_v79 main_v81 main_v57 main_v82 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v82 main_v83 (broadcastInDim S800000x1 ![0] bcast_S800000_S800000x1_0 : (⟨S800000, .i32⟩ : BufTy).Contents (Elt F) → (⟨S800000x1, .i32⟩ : BufTy).Contents (Elt F)),
    binary main_v69 main_v83 main_v84 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v77 main_v84 main_v85 (mulf : (⟨S800000, .f32⟩ : BufTy).Contents (Elt F) → (⟨S800000, .f32⟩ : BufTy).Contents (Elt F) → (⟨S800000, .f32⟩ : BufTy).Contents (Elt F)) ]

/-- The second layer's weighted rows gathered by source and summed into their destinations. -/
abbrev opsK : List (HloOp τ sig (Elt F)) :=
  [ nullary main_c_20 (constantI S_ 32 0#32),
    unary main_c_20 main_v86 (broadcastInDim S800000 ![] bcast_S_S800000 : (⟨S_, .i32⟩ : BufTy).Contents (Elt F) → (⟨S800000, .i32⟩ : BufTy).Contents (Elt F)),
    binary main_v55 main_v86 main_v87 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v88 (broadcastInDim S800000 ![] bcast_S_S800000 : (⟨S_, .i32⟩ : BufTy).Contents (Elt F) → (⟨S800000, .i32⟩ : BufTy).Contents (Elt F)),
    binary main_v55 main_v88 main_v89 (addi : (⟨S800000, .i32⟩ : BufTy).Contents (Elt F) → (⟨S800000, .i32⟩ : BufTy).Contents (Elt F) → (⟨S800000, .i32⟩ : BufTy).Contents (Elt F)),
    ternary main_v87 main_v89 main_v55 main_v90 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v90 main_v91 (broadcastInDim S800000x1 ![0] bcast_S800000_S800000x1_0 : (⟨S800000, .i32⟩ : BufTy).Contents (Elt F) → (⟨S800000x1, .i32⟩ : BufTy).Contents (Elt F)),
    binary main_v70 main_v91 main_v92 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    unary main_v85 main_v93 (broadcastInDim S800000x1 ![0] bcast_S800000_S800000x1_0 : (⟨S800000, .f32⟩ : BufTy).Contents (Elt F) → (⟨S800000x1, .f32⟩ : BufTy).Contents (Elt F)),
    unary main_v93 main_v94 (broadcastInDim S800000x128 ![0, 1] bcast_S800000x1_S800000x128_0_1 : (⟨S800000x1, .f32⟩ : BufTy).Contents (Elt F) → (⟨S800000x128, .f32⟩ : BufTy).Contents (Elt F)),
    binary main_v92 main_v94 main_v95 (mulf : (⟨S800000x128, .f32⟩ : BufTy).Contents (Elt F) → (⟨S800000x128, .f32⟩ : BufTy).Contents (Elt F) → (⟨S800000x128, .f32⟩ : BufTy).Contents (Elt F)),
    nullary main_cst_22 (constant S_ .f32 0x00000000#32),
    unary main_cst_22 main_v96 (broadcastInDim S50000x128 ![] bcast_S_S50000x128 : (⟨S_, .f32⟩ : BufTy).Contents (Elt F) → (⟨S50000x128, .f32⟩ : BufTy).Contents (Elt F)),
    unary main_v57 main_v97 (broadcastInDim S800000x1 ![0] bcast_S800000_S800000x1_0 : (⟨S800000, .i32⟩ : BufTy).Contents (Elt F) → (⟨S800000x1, .i32⟩ : BufTy).Contents (Elt F)),
    ternary main_v96 main_v97 main_v95 main_v98 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]

/-- The second layer's last step: the self term and the bias added, then the leaky rectifier. -/
abbrev opsL : List (HloOp τ sig (Elt F)) :=
  [ binary main_v69 main_v69 main_v99 (mulf : (⟨S50000, .f32⟩ : BufTy).Contents (Elt F) → (⟨S50000, .f32⟩ : BufTy).Contents (Elt F) → (⟨S50000, .f32⟩ : BufTy).Contents (Elt F)),
    unary main_v99 main_v100 (broadcastInDim S50000x1 ![0] bcast_S50000_S50000x1_0 : (⟨S50000, .f32⟩ : BufTy).Contents (Elt F) → (⟨S50000x1, .f32⟩ : BufTy).Contents (Elt F)),
    unary main_v100 main_v101 (broadcastInDim S50000x128 ![0, 1] bcast_S50000x1_S50000x128_0_1 : (⟨S50000x1, .f32⟩ : BufTy).Contents (Elt F) → (⟨S50000x128, .f32⟩ : BufTy).Contents (Elt F)),
    binary main_v101 main_v70 main_v102 (mulf : (⟨S50000x128, .f32⟩ : BufTy).Contents (Elt F) → (⟨S50000x128, .f32⟩ : BufTy).Contents (Elt F) → (⟨S50000x128, .f32⟩ : BufTy).Contents (Elt F)),
    binary main_v98 main_v102 main_v103 (addf : (⟨S50000x128, .f32⟩ : BufTy).Contents (Elt F) → (⟨S50000x128, .f32⟩ : BufTy).Contents (Elt F) → (⟨S50000x128, .f32⟩ : BufTy).Contents (Elt F)),
    unary main_arg5 main_v104 (broadcastInDim S1x128 ![1] bcast_S128_S1x128_1 : (⟨S128, .f32⟩ : BufTy).Contents (Elt F) → (⟨S1x128, .f32⟩ : BufTy).Contents (Elt F)),
    unary main_v104 main_v105 (broadcastInDim S50000x128 ![0, 1] bcast_S1x128_S50000x128_0_1 : (⟨S1x128, .f32⟩ : BufTy).Contents (Elt F) → (⟨S50000x128, .f32⟩ : BufTy).Contents (Elt F)),
    binary main_v103 main_v105 main_v106 (addf : (⟨S50000x128, .f32⟩ : BufTy).Contents (Elt F) → (⟨S50000x128, .f32⟩ : BufTy).Contents (Elt F) → (⟨S50000x128, .f32⟩ : BufTy).Contents (Elt F)),
    nullary main_cst_23 (constant S_ .f32 0x3E4CCCCD#32),
    nullary main_call1_cst (constant S_ .f32 0x00000000#32),
    unary main_call1_cst main_call1_v0 (broadcastInDim S50000x128 ![] bcast_S_S50000x128 : (⟨S_, .f32⟩ : BufTy).Contents (Elt F) → (⟨S50000x128, .f32⟩ : BufTy).Contents (Elt F)),
    binary main_v106 main_call1_v0 main_call1_v1 (cmpf .oge : (⟨S50000x128, .f32⟩ : BufTy).Contents (Elt F) → (⟨S50000x128, .f32⟩ : BufTy).Contents (Elt F) → (⟨S50000x128, .i1⟩ : BufTy).Contents (Elt F)),
    unary main_cst_23 main_call1_v2 (id : (⟨S_, .f32⟩ : BufTy).Contents (Elt F) → (⟨S_, .f32⟩ : BufTy).Contents (Elt F)),
    unary main_call1_v2 main_call1_v3 (broadcastInDim S50000x128 ![] bcast_S_S50000x128 : (⟨S_, .f32⟩ : BufTy).Contents (Elt F) → (⟨S50000x128, .f32⟩ : BufTy).Contents (Elt F)),
    binary main_call1_v3 main_v106 main_call1_v4 (mulf : (⟨S50000x128, .f32⟩ : BufTy).Contents (Elt F) → (⟨S50000x128, .f32⟩ : BufTy).Contents (Elt F) → (⟨S50000x128, .f32⟩ : BufTy).Contents (Elt F)),
    ternary main_call1_v1 main_v106 main_call1_v4 main_v107 (select : (⟨S50000x128, .i1⟩ : BufTy).Contents (Elt F) → (⟨S50000x128, .f32⟩ : BufTy).Contents (Elt F) → (⟨S50000x128, .f32⟩ : BufTy).Contents (Elt F) → (⟨S50000x128, .f32⟩ : BufTy).Contents (Elt F)) ]

set_option maxRecDepth 16384 in
/-- The operation list is the twelve stages one after the other. -/
theorem ops_split : (ops : List (HloOp τ sig (Elt F))) = opsA ++ (opsB ++ (opsC ++ (opsD ++ (opsE ++ (opsF ++ (opsG ++ (opsH ++ (opsI ++ (opsJ ++ (opsK ++ (opsL))))))))))) := rfl

/-- The buffer contents before the first stage. -/
def val0 (V : Valuation τ sig (Elt Ideal)) : Valuation τ sig (Elt Ideal) := V
theorem val0_main_arg0 (V : Valuation τ sig (Elt Ideal)) : val0 V (no_index (Proc.devRef .tc main_arg0)) = V (main_arg0 : DevRef τ sig) := rfl
theorem val0_main_arg1 (V : Valuation τ sig (Elt Ideal)) : val0 V (no_index (Proc.devRef .tc main_arg1)) = V (main_arg1 : DevRef τ sig) := rfl
theorem val0_main_arg2 (V : Valuation τ sig (Elt Ideal)) : val0 V (no_index (Proc.devRef .tc main_arg2)) = V (main_arg2 : DevRef τ sig) := rfl
theorem val0_main_arg3 (V : Valuation τ sig (Elt Ideal)) : val0 V (no_index (Proc.devRef .tc main_arg3)) = V (main_arg3 : DevRef τ sig) := rfl
theorem val0_main_arg4 (V : Valuation τ sig (Elt Ideal)) : val0 V (no_index (Proc.devRef .tc main_arg4)) = V (main_arg4 : DevRef τ sig) := rfl
theorem val0_main_arg5 (V : Valuation τ sig (Elt Ideal)) : val0 V (no_index (Proc.devRef .tc main_arg5)) = V (main_arg5 : DevRef τ sig) := rfl

/-- The buffer contents after the first 1 stage. -/
def val1 (V : Valuation τ sig (Elt Ideal)) : Valuation τ sig (Elt Ideal) := after (opsA (F := Ideal)) (val0 V)
/-- The buffers stage 1's operations write. -/
abbrev opsA_W : List (Ref sig .tc) := [main_v0, main_v1, main_v2, main_v3]
theorem opsA_writes : (opsA : List (HloOp τ sig (Elt Ideal))).Forall fun op => op.writes ⊆ (opsA_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 1 does not write keeps its contents through it. -/
theorem val1_keep (V : Valuation τ sig (Elt Ideal)) (r : Ref sig .tc) (h : r ∉ opsA_W) :
    val1 V (Proc.devRef .tc r) = val0 V (Proc.devRef .tc r) :=
  after_of_writes_sub opsA _ opsA_writes h
set_option maxRecDepth 16384 in
set_option maxHeartbeats 4000000 in
theorem val1_main_v1 (V : Valuation τ sig (Elt Ideal)) : val1 V (no_index (Proc.devRef .tc main_v1)) = Spec.src (V (main_arg1 : DevRef τ sig)) := by
  unfold val1
  simp only [opsA]
  after_results_simp
  simp only [val0_main_arg1] <;> rfl
set_option maxRecDepth 16384 in
set_option maxHeartbeats 4000000 in
theorem val1_main_v3 (V : Valuation τ sig (Elt Ideal)) : val1 V (no_index (Proc.devRef .tc main_v3)) = Spec.dst (V (main_arg1 : DevRef τ sig)) := by
  unfold val1
  simp only [opsA]
  after_results_simp
  simp only [val0_main_arg1] <;> rfl
theorem val1_main_arg0 (V : Valuation τ sig (Elt Ideal)) : val1 V (no_index (Proc.devRef .tc main_arg0)) = V (main_arg0 : DevRef τ sig) :=
  (val1_keep V main_arg0 (by decide)).trans (val0_main_arg0 V)
theorem val1_main_arg1 (V : Valuation τ sig (Elt Ideal)) : val1 V (no_index (Proc.devRef .tc main_arg1)) = V (main_arg1 : DevRef τ sig) :=
  (val1_keep V main_arg1 (by decide)).trans (val0_main_arg1 V)
theorem val1_main_arg2 (V : Valuation τ sig (Elt Ideal)) : val1 V (no_index (Proc.devRef .tc main_arg2)) = V (main_arg2 : DevRef τ sig) :=
  (val1_keep V main_arg2 (by decide)).trans (val0_main_arg2 V)
theorem val1_main_arg3 (V : Valuation τ sig (Elt Ideal)) : val1 V (no_index (Proc.devRef .tc main_arg3)) = V (main_arg3 : DevRef τ sig) :=
  (val1_keep V main_arg3 (by decide)).trans (val0_main_arg3 V)
theorem val1_main_arg4 (V : Valuation τ sig (Elt Ideal)) : val1 V (no_index (Proc.devRef .tc main_arg4)) = V (main_arg4 : DevRef τ sig) :=
  (val1_keep V main_arg4 (by decide)).trans (val0_main_arg4 V)
theorem val1_main_arg5 (V : Valuation τ sig (Elt Ideal)) : val1 V (no_index (Proc.devRef .tc main_arg5)) = V (main_arg5 : DevRef τ sig) :=
  (val1_keep V main_arg5 (by decide)).trans (val0_main_arg5 V)

/-- The buffer contents after the first 2 stages. -/
def val2 (V : Valuation τ sig (Elt Ideal)) : Valuation τ sig (Elt Ideal) := after (opsB (F := Ideal)) (val1 V)
/-- The buffers stage 2's operations write. -/
abbrev opsB_W : List (Ref sig .tc) := [main_cst, main_v4, main_c, main_v5, main_v6, main_c_0, main_v7, main_v8, main_v9, main_v10, main_cst_1, main_v11, main_v12, main_cst_2, main_v13, main_v14, main_v15]
theorem opsB_writes : (opsB : List (HloOp τ sig (Elt Ideal))).Forall fun op => op.writes ⊆ (opsB_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 2 does not write keeps its contents through it. -/
theorem val2_keep (V : Valuation τ sig (Elt Ideal)) (r : Ref sig .tc) (h : r ∉ opsB_W) :
    val2 V (Proc.devRef .tc r) = val1 V (Proc.devRef .tc r) :=
  after_of_writes_sub opsB _ opsB_writes h
theorem val2_main_v1 (V : Valuation τ sig (Elt Ideal)) : val2 V (no_index (Proc.devRef .tc main_v1)) = Spec.src (V (main_arg1 : DevRef τ sig)) :=
  (val2_keep V main_v1 (by decide)).trans (val1_main_v1 V)
theorem val2_main_v3 (V : Valuation τ sig (Elt Ideal)) : val2 V (no_index (Proc.devRef .tc main_v3)) = Spec.dst (V (main_arg1 : DevRef τ sig)) :=
  (val2_keep V main_v3 (by decide)).trans (val1_main_v3 V)
set_option maxRecDepth 16384 in
set_option maxHeartbeats 4000000 in
theorem val2_main_v15 (V : Valuation τ sig (Elt Ideal)) : val2 V (no_index (Proc.devRef .tc main_v15)) = Spec.dinv (V (main_arg1 : DevRef τ sig)) := by
  unfold val2
  simp only [opsB]
  after_results_simp
  simp only [val1_main_v3] <;> rfl
theorem val2_main_arg0 (V : Valuation τ sig (Elt Ideal)) : val2 V (no_index (Proc.devRef .tc main_arg0)) = V (main_arg0 : DevRef τ sig) :=
  (val2_keep V main_arg0 (by decide)).trans (val1_main_arg0 V)
theorem val2_main_arg1 (V : Valuation τ sig (Elt Ideal)) : val2 V (no_index (Proc.devRef .tc main_arg1)) = V (main_arg1 : DevRef τ sig) :=
  (val2_keep V main_arg1 (by decide)).trans (val1_main_arg1 V)
theorem val2_main_arg2 (V : Valuation τ sig (Elt Ideal)) : val2 V (no_index (Proc.devRef .tc main_arg2)) = V (main_arg2 : DevRef τ sig) :=
  (val2_keep V main_arg2 (by decide)).trans (val1_main_arg2 V)
theorem val2_main_arg3 (V : Valuation τ sig (Elt Ideal)) : val2 V (no_index (Proc.devRef .tc main_arg3)) = V (main_arg3 : DevRef τ sig) :=
  (val2_keep V main_arg3 (by decide)).trans (val1_main_arg3 V)
theorem val2_main_arg4 (V : Valuation τ sig (Elt Ideal)) : val2 V (no_index (Proc.devRef .tc main_arg4)) = V (main_arg4 : DevRef τ sig) :=
  (val2_keep V main_arg4 (by decide)).trans (val1_main_arg4 V)
theorem val2_main_arg5 (V : Valuation τ sig (Elt Ideal)) : val2 V (no_index (Proc.devRef .tc main_arg5)) = V (main_arg5 : DevRef τ sig) :=
  (val2_keep V main_arg5 (by decide)).trans (val1_main_arg5 V)

/-- The buffer contents after the first 3 stages. -/
def val3 (V : Valuation τ sig (Elt Ideal)) : Valuation τ sig (Elt Ideal) := after (opsC (F := Ideal)) (val2 V)
/-- The buffers stage 3's operations write. -/
abbrev opsC_W : List (Ref sig .tc) := [main_v16]
theorem opsC_writes : (opsC : List (HloOp τ sig (Elt Ideal))).Forall fun op => op.writes ⊆ (opsC_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer stage 3 does not write keeps its contents through it. -/
theorem val3_keep (V : Valuation τ sig (Elt Ideal)) (r : Ref sig .tc) (h : r ∉ opsC_W) :
    val3 V (Proc.devRef .tc r) = val2 V (Proc.devRef .tc r) :=
  after_of_writes_sub opsC _ opsC_writes h
theorem val3_main_v1 (V : Valuation τ sig (Elt Ideal)) : val3 V (no_index (Proc.devRef .tc main_v1)) = Spec.src (V (main_arg1 : DevRef τ sig)) :=
  (val3_keep V main_v1 (by decide)).trans (val2_main_v1 V)
theorem val3_main_v3 (V : Valuation τ sig (Elt Ideal)) : val3 V (no_index (Proc.devRef .tc main_v3)) = Spec.dst (V (main_arg1 : DevRef τ sig)) :=
  (val3_keep V main_v3 (by decide)).trans (val2_main_v3 V)
theorem val3_main_v15 (V : Valuation τ sig (Elt Ideal)) : val3 V (no_index (Proc.devRef .tc main_v15)) = Spec.dinv (V (main_arg1 : DevRef τ sig)) :=
  (val3_keep V main_v15 (by decide)).trans (val2_main_v15 V)
set_option maxRecDepth 16384 in
set_option maxHeartbeats 4000000 in
theorem val3_main_v16 (V : Valuation τ sig (Elt Ideal)) : val3 V (no_index (Proc.devRef .tc main_v16)) = Host.dotGeneral (F := Ideal) (φ₁ := .f32) (φ₂ := .f32) dot_S50000x512_S512x256_S50000x256_1_0_0_1_n_n none (V (main_arg0 : DevRef τ sig)) (V (main_arg2 : DevRef τ sig)) := by
  unfold val3
  simp only [opsC]
  after_results_simp
  simp only [val2_main_arg2, val2_main_arg0] <;> rfl
theorem val3_main_arg0 (V : Valuation τ sig (Elt Ideal)) : val3 V (no_index (Proc.devRef .tc main_arg0)) = V (main_arg0 : DevRef τ sig) :=
  (val3_keep V main_arg0 (by decide)).trans (val2_main_arg0 V)
theorem val3_main_arg1 (V : Valuation τ sig (Elt Ideal)) : val3 V (no_index (Proc.devRef .tc main_arg1)) = V (main_arg1 : DevRef τ sig) :=
  (val3_keep V main_arg1 (by decide)).trans (val2_main_arg1 V)
theorem val3_main_arg2 (V : Valuation τ sig (Elt Ideal)) : val3 V (no_index (Proc.devRef .tc main_arg2)) = V (main_arg2 : DevRef τ sig) :=
  (val3_keep V main_arg2 (by decide)).trans (val2_main_arg2 V)
theorem val3_main_arg3 (V : Valuation τ sig (Elt Ideal)) : val3 V (no_index (Proc.devRef .tc main_arg3)) = V (main_arg3 : DevRef τ sig) :=
  (val3_keep V main_arg3 (by decide)).trans (val2_main_arg3 V)
theorem val3_main_arg4 (V : Valuation τ sig (Elt Ideal)) : val3 V (no_index (Proc.devRef .tc main_arg4)) = V (main_arg4 : DevRef τ sig) :=
  (val3_keep V main_arg4 (by decide)).trans (val2_main_arg4 V)
theorem val3_main_arg5 (V : Valuation τ sig (Elt Ideal)) : val3 V (no_index (Proc.devRef .tc main_arg5)) = V (main_arg5 : DevRef τ sig) :=
  (val3_keep V main_arg5 (by decide)).trans (val2_main_arg5 V)

/-- The buffer contents after the first 4 stages. -/
def val4 (V : Valuation τ sig (Elt Ideal)) : Valuation τ sig (Elt Ideal) := after (opsD (F := Ideal)) (val3 V)
/-- The buffers stage 4's operations write. -/
abbrev opsD_W : List (Ref sig .tc) := [main_c_3, main_v17, main_v18, main_c_4, main_v19, main_v20, main_v21, main_v22, main_v23, main_c_5, main_v24, main_v25, main_c_6, main_v26, main_v27, main_v28, main_v29, main_v30, main_v31]
theorem opsD_writes : (opsD : List (HloOp τ sig (Elt Ideal))).Forall fun op => op.writes ⊆ (opsD_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 4 does not write keeps its contents through it. -/
theorem val4_keep (V : Valuation τ sig (Elt Ideal)) (r : Ref sig .tc) (h : r ∉ opsD_W) :
    val4 V (Proc.devRef .tc r) = val3 V (Proc.devRef .tc r) :=
  after_of_writes_sub opsD _ opsD_writes h
theorem val4_main_v1 (V : Valuation τ sig (Elt Ideal)) : val4 V (no_index (Proc.devRef .tc main_v1)) = Spec.src (V (main_arg1 : DevRef τ sig)) :=
  (val4_keep V main_v1 (by decide)).trans (val3_main_v1 V)
theorem val4_main_v3 (V : Valuation τ sig (Elt Ideal)) : val4 V (no_index (Proc.devRef .tc main_v3)) = Spec.dst (V (main_arg1 : DevRef τ sig)) :=
  (val4_keep V main_v3 (by decide)).trans (val3_main_v3 V)
theorem val4_main_v15 (V : Valuation τ sig (Elt Ideal)) : val4 V (no_index (Proc.devRef .tc main_v15)) = Spec.dinv (V (main_arg1 : DevRef τ sig)) :=
  (val4_keep V main_v15 (by decide)).trans (val3_main_v15 V)
theorem val4_main_v16 (V : Valuation τ sig (Elt Ideal)) : val4 V (no_index (Proc.devRef .tc main_v16)) = Host.dotGeneral (F := Ideal) (φ₁ := .f32) (φ₂ := .f32) dot_S50000x512_S512x256_S50000x256_1_0_0_1_n_n none (V (main_arg0 : DevRef τ sig)) (V (main_arg2 : DevRef τ sig)) :=
  (val4_keep V main_v16 (by decide)).trans (val3_main_v16 V)
set_option maxRecDepth 16384 in
set_option maxHeartbeats 4000000 in
theorem val4_main_v31 (V : Valuation τ sig (Elt Ideal)) : val4 V (no_index (Proc.devRef .tc main_v31)) = Spec.coef (V (main_arg1 : DevRef τ sig)) := by
  unfold val4
  simp only [opsD]
  after_results_simp
  simp only [val3_main_v3, val3_main_v15, val3_main_v1] <;> rfl
theorem val4_main_arg0 (V : Valuation τ sig (Elt Ideal)) : val4 V (no_index (Proc.devRef .tc main_arg0)) = V (main_arg0 : DevRef τ sig) :=
  (val4_keep V main_arg0 (by decide)).trans (val3_main_arg0 V)
theorem val4_main_arg1 (V : Valuation τ sig (Elt Ideal)) : val4 V (no_index (Proc.devRef .tc main_arg1)) = V (main_arg1 : DevRef τ sig) :=
  (val4_keep V main_arg1 (by decide)).trans (val3_main_arg1 V)
theorem val4_main_arg2 (V : Valuation τ sig (Elt Ideal)) : val4 V (no_index (Proc.devRef .tc main_arg2)) = V (main_arg2 : DevRef τ sig) :=
  (val4_keep V main_arg2 (by decide)).trans (val3_main_arg2 V)
theorem val4_main_arg3 (V : Valuation τ sig (Elt Ideal)) : val4 V (no_index (Proc.devRef .tc main_arg3)) = V (main_arg3 : DevRef τ sig) :=
  (val4_keep V main_arg3 (by decide)).trans (val3_main_arg3 V)
theorem val4_main_arg4 (V : Valuation τ sig (Elt Ideal)) : val4 V (no_index (Proc.devRef .tc main_arg4)) = V (main_arg4 : DevRef τ sig) :=
  (val4_keep V main_arg4 (by decide)).trans (val3_main_arg4 V)
theorem val4_main_arg5 (V : Valuation τ sig (Elt Ideal)) : val4 V (no_index (Proc.devRef .tc main_arg5)) = V (main_arg5 : DevRef τ sig) :=
  (val4_keep V main_arg5 (by decide)).trans (val3_main_arg5 V)

/-- The buffer contents after the first 5 stages. -/
def val5 (V : Valuation τ sig (Elt Ideal)) : Valuation τ sig (Elt Ideal) := after (opsE (F := Ideal)) (val4 V)
/-- The buffers stage 5's operations write. -/
abbrev opsE_W : List (Ref sig .tc) := [main_c_7, main_v32, main_v33, main_c_8, main_v34, main_v35, main_v36, main_v37, main_v38, main_v39, main_v40, main_v41, main_cst_9, main_v42, main_v43, main_v44]
theorem opsE_writes : (opsE : List (HloOp τ sig (Elt Ideal))).Forall fun op => op.writes ⊆ (opsE_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 5 does not write keeps its contents through it. -/
theorem val5_keep (V : Valuation τ sig (Elt Ideal)) (r : Ref sig .tc) (h : r ∉ opsE_W) :
    val5 V (Proc.devRef .tc r) = val4 V (Proc.devRef .tc r) :=
  after_of_writes_sub opsE _ opsE_writes h
theorem val5_main_v15 (V : Valuation τ sig (Elt Ideal)) : val5 V (no_index (Proc.devRef .tc main_v15)) = Spec.dinv (V (main_arg1 : DevRef τ sig)) :=
  (val5_keep V main_v15 (by decide)).trans (val4_main_v15 V)
theorem val5_main_v16 (V : Valuation τ sig (Elt Ideal)) : val5 V (no_index (Proc.devRef .tc main_v16)) = Host.dotGeneral (F := Ideal) (φ₁ := .f32) (φ₂ := .f32) dot_S50000x512_S512x256_S50000x256_1_0_0_1_n_n none (V (main_arg0 : DevRef τ sig)) (V (main_arg2 : DevRef τ sig)) :=
  (val5_keep V main_v16 (by decide)).trans (val4_main_v16 V)
set_option maxRecDepth 16384 in
set_option maxHeartbeats 4000000 in
theorem val5_main_v44 (V : Valuation τ sig (Elt Ideal)) : val5 V (no_index (Proc.devRef .tc main_v44)) = Spec.agg256 (V (main_arg1 : DevRef τ sig)) (Host.dotGeneral (F := Ideal) (φ₁ := .f32) (φ₂ := .f32) dot_S50000x512_S512x256_S50000x256_1_0_0_1_n_n none (V (main_arg0 : DevRef τ sig)) (V (main_arg2 : DevRef τ sig))) := by
  unfold val5
  simp only [opsE]
  after_results_simp
  simp only [val4_main_v31, val4_main_v1, val4_main_v16, val4_main_v3] <;> rfl
theorem val5_main_arg0 (V : Valuation τ sig (Elt Ideal)) : val5 V (no_index (Proc.devRef .tc main_arg0)) = V (main_arg0 : DevRef τ sig) :=
  (val5_keep V main_arg0 (by decide)).trans (val4_main_arg0 V)
theorem val5_main_arg1 (V : Valuation τ sig (Elt Ideal)) : val5 V (no_index (Proc.devRef .tc main_arg1)) = V (main_arg1 : DevRef τ sig) :=
  (val5_keep V main_arg1 (by decide)).trans (val4_main_arg1 V)
theorem val5_main_arg2 (V : Valuation τ sig (Elt Ideal)) : val5 V (no_index (Proc.devRef .tc main_arg2)) = V (main_arg2 : DevRef τ sig) :=
  (val5_keep V main_arg2 (by decide)).trans (val4_main_arg2 V)
theorem val5_main_arg3 (V : Valuation τ sig (Elt Ideal)) : val5 V (no_index (Proc.devRef .tc main_arg3)) = V (main_arg3 : DevRef τ sig) :=
  (val5_keep V main_arg3 (by decide)).trans (val4_main_arg3 V)
theorem val5_main_arg4 (V : Valuation τ sig (Elt Ideal)) : val5 V (no_index (Proc.devRef .tc main_arg4)) = V (main_arg4 : DevRef τ sig) :=
  (val5_keep V main_arg4 (by decide)).trans (val4_main_arg4 V)
theorem val5_main_arg5 (V : Valuation τ sig (Elt Ideal)) : val5 V (no_index (Proc.devRef .tc main_arg5)) = V (main_arg5 : DevRef τ sig) :=
  (val5_keep V main_arg5 (by decide)).trans (val4_main_arg5 V)

/-- The buffer contents after the first 6 stages. -/
def val6 (V : Valuation τ sig (Elt Ideal)) : Valuation τ sig (Elt Ideal) := after (opsF (F := Ideal)) (val5 V)
/-- The buffers stage 6's operations write. -/
abbrev opsF_W : List (Ref sig .tc) := [main_v45, main_v46, main_v47, main_v48, main_v49, main_v50, main_v51, main_v52, main_cst_10, main_call0_cst, main_call0_v0, main_call0_v1, main_call0_v2, main_call0_v3, main_call0_v4, main_v53]
theorem opsF_writes : (opsF : List (HloOp τ sig (Elt Ideal))).Forall fun op => op.writes ⊆ (opsF_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 6 does not write keeps its contents through it. -/
theorem val6_keep (V : Valuation τ sig (Elt Ideal)) (r : Ref sig .tc) (h : r ∉ opsF_W) :
    val6 V (Proc.devRef .tc r) = val5 V (Proc.devRef .tc r) :=
  after_of_writes_sub opsF _ opsF_writes h
set_option maxRecDepth 16384 in
set_option maxHeartbeats 4000000 in
theorem val6_main_v53 (V : Valuation τ sig (Elt Ideal)) : val6 V (no_index (Proc.devRef .tc main_v53)) = Spec.layer1 (V (main_arg0 : DevRef τ sig)) (V (main_arg1 : DevRef τ sig)) (V (main_arg2 : DevRef τ sig)) (V (main_arg3 : DevRef τ sig)) := by
  unfold val6
  simp only [opsF]
  after_results_simp
  simp only [val5_main_arg3, val5_main_v16, val5_main_v15, val5_main_v44] <;> rfl
theorem val6_main_arg0 (V : Valuation τ sig (Elt Ideal)) : val6 V (no_index (Proc.devRef .tc main_arg0)) = V (main_arg0 : DevRef τ sig) :=
  (val6_keep V main_arg0 (by decide)).trans (val5_main_arg0 V)
theorem val6_main_arg1 (V : Valuation τ sig (Elt Ideal)) : val6 V (no_index (Proc.devRef .tc main_arg1)) = V (main_arg1 : DevRef τ sig) :=
  (val6_keep V main_arg1 (by decide)).trans (val5_main_arg1 V)
theorem val6_main_arg2 (V : Valuation τ sig (Elt Ideal)) : val6 V (no_index (Proc.devRef .tc main_arg2)) = V (main_arg2 : DevRef τ sig) :=
  (val6_keep V main_arg2 (by decide)).trans (val5_main_arg2 V)
theorem val6_main_arg3 (V : Valuation τ sig (Elt Ideal)) : val6 V (no_index (Proc.devRef .tc main_arg3)) = V (main_arg3 : DevRef τ sig) :=
  (val6_keep V main_arg3 (by decide)).trans (val5_main_arg3 V)
theorem val6_main_arg4 (V : Valuation τ sig (Elt Ideal)) : val6 V (no_index (Proc.devRef .tc main_arg4)) = V (main_arg4 : DevRef τ sig) :=
  (val6_keep V main_arg4 (by decide)).trans (val5_main_arg4 V)
theorem val6_main_arg5 (V : Valuation τ sig (Elt Ideal)) : val6 V (no_index (Proc.devRef .tc main_arg5)) = V (main_arg5 : DevRef τ sig) :=
  (val6_keep V main_arg5 (by decide)).trans (val5_main_arg5 V)

/-- The buffer contents after the first 7 stages. -/
def val7 (V : Valuation τ sig (Elt Ideal)) : Valuation τ sig (Elt Ideal) := after (opsG (F := Ideal)) (val6 V)
/-- The buffers stage 7's operations write. -/
abbrev opsG_W : List (Ref sig .tc) := [main_v54, main_v55, main_v56, main_v57]
theorem opsG_writes : (opsG : List (HloOp τ sig (Elt Ideal))).Forall fun op => op.writes ⊆ (opsG_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 7 does not write keeps its contents through it. -/
theorem val7_keep (V : Valuation τ sig (Elt Ideal)) (r : Ref sig .tc) (h : r ∉ opsG_W) :
    val7 V (Proc.devRef .tc r) = val6 V (Proc.devRef .tc r) :=
  after_of_writes_sub opsG _ opsG_writes h
theorem val7_main_v53 (V : Valuation τ sig (Elt Ideal)) : val7 V (no_index (Proc.devRef .tc main_v53)) = Spec.layer1 (V (main_arg0 : DevRef τ sig)) (V (main_arg1 : DevRef τ sig)) (V (main_arg2 : DevRef τ sig)) (V (main_arg3 : DevRef τ sig)) :=
  (val7_keep V main_v53 (by decide)).trans (val6_main_v53 V)
set_option maxRecDepth 16384 in
set_option maxHeartbeats 4000000 in
theorem val7_main_v55 (V : Valuation τ sig (Elt Ideal)) : val7 V (no_index (Proc.devRef .tc main_v55)) = Spec.src (V (main_arg1 : DevRef τ sig)) := by
  unfold val7
  simp only [opsG]
  after_results_simp
  simp only [val6_main_arg1] <;> rfl
set_option maxRecDepth 16384 in
set_option maxHeartbeats 4000000 in
theorem val7_main_v57 (V : Valuation τ sig (Elt Ideal)) : val7 V (no_index (Proc.devRef .tc main_v57)) = Spec.dst (V (main_arg1 : DevRef τ sig)) := by
  unfold val7
  simp only [opsG]
  after_results_simp
  simp only [val6_main_arg1] <;> rfl
theorem val7_main_arg0 (V : Valuation τ sig (Elt Ideal)) : val7 V (no_index (Proc.devRef .tc main_arg0)) = V (main_arg0 : DevRef τ sig) :=
  (val7_keep V main_arg0 (by decide)).trans (val6_main_arg0 V)
theorem val7_main_arg1 (V : Valuation τ sig (Elt Ideal)) : val7 V (no_index (Proc.devRef .tc main_arg1)) = V (main_arg1 : DevRef τ sig) :=
  (val7_keep V main_arg1 (by decide)).trans (val6_main_arg1 V)
theorem val7_main_arg2 (V : Valuation τ sig (Elt Ideal)) : val7 V (no_index (Proc.devRef .tc main_arg2)) = V (main_arg2 : DevRef τ sig) :=
  (val7_keep V main_arg2 (by decide)).trans (val6_main_arg2 V)
theorem val7_main_arg3 (V : Valuation τ sig (Elt Ideal)) : val7 V (no_index (Proc.devRef .tc main_arg3)) = V (main_arg3 : DevRef τ sig) :=
  (val7_keep V main_arg3 (by decide)).trans (val6_main_arg3 V)
theorem val7_main_arg4 (V : Valuation τ sig (Elt Ideal)) : val7 V (no_index (Proc.devRef .tc main_arg4)) = V (main_arg4 : DevRef τ sig) :=
  (val7_keep V main_arg4 (by decide)).trans (val6_main_arg4 V)
theorem val7_main_arg5 (V : Valuation τ sig (Elt Ideal)) : val7 V (no_index (Proc.devRef .tc main_arg5)) = V (main_arg5 : DevRef τ sig) :=
  (val7_keep V main_arg5 (by decide)).trans (val6_main_arg5 V)

/-- The buffer contents after the first 8 stages. -/
def val8 (V : Valuation τ sig (Elt Ideal)) : Valuation τ sig (Elt Ideal) := after (opsH (F := Ideal)) (val7 V)
/-- The buffers stage 8's operations write. -/
abbrev opsH_W : List (Ref sig .tc) := [main_cst_11, main_v58, main_c_12, main_v59, main_v60, main_c_13, main_v61, main_v62, main_v63, main_v64, main_cst_14, main_v65, main_v66, main_cst_15, main_v67, main_v68, main_v69]
theorem opsH_writes : (opsH : List (HloOp τ sig (Elt Ideal))).Forall fun op => op.writes ⊆ (opsH_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 8 does not write keeps its contents through it. -/
theorem val8_keep (V : Valuation τ sig (Elt Ideal)) (r : Ref sig .tc) (h : r ∉ opsH_W) :
    val8 V (Proc.devRef .tc r) = val7 V (Proc.devRef .tc r) :=
  after_of_writes_sub opsH _ opsH_writes h
theorem val8_main_v53 (V : Valuation τ sig (Elt Ideal)) : val8 V (no_index (Proc.devRef .tc main_v53)) = Spec.layer1 (V (main_arg0 : DevRef τ sig)) (V (main_arg1 : DevRef τ sig)) (V (main_arg2 : DevRef τ sig)) (V (main_arg3 : DevRef τ sig)) :=
  (val8_keep V main_v53 (by decide)).trans (val7_main_v53 V)
theorem val8_main_v55 (V : Valuation τ sig (Elt Ideal)) : val8 V (no_index (Proc.devRef .tc main_v55)) = Spec.src (V (main_arg1 : DevRef τ sig)) :=
  (val8_keep V main_v55 (by decide)).trans (val7_main_v55 V)
theorem val8_main_v57 (V : Valuation τ sig (Elt Ideal)) : val8 V (no_index (Proc.devRef .tc main_v57)) = Spec.dst (V (main_arg1 : DevRef τ sig)) :=
  (val8_keep V main_v57 (by decide)).trans (val7_main_v57 V)
set_option maxRecDepth 16384 in
set_option maxHeartbeats 4000000 in
theorem val8_main_v69 (V : Valuation τ sig (Elt Ideal)) : val8 V (no_index (Proc.devRef .tc main_v69)) = Spec.dinv (V (main_arg1 : DevRef τ sig)) := by
  unfold val8
  simp only [opsH]
  after_results_simp
  simp only [val7_main_v57] <;> rfl
theorem val8_main_arg0 (V : Valuation τ sig (Elt Ideal)) : val8 V (no_index (Proc.devRef .tc main_arg0)) = V (main_arg0 : DevRef τ sig) :=
  (val8_keep V main_arg0 (by decide)).trans (val7_main_arg0 V)
theorem val8_main_arg1 (V : Valuation τ sig (Elt Ideal)) : val8 V (no_index (Proc.devRef .tc main_arg1)) = V (main_arg1 : DevRef τ sig) :=
  (val8_keep V main_arg1 (by decide)).trans (val7_main_arg1 V)
theorem val8_main_arg2 (V : Valuation τ sig (Elt Ideal)) : val8 V (no_index (Proc.devRef .tc main_arg2)) = V (main_arg2 : DevRef τ sig) :=
  (val8_keep V main_arg2 (by decide)).trans (val7_main_arg2 V)
theorem val8_main_arg3 (V : Valuation τ sig (Elt Ideal)) : val8 V (no_index (Proc.devRef .tc main_arg3)) = V (main_arg3 : DevRef τ sig) :=
  (val8_keep V main_arg3 (by decide)).trans (val7_main_arg3 V)
theorem val8_main_arg4 (V : Valuation τ sig (Elt Ideal)) : val8 V (no_index (Proc.devRef .tc main_arg4)) = V (main_arg4 : DevRef τ sig) :=
  (val8_keep V main_arg4 (by decide)).trans (val7_main_arg4 V)
theorem val8_main_arg5 (V : Valuation τ sig (Elt Ideal)) : val8 V (no_index (Proc.devRef .tc main_arg5)) = V (main_arg5 : DevRef τ sig) :=
  (val8_keep V main_arg5 (by decide)).trans (val7_main_arg5 V)

/-- The buffer contents after the first 9 stages. -/
def val9 (V : Valuation τ sig (Elt Ideal)) : Valuation τ sig (Elt Ideal) := after (opsI (F := Ideal)) (val8 V)
/-- The buffers stage 9's operations write. -/
abbrev opsI_W : List (Ref sig .tc) := [main_v70]
theorem opsI_writes : (opsI : List (HloOp τ sig (Elt Ideal))).Forall fun op => op.writes ⊆ (opsI_W.map (Proc.devRef (τ := τ) .tc)).toFinset := by
  simp only [List.Forall]; exact (by simp only [nullary_writes, unary_writes, binary_writes, ternary_writes, quaternary_writes, reshape_writes, Finset.singleton_subset_iff, List.mem_toFinset]; exact List.mem_map_of_mem (by decide))
/-- A buffer stage 9 does not write keeps its contents through it. -/
theorem val9_keep (V : Valuation τ sig (Elt Ideal)) (r : Ref sig .tc) (h : r ∉ opsI_W) :
    val9 V (Proc.devRef .tc r) = val8 V (Proc.devRef .tc r) :=
  after_of_writes_sub opsI _ opsI_writes h
theorem val9_main_v55 (V : Valuation τ sig (Elt Ideal)) : val9 V (no_index (Proc.devRef .tc main_v55)) = Spec.src (V (main_arg1 : DevRef τ sig)) :=
  (val9_keep V main_v55 (by decide)).trans (val8_main_v55 V)
theorem val9_main_v57 (V : Valuation τ sig (Elt Ideal)) : val9 V (no_index (Proc.devRef .tc main_v57)) = Spec.dst (V (main_arg1 : DevRef τ sig)) :=
  (val9_keep V main_v57 (by decide)).trans (val8_main_v57 V)
theorem val9_main_v69 (V : Valuation τ sig (Elt Ideal)) : val9 V (no_index (Proc.devRef .tc main_v69)) = Spec.dinv (V (main_arg1 : DevRef τ sig)) :=
  (val9_keep V main_v69 (by decide)).trans (val8_main_v69 V)
set_option maxRecDepth 16384 in
set_option maxHeartbeats 4000000 in
theorem val9_main_v70 (V : Valuation τ sig (Elt Ideal)) : val9 V (no_index (Proc.devRef .tc main_v70)) = Host.dotGeneral (F := Ideal) (φ₁ := .f32) (φ₂ := .f32) dot_S50000x256_S256x128_S50000x128_1_0_0_1_n_n none (Spec.layer1 (V (main_arg0 : DevRef τ sig)) (V (main_arg1 : DevRef τ sig)) (V (main_arg2 : DevRef τ sig)) (V (main_arg3 : DevRef τ sig))) (V (main_arg4 : DevRef τ sig)) := by
  unfold val9
  simp only [opsI]
  after_results_simp
  simp only [val8_main_arg4, val8_main_v53] <;> rfl
theorem val9_main_arg0 (V : Valuation τ sig (Elt Ideal)) : val9 V (no_index (Proc.devRef .tc main_arg0)) = V (main_arg0 : DevRef τ sig) :=
  (val9_keep V main_arg0 (by decide)).trans (val8_main_arg0 V)
theorem val9_main_arg1 (V : Valuation τ sig (Elt Ideal)) : val9 V (no_index (Proc.devRef .tc main_arg1)) = V (main_arg1 : DevRef τ sig) :=
  (val9_keep V main_arg1 (by decide)).trans (val8_main_arg1 V)
theorem val9_main_arg2 (V : Valuation τ sig (Elt Ideal)) : val9 V (no_index (Proc.devRef .tc main_arg2)) = V (main_arg2 : DevRef τ sig) :=
  (val9_keep V main_arg2 (by decide)).trans (val8_main_arg2 V)
theorem val9_main_arg3 (V : Valuation τ sig (Elt Ideal)) : val9 V (no_index (Proc.devRef .tc main_arg3)) = V (main_arg3 : DevRef τ sig) :=
  (val9_keep V main_arg3 (by decide)).trans (val8_main_arg3 V)
theorem val9_main_arg4 (V : Valuation τ sig (Elt Ideal)) : val9 V (no_index (Proc.devRef .tc main_arg4)) = V (main_arg4 : DevRef τ sig) :=
  (val9_keep V main_arg4 (by decide)).trans (val8_main_arg4 V)
theorem val9_main_arg5 (V : Valuation τ sig (Elt Ideal)) : val9 V (no_index (Proc.devRef .tc main_arg5)) = V (main_arg5 : DevRef τ sig) :=
  (val9_keep V main_arg5 (by decide)).trans (val8_main_arg5 V)

/-- The buffer contents after the first 10 stages. -/
def val10 (V : Valuation τ sig (Elt Ideal)) : Valuation τ sig (Elt Ideal) := after (opsJ (F := Ideal)) (val9 V)
/-- The buffers stage 10's operations write. -/
abbrev opsJ_W : List (Ref sig .tc) := [main_c_16, main_v71, main_v72, main_c_17, main_v73, main_v74, main_v75, main_v76, main_v77, main_c_18, main_v78, main_v79, main_c_19, main_v80, main_v81, main_v82, main_v83, main_v84, main_v85]
theorem opsJ_writes : (opsJ : List (HloOp τ sig (Elt Ideal))).Forall fun op => op.writes ⊆ (opsJ_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 10 does not write keeps its contents through it. -/
theorem val10_keep (V : Valuation τ sig (Elt Ideal)) (r : Ref sig .tc) (h : r ∉ opsJ_W) :
    val10 V (Proc.devRef .tc r) = val9 V (Proc.devRef .tc r) :=
  after_of_writes_sub opsJ _ opsJ_writes h
theorem val10_main_v55 (V : Valuation τ sig (Elt Ideal)) : val10 V (no_index (Proc.devRef .tc main_v55)) = Spec.src (V (main_arg1 : DevRef τ sig)) :=
  (val10_keep V main_v55 (by decide)).trans (val9_main_v55 V)
theorem val10_main_v57 (V : Valuation τ sig (Elt Ideal)) : val10 V (no_index (Proc.devRef .tc main_v57)) = Spec.dst (V (main_arg1 : DevRef τ sig)) :=
  (val10_keep V main_v57 (by decide)).trans (val9_main_v57 V)
theorem val10_main_v69 (V : Valuation τ sig (Elt Ideal)) : val10 V (no_index (Proc.devRef .tc main_v69)) = Spec.dinv (V (main_arg1 : DevRef τ sig)) :=
  (val10_keep V main_v69 (by decide)).trans (val9_main_v69 V)
theorem val10_main_v70 (V : Valuation τ sig (Elt Ideal)) : val10 V (no_index (Proc.devRef .tc main_v70)) = Host.dotGeneral (F := Ideal) (φ₁ := .f32) (φ₂ := .f32) dot_S50000x256_S256x128_S50000x128_1_0_0_1_n_n none (Spec.layer1 (V (main_arg0 : DevRef τ sig)) (V (main_arg1 : DevRef τ sig)) (V (main_arg2 : DevRef τ sig)) (V (main_arg3 : DevRef τ sig))) (V (main_arg4 : DevRef τ sig)) :=
  (val10_keep V main_v70 (by decide)).trans (val9_main_v70 V)
set_option maxRecDepth 16384 in
set_option maxHeartbeats 4000000 in
theorem val10_main_v85 (V : Valuation τ sig (Elt Ideal)) : val10 V (no_index (Proc.devRef .tc main_v85)) = Spec.coef (V (main_arg1 : DevRef τ sig)) := by
  unfold val10
  simp only [opsJ]
  after_results_simp
  simp only [val9_main_v57, val9_main_v69, val9_main_v55] <;> rfl
theorem val10_main_arg0 (V : Valuation τ sig (Elt Ideal)) : val10 V (no_index (Proc.devRef .tc main_arg0)) = V (main_arg0 : DevRef τ sig) :=
  (val10_keep V main_arg0 (by decide)).trans (val9_main_arg0 V)
theorem val10_main_arg1 (V : Valuation τ sig (Elt Ideal)) : val10 V (no_index (Proc.devRef .tc main_arg1)) = V (main_arg1 : DevRef τ sig) :=
  (val10_keep V main_arg1 (by decide)).trans (val9_main_arg1 V)
theorem val10_main_arg2 (V : Valuation τ sig (Elt Ideal)) : val10 V (no_index (Proc.devRef .tc main_arg2)) = V (main_arg2 : DevRef τ sig) :=
  (val10_keep V main_arg2 (by decide)).trans (val9_main_arg2 V)
theorem val10_main_arg3 (V : Valuation τ sig (Elt Ideal)) : val10 V (no_index (Proc.devRef .tc main_arg3)) = V (main_arg3 : DevRef τ sig) :=
  (val10_keep V main_arg3 (by decide)).trans (val9_main_arg3 V)
theorem val10_main_arg4 (V : Valuation τ sig (Elt Ideal)) : val10 V (no_index (Proc.devRef .tc main_arg4)) = V (main_arg4 : DevRef τ sig) :=
  (val10_keep V main_arg4 (by decide)).trans (val9_main_arg4 V)
theorem val10_main_arg5 (V : Valuation τ sig (Elt Ideal)) : val10 V (no_index (Proc.devRef .tc main_arg5)) = V (main_arg5 : DevRef τ sig) :=
  (val10_keep V main_arg5 (by decide)).trans (val9_main_arg5 V)

/-- The buffer contents after the first 11 stages. -/
def val11 (V : Valuation τ sig (Elt Ideal)) : Valuation τ sig (Elt Ideal) := after (opsK (F := Ideal)) (val10 V)
/-- The buffers stage 11's operations write. -/
abbrev opsK_W : List (Ref sig .tc) := [main_c_20, main_v86, main_v87, main_c_21, main_v88, main_v89, main_v90, main_v91, main_v92, main_v93, main_v94, main_v95, main_cst_22, main_v96, main_v97, main_v98]
theorem opsK_writes : (opsK : List (HloOp τ sig (Elt Ideal))).Forall fun op => op.writes ⊆ (opsK_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 11 does not write keeps its contents through it. -/
theorem val11_keep (V : Valuation τ sig (Elt Ideal)) (r : Ref sig .tc) (h : r ∉ opsK_W) :
    val11 V (Proc.devRef .tc r) = val10 V (Proc.devRef .tc r) :=
  after_of_writes_sub opsK _ opsK_writes h
theorem val11_main_v69 (V : Valuation τ sig (Elt Ideal)) : val11 V (no_index (Proc.devRef .tc main_v69)) = Spec.dinv (V (main_arg1 : DevRef τ sig)) :=
  (val11_keep V main_v69 (by decide)).trans (val10_main_v69 V)
theorem val11_main_v70 (V : Valuation τ sig (Elt Ideal)) : val11 V (no_index (Proc.devRef .tc main_v70)) = Host.dotGeneral (F := Ideal) (φ₁ := .f32) (φ₂ := .f32) dot_S50000x256_S256x128_S50000x128_1_0_0_1_n_n none (Spec.layer1 (V (main_arg0 : DevRef τ sig)) (V (main_arg1 : DevRef τ sig)) (V (main_arg2 : DevRef τ sig)) (V (main_arg3 : DevRef τ sig))) (V (main_arg4 : DevRef τ sig)) :=
  (val11_keep V main_v70 (by decide)).trans (val10_main_v70 V)
set_option maxRecDepth 16384 in
set_option maxHeartbeats 4000000 in
theorem val11_main_v98 (V : Valuation τ sig (Elt Ideal)) : val11 V (no_index (Proc.devRef .tc main_v98)) = Spec.agg128 (V (main_arg1 : DevRef τ sig)) (Host.dotGeneral (F := Ideal) (φ₁ := .f32) (φ₂ := .f32) dot_S50000x256_S256x128_S50000x128_1_0_0_1_n_n none (Spec.layer1 (V (main_arg0 : DevRef τ sig)) (V (main_arg1 : DevRef τ sig)) (V (main_arg2 : DevRef τ sig)) (V (main_arg3 : DevRef τ sig))) (V (main_arg4 : DevRef τ sig))) := by
  unfold val11
  simp only [opsK]
  after_results_simp
  simp only [val10_main_v85, val10_main_v55, val10_main_v70, val10_main_v57] <;> rfl
theorem val11_main_arg0 (V : Valuation τ sig (Elt Ideal)) : val11 V (no_index (Proc.devRef .tc main_arg0)) = V (main_arg0 : DevRef τ sig) :=
  (val11_keep V main_arg0 (by decide)).trans (val10_main_arg0 V)
theorem val11_main_arg1 (V : Valuation τ sig (Elt Ideal)) : val11 V (no_index (Proc.devRef .tc main_arg1)) = V (main_arg1 : DevRef τ sig) :=
  (val11_keep V main_arg1 (by decide)).trans (val10_main_arg1 V)
theorem val11_main_arg2 (V : Valuation τ sig (Elt Ideal)) : val11 V (no_index (Proc.devRef .tc main_arg2)) = V (main_arg2 : DevRef τ sig) :=
  (val11_keep V main_arg2 (by decide)).trans (val10_main_arg2 V)
theorem val11_main_arg3 (V : Valuation τ sig (Elt Ideal)) : val11 V (no_index (Proc.devRef .tc main_arg3)) = V (main_arg3 : DevRef τ sig) :=
  (val11_keep V main_arg3 (by decide)).trans (val10_main_arg3 V)
theorem val11_main_arg4 (V : Valuation τ sig (Elt Ideal)) : val11 V (no_index (Proc.devRef .tc main_arg4)) = V (main_arg4 : DevRef τ sig) :=
  (val11_keep V main_arg4 (by decide)).trans (val10_main_arg4 V)
theorem val11_main_arg5 (V : Valuation τ sig (Elt Ideal)) : val11 V (no_index (Proc.devRef .tc main_arg5)) = V (main_arg5 : DevRef τ sig) :=
  (val11_keep V main_arg5 (by decide)).trans (val10_main_arg5 V)

/-- The buffer contents after the first 12 stages. -/
def val12 (V : Valuation τ sig (Elt Ideal)) : Valuation τ sig (Elt Ideal) := after (opsL (F := Ideal)) (val11 V)
/-- The buffers stage 12's operations write. -/
abbrev opsL_W : List (Ref sig .tc) := [main_v99, main_v100, main_v101, main_v102, main_v103, main_v104, main_v105, main_v106, main_cst_23, main_call1_cst, main_call1_v0, main_call1_v1, main_call1_v2, main_call1_v3, main_call1_v4, main_v107]
theorem opsL_writes : (opsL : List (HloOp τ sig (Elt Ideal))).Forall fun op => op.writes ⊆ (opsL_W.map (Proc.devRef (τ := τ) .tc)).toFinset := by
  simp only [List.Forall]; exact ⟨by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide),
    by simp only [nullary_writes, unary_writes, binary_writes, ternary_writes, quaternary_writes, reshape_writes, Finset.singleton_subset_iff, List.mem_toFinset]; exact List.mem_map_of_mem (by decide)⟩
/-- A buffer stage 12 does not write keeps its contents through it. -/
theorem val12_keep (V : Valuation τ sig (Elt Ideal)) (r : Ref sig .tc) (h : r ∉ opsL_W) :
    val12 V (Proc.devRef .tc r) = val11 V (Proc.devRef .tc r) :=
  after_of_writes_sub opsL _ opsL_writes h
set_option maxRecDepth 16384 in
set_option maxHeartbeats 4000000 in
theorem val12_main_v107 (V : Valuation τ sig (Elt Ideal)) : val12 V (no_index (Proc.devRef .tc main_v107)) = Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) := by
  unfold val12
  simp only [opsL]
  after_results_simp
  simp only [val11_main_arg5, val11_main_v70, val11_main_v69, val11_main_v98] <;> rfl
theorem val12_main_arg0 (V : Valuation τ sig (Elt Ideal)) : val12 V (no_index (Proc.devRef .tc main_arg0)) = V (main_arg0 : DevRef τ sig) :=
  (val12_keep V main_arg0 (by decide)).trans (val11_main_arg0 V)
theorem val12_main_arg1 (V : Valuation τ sig (Elt Ideal)) : val12 V (no_index (Proc.devRef .tc main_arg1)) = V (main_arg1 : DevRef τ sig) :=
  (val12_keep V main_arg1 (by decide)).trans (val11_main_arg1 V)
theorem val12_main_arg2 (V : Valuation τ sig (Elt Ideal)) : val12 V (no_index (Proc.devRef .tc main_arg2)) = V (main_arg2 : DevRef τ sig) :=
  (val12_keep V main_arg2 (by decide)).trans (val11_main_arg2 V)
theorem val12_main_arg3 (V : Valuation τ sig (Elt Ideal)) : val12 V (no_index (Proc.devRef .tc main_arg3)) = V (main_arg3 : DevRef τ sig) :=
  (val12_keep V main_arg3 (by decide)).trans (val11_main_arg3 V)
theorem val12_main_arg4 (V : Valuation τ sig (Elt Ideal)) : val12 V (no_index (Proc.devRef .tc main_arg4)) = V (main_arg4 : DevRef τ sig) :=
  (val12_keep V main_arg4 (by decide)).trans (val11_main_arg4 V)
theorem val12_main_arg5 (V : Valuation τ sig (Elt Ideal)) : val12 V (no_index (Proc.devRef .tc main_arg5)) = V (main_arg5 : DevRef τ sig) :=
  (val12_keep V main_arg5 (by decide)).trans (val11_main_arg5 V)

set_option maxRecDepth 16384 in
/-- The fold over the whole list is the twelve stages' contents. -/
theorem after_ops (V : Valuation τ sig (Elt Ideal)) : after (ops (F := Ideal)) V = val12 V := by
  simp only [ops_split, after_append]
  rfl

/-- The whole list's fold at the result buffer is the reference's result as a function of the six arguments. -/
theorem out_eq (V : Valuation τ sig (Elt Ideal)) :
    after (ops (F := Ideal)) V (main_v107 : DevRef τ sig) = Spec.out (V (main_arg0 : DevRef τ sig)) (V (main_arg1 : DevRef τ sig)) (V (main_arg2 : DevRef τ sig)) (V (main_arg3 : DevRef τ sig)) (V (main_arg4 : DevRef τ sig)) (V (main_arg5 : DevRef τ sig)) :=
  (congrFun (after_ops V) _).trans (val12_main_v107 V)

/-- On every device, from any memory with zero counters: every weakly fair execution of @main terminates with the
    result buffer at the reference's result as a function of the six argument arrays' launch contents, and the
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v107) = Cert.ReferenceIdeal.Spec.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c main_v107).trans (by simp only [after_ops]; exact val12_main_v107 (launchContents m c)),
      (h c main_arg0).trans (by simp only [after_ops]; exact val12_main_arg0 (launchContents m c)),
      (h c main_arg1).trans (by simp only [after_ops]; exact val12_main_arg1 (launchContents m c)),
      (h c main_arg2).trans (by simp only [after_ops]; exact val12_main_arg2 (launchContents m c)),
      (h c main_arg3).trans (by simp only [after_ops]; exact val12_main_arg3 (launchContents m c)),
      (h c main_arg4).trans (by simp only [after_ops]; exact val12_main_arg4 (launchContents m c)),
      (h c main_arg5).trans (by simp only [after_ops]; exact val12_main_arg5 (launchContents m c))⟩)
    (run_after m ρ)

/-- The run's frame alone: @main terminates and the six argument arrays end unchanged. -/
theorem frame_of_run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.ReferenceIdeal.RefRun

end
-- ==== Proof.lean ====
/-
  Two graph-convolution layers, tiled on the TensorCore, against their plain reference.

  A layer maps node features Z [50000, ·] to leaky ((agg + dinv² · H) + b) with H = Z · W, dinv = deg^(-1/2) (deg counting
  the edges into a node, plus one) and agg the sum over edges e of dinv (src e) · dinv (dst e) · H (src e) into dst e. The
  kernel computes H by a product of one 2000-row block at a time and the last step by one 2000-row block at a time, and
  leaves the edge sums to host operations; the reference does all of it on the host. Over the extended reals the two are
  one function of the six arguments:
  * a block of rows of Z · W depends on those rows of Z and all of W, and the 25 blocks tile the 50000 rows, so the
    blockwise products assemble to the host's whole product (a product into a zero accumulator is the plain sum);
  * the last step acts entry by entry, and at entry (i, j) both sides form (agg (i, j) + dinv² (i) · H (i, j)) + b (j) in this
    order and grouping and rectify it with the same threshold and slope, so no law of arithmetic beyond reading the
    operands is used and no finiteness of the inputs is needed;
  * dinv² reaches the kernel's last step recast as a column and the bias recast as a row, where the reference spreads
    them: the same arrays;
  * every other stage (edge rows, degree count, gathers, weighted sums over edges) is the same host operation on the same
    operands in both programs.
  The idealization rewrites nothing, so that claim is trivial. The three frames: the two kernels' by the launch of their
  segments, the reference's by its run with the result dropped.
-/
import proofs.«120794_j75333726371971_1_alg».proof.Defs
import proofs.«120794_j75333726371971_1_alg».proof.Proof.Gen.Kernel
import proofs.«120794_j75333726371971_1_alg».proof.Proof.Gen.Kernel.Skeleton
import proofs.«120794_j75333726371971_1_alg».proof.Proof.Gen.Kernel.Launch
import proofs.«120794_j75333726371971_1_alg».proof.Proof.Gen.Kernel.Points
import proofs.«120794_j75333726371971_1_alg».proof.Proof.Gen.Kernel.Frame
import proofs.«120794_j75333726371971_1_alg».proof.Proof.Gen.KernelIdeal
import proofs.«120794_j75333726371971_1_alg».proof.Proof.Gen.KernelIdeal.Skeleton
import proofs.«120794_j75333726371971_1_alg».proof.Proof.Gen.KernelIdeal.Launch
import proofs.«120794_j75333726371971_1_alg».proof.Proof.Gen.KernelIdeal.Points
import proofs.«120794_j75333726371971_1_alg».proof.Proof.Gen.KernelIdeal.Frame
import proofs.«120794_j75333726371971_1_alg».proof.Proof.Gen.ReferenceIdeal
import proofs.«120794_j75333726371971_1_alg».proof.Proof.Gen.Pre_finite_inputs
import proofs.«120794_j75333726371971_1_alg».proof.Proof.RunValue
import proofs.«120794_j75333726371971_1_alg».proof.Proof.ChainFold
import proofs.«120794_j75333726371971_1_alg».proof.Proof.RefRun
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RefRun.run m ρ)

/-- Both runs end with the result array at the reference's function of the arguments, which agree. -/
theorem algebraic : Cert.algebraic_KernelIdeal_ReferenceIdeal := by
  intro m ρ m' ρ' _ hagree
  refine ⟨fun c => Cert.ReferenceIdeal.Spec.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun r h c => ⟨(h c).1.trans (Cert.KernelIdeal.Chain.result_eq m ρ c), (h c).2⟩)
      (Cert.KernelIdeal.RunValue.run m ρ)
  · refine (θ_run Cert.ReferenceIdeal.defs _ _).mono (fun r h c => ⟨(h c).1.trans ?_, (h c).2⟩)
      (Cert.ReferenceIdeal.RefRun.run m' ρ')
    rw [(hagree c).1, (hagree c).2.1, (hagree c).2.2.1, (hagree c).2.2.2.1, (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
